-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S100000x128 : Shape := ⟨2, ![100000, 128]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : IVec S200000 32) (main_arg1 : IVec S200000 32) (main_arg2 : FVec F S100000x128 .f32) (main_arg3 : FVec F S100000x128 .f32) (main_arg4 : FVec F S3x128x128 .f32) (main_arg5 : FVec F S3x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S200000 : Shape := ⟨1, ![200000]⟩
abbrev S100000x128 : Shape := ⟨2, ![100000, 128]⟩
abbrev S3x128x128 : Shape := ⟨3, ![3, 128, 128]⟩
abbrev S3x128 : Shape := ⟨2, ![3, 128]⟩
abbrev S_ : Shape := ⟨0, ![]⟩
abbrev S200000x1 : Shape := ⟨2, ![200000, 1]⟩
abbrev S200000x128 : Shape := ⟨2, ![200000, 128]⟩
abbrev S400000x128 : Shape := ⟨2, ![400000, 128]⟩
abbrev S400000 : Shape := ⟨1, ![400000]⟩
abbrev S400000x1 : Shape := ⟨2, ![400000, 1]⟩
abbrev S1x128x128 : Shape := ⟨3, ![1, 128, 128]⟩
abbrev S128x128 : Shape := ⟨2, ![128, 128]⟩
abbrev S16000x128 : Shape := ⟨2, ![16000, 128]⟩
abbrev S16000x1 : Shape := ⟨2, ![16000, 1]⟩
abbrev S1x128 : Shape := ⟨2, ![1, 128]⟩
abbrev S128 : Shape := ⟨1, ![128]⟩

abbrev nBuf : Space → Nat
  | .hbm => 120
  | .vmem => 23
  | .smem => 0
  | _ => 0

abbrev bufTy : (tb : Table) → Fin (tcTables nBuf tb) → BufTy
  | .hbm, ⟨0, _⟩ => ⟨S200000, .i32⟩
  | .hbm, ⟨1, _⟩ => ⟨S200000, .i32⟩
  | .hbm, ⟨2, _⟩ => ⟨S100000x128, .f32⟩
  | .hbm, ⟨3, _⟩ => ⟨S100000x128, .f32⟩
  | .hbm, ⟨4, _⟩ => ⟨S3x128x128, .f32⟩
  | .hbm, ⟨5, _⟩ => ⟨S3x128, .f32⟩
  | .hbm, ⟨6, _⟩ => ⟨S_, .i32⟩
  | .hbm, ⟨7, _⟩ => ⟨S200000, .i32⟩
  | .hbm, ⟨8, _⟩ => ⟨S200000, .i1⟩
  | .hbm, ⟨9, _⟩ => ⟨S_, .i32⟩
  | .hbm, ⟨10, _⟩ => ⟨S200000, .i32⟩
  | .hbm, ⟨11, _⟩ => ⟨S200000, .i32⟩
  | .hbm, ⟨12, _⟩ => ⟨S200000, .i32⟩
  | .hbm, ⟨13, _⟩ => ⟨S200000x1, .i32⟩
  | .hbm, ⟨14, _⟩ => ⟨S200000x128, .f32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x128, .f32⟩
  | .hbm, ⟨24, _⟩ => ⟨S400000x128, .f32⟩
  | .hbm, ⟨25, _⟩ => ⟨S_, .i32⟩
  | .hbm, ⟨26, _⟩ => ⟨S200000, .i32⟩
  | .hbm, ⟨27, _⟩ => ⟨S200000, .i32⟩
  | .hbm, ⟨28, _⟩ => ⟨S400000, .i32⟩
  | .hbm, ⟨29, _⟩ => ⟨S400000, .i32⟩
  | .hbm, ⟨30, _⟩ => ⟨S_, .f32⟩
  | .hbm, ⟨31, _⟩ => ⟨S400000, .f32⟩
  | .hbm, ⟨32, _⟩ => ⟨S_, .f32⟩
  | .hbm, ⟨33, _⟩ => ⟨S400000, .f32⟩
  | .hbm, ⟨34, _⟩ => ⟨S400000x1, .i32⟩
  | .hbm, ⟨35, _⟩ => ⟨S400000, .f32⟩
  | .hbm, ⟨36, _⟩ => ⟨S_, .f32⟩
  | .hbm, ⟨37, _⟩ => ⟨S400000, .f32⟩
  | .hbm, ⟨38, _⟩ => ⟨S400000, .f32⟩
  | .hbm, ⟨39, _⟩ => ⟨S_, .f32⟩
  | .hbm, ⟨40, _⟩ => ⟨S400000, .f32⟩
  | .hbm, ⟨41, _⟩ => ⟨S400000, .i1⟩
  | .hbm, ⟨42, _⟩ => ⟨S_, .f32⟩
  | .hbm, ⟨43, _⟩ => ⟨S400000, .f32⟩
  | .hbm, ⟨44, _⟩ => ⟨S400000, .f32⟩
  | .hbm, ⟨45, _⟩ => ⟨S400000, .f32⟩
  | .hbm, ⟨46, _⟩ => ⟨S_, .f32⟩
  | .hbm, ⟨47, _⟩ => ⟨S_, .f32⟩
  | .hbm, ⟨48, _⟩ => ⟨S400000, .f32⟩
  | .hbm, ⟨49, _⟩ => ⟨S400000, .f32⟩
  | .hbm, ⟨50, _⟩ => ⟨S400000x1, .f32⟩
  | .hbm, ⟨51, _⟩ => ⟨S1x128x128, .f32⟩
  | .hbm, ⟨52, _⟩ => ⟨S128x128, .f32⟩
  | .hbm, ⟨53, _⟩ => ⟨S400000x128, .f32⟩
  | .hbm, ⟨54, _⟩ => ⟨S_, .i32⟩
  | .hbm, ⟨55, _⟩ => ⟨S400000, .i32⟩
  | .hbm, ⟨56, _⟩ => ⟨S400000, .i1⟩
  | .hbm, ⟨57, _⟩ => ⟨S_, .i32⟩
  | .hbm, ⟨58, _⟩ => ⟨S400000, .i32⟩
  | .hbm, ⟨59, _⟩ => ⟨S400000, .i32⟩
  | .hbm, ⟨60, _⟩ => ⟨S400000, .i32⟩
  | .hbm, ⟨61, _⟩ => ⟨S400000x1, .i32⟩
  | .hbm, ⟨62, _⟩ => ⟨S400000x128, .f32⟩
  | .hbm, ⟨63, _⟩ => ⟨S_, .f32⟩
  | .hbm, ⟨64, _⟩ => ⟨S400000x128, .f32⟩
  | .hbm, ⟨65, _⟩ => ⟨S400000x1, .i32⟩
  | .hbm, ⟨66, _⟩ => ⟨S400000x128, .f32⟩
  | .hbm, ⟨67, _⟩ => ⟨S400000x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S1x128x128, .f32⟩
  | .hbm, ⟨72, _⟩ => ⟨S128x128, .f32⟩
  | .hbm, ⟨73, _⟩ => ⟨S400000x128, .f32⟩
  | .hbm, ⟨74, _⟩ => ⟨S_, .i32⟩
  | .hbm, ⟨75, _⟩ => ⟨S400000, .i32⟩
  | .hbm, ⟨76, _⟩ => ⟨S400000, .i1⟩
  | .hbm, ⟨77, _⟩ => ⟨S_, .i32⟩
  | .hbm, ⟨78, _⟩ => ⟨S400000, .i32⟩
  | .hbm, ⟨79, _⟩ => ⟨S400000, .i32⟩
  | .hbm, ⟨80, _⟩ => ⟨S400000, .i32⟩
  | .hbm, ⟨81, _⟩ => ⟨S400000x1, .i32⟩
  | .hbm, ⟨82, _⟩ => ⟨S400000x128, .f32⟩
  | .hbm, ⟨83, _⟩ => ⟨S_, .f32⟩
  | .hbm, ⟨84, _⟩ => ⟨S400000x128, .f32⟩
  | .hbm, ⟨85, _⟩ => ⟨S400000x1, .i32⟩
  | .hbm, ⟨86, _⟩ => ⟨S400000x128, .f32⟩
  | .hbm, ⟨87, _⟩ => ⟨S400000x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S1x128x128, .f32⟩
  | .hbm, ⟨92, _⟩ => ⟨S128x128, .f32⟩
  | .hbm, ⟨93, _⟩ => ⟨S400000x128, .f32⟩
  | .hbm, ⟨94, _⟩ => ⟨S_, .i32⟩
  | .hbm, ⟨95, _⟩ => ⟨S400000, .i32⟩
  | .hbm, ⟨96, _⟩ => ⟨S400000, .i1⟩
  | .hbm, ⟨97, _⟩ => ⟨S_, .i32⟩
  | .hbm, ⟨98, _⟩ => ⟨S400000, .i32⟩
  | .hbm, ⟨99, _⟩ => ⟨S400000, .i32⟩
  | .hbm, ⟨100, _⟩ => ⟨S400000, .i32⟩
  | .hbm, ⟨101, _⟩ => ⟨S400000x1, .i32⟩
  | .hbm, ⟨102, _⟩ => ⟨S400000x128, .f32⟩
  | .hbm, ⟨103, _⟩ => ⟨S_, .f32⟩
  | .hbm, ⟨104, _⟩ => ⟨S400000x128, .f32⟩
  | .hbm, ⟨105, _⟩ => ⟨S400000x1, .i32⟩
  | .hbm, ⟨106, _⟩ => ⟨S400000x128, .f32⟩
  | .hbm, ⟨107, _⟩ => ⟨S400000x128, .f32⟩
  | .hbm, ⟨108, _⟩ => ⟨S400000x128, .f32⟩
  | .hbm, ⟨109, _⟩ => ⟨S400000x128, .f32⟩
  | .hbm, ⟨110, _⟩ => ⟨S1x128, .f32⟩
  | .hbm, ⟨111, _⟩ => ⟨S128, .f32⟩
  | .hbm, ⟨112, _⟩ => ⟨S1x128, .f32⟩
  | .hbm, ⟨113, _⟩ => ⟨S400000x128, .f32⟩
  | .hbm, ⟨114, _⟩ => ⟨S400000x128, .f32⟩
  | .hbm, ⟨115, _⟩ => ⟨S_, .f32⟩
  | .hbm, ⟨116, _⟩ => ⟨S400000x128, .f32⟩
  | .hbm, ⟨117, _⟩ => ⟨S400000x128, .f32⟩
  | .hbm, ⟨118, _⟩ => ⟨S200000x128, .f32⟩
  | .hbm, ⟨119, _⟩ => ⟨S200000x128, .f32⟩
  | .local _ .vmem, ⟨0, _⟩ => ⟨S16000x128, .f32⟩
  | .local _ .vmem, ⟨1, _⟩ => ⟨S16000x128, .f32⟩
  | .local _ .vmem, ⟨2, _⟩ => ⟨S128x128, .f32⟩
  | .local _ .vmem, ⟨3, _⟩ => ⟨S16000x1, .f32⟩
  | .local _ .vmem, ⟨4, _⟩ => ⟨S16000x1, .f32⟩
  | .local _ .vmem, ⟨5, _⟩ => ⟨S16000x128, .f32⟩
  | .local _ .vmem, ⟨6, _⟩ => ⟨S16000x128, .f32⟩
  | .local _ .vmem, ⟨7, _⟩ => ⟨S16000x128, .f32⟩
  | .local _ .vmem, ⟨8, _⟩ => ⟨S16000x128, .f32⟩
  | .local _ .vmem, ⟨9, _⟩ => ⟨S1x128, .f32⟩
  | .local _ .vmem, ⟨10, _⟩ => ⟨S128x128, .f32⟩
  | .local _ .vmem, ⟨11, _⟩ => ⟨S16000x1, .f32⟩
  | .local _ .vmem, ⟨12, _⟩ => ⟨S16000x1, .f32⟩
  | .local _ .vmem, ⟨13, _⟩ => ⟨S16000x128, .f32⟩
  | .local _ .vmem, ⟨14, _⟩ => ⟨S16000x128, .f32⟩
  | .local _ .vmem, ⟨15, _⟩ => ⟨S16000x128, .f32⟩
  | .local _ .vmem, ⟨16, _⟩ => ⟨S16000x128, .f32⟩
  | .local _ .vmem, ⟨17, _⟩ => ⟨S1x128, .f32⟩
  | .local _ .vmem, ⟨18, _⟩ => ⟨S128x128, .f32⟩
  | .local _ .vmem, ⟨19, _⟩ => ⟨S16000x1, .f32⟩
  | .local _ .vmem, ⟨20, _⟩ => ⟨S16000x1, .f32⟩
  | .local _ .vmem, ⟨21, _⟩ => ⟨S16000x128, .f32⟩
  | .local _ .vmem, ⟨22, _⟩ => ⟨S16000x128, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_call0_v0 : Ref sig .tc := ⟨.hbm, 47, rfl⟩
abbrev main_call0_v1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call1_cst : Ref sig .tc := ⟨.hbm, 115, rfl⟩
abbrev main_call1_v0 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S16000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S400000x128_d0 : Shape.Concatenates [S200000x128, S200000x128] S400000x128 0
  concatenates_S200000_S200000_S400000_d0 : Shape.Concatenates [S200000, S200000] S400000 0
  bcast_S_S400000 : S_.BroadcastsInDim S400000 (![] : Fin 0 → Fin S400000.rank)
  bcast_S400000_S400000x1_0 : S400000.BroadcastsInDim S400000x1 (![0] : Fin 1 → Fin S400000x1.rank)
  shapeCasts_S400000_S400000x1 : S400000.ShapeCasts S400000x1
  slices_S3x128x128_S1x128x128_0_0_0 : S3x128x128.Slices ![0, 0, 0] S1x128x128
  shapeCasts_S1x128x128_S128x128 : S1x128x128.ShapeCasts S128x128
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  broadcasts_S16000x1_S16000x128 : S16000x1.Broadcasts S16000x128
  bcast_S_S400000x128 : S_.BroadcastsInDim S400000x128 (![] : Fin 0 → Fin S400000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_1_0_0 : S3x128x128.Slices ![1, 0, 0] S1x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  slices_S3x128_S1x128_1_0 : S3x128.Slices ![1, 0] S1x128
  slices_S3x128x128_S1x128x128_2_0_0 : S3x128x128.Slices ![2, 0, 0] S1x128x128
  bcast_S400000x1_S400000x128_0_1 : S400000x1.BroadcastsInDim S400000x128 (![0, 1] : Fin 2 → Fin S400000x128.rank)
  slices_S3x128_S1x128_2_0 : S3x128.Slices ![2, 0] S1x128
  bcast_S1x128_S400000x128_0_1 : S1x128.BroadcastsInDim S400000x128 (![0, 1] : Fin 2 → Fin S400000x128.rank)
  slices_S400000x128_S200000x128_0_0 : S400000x128.Slices ![0, 0] S200000x128
  slices_S400000x128_S200000x128_200000_0 : S400000x128.Slices ![200000, 0] S200000x128
  gather_S100000x128_S200000x1_S200000x128_1_0_n_n_0_1_1128_wf : GatherDims.WF S100000x128 S200000x1 S200000x128 [1] [0] [] [0] [] 1 ![1, 128]
  scatter_S400000_S400000x1_S400000_n_0_0_1_wf : ScatterDims.WF S400000 S400000x1 S400000 [] [0] [0] 1
  dot_S16000x128_S128x128_S16000x128_1_0_0_1_n_n_wf : DotDims.WF S16000x128 S128x128 S16000x128 [1] [0] [0] [1] [] []
  gather_S400000x128_S400000x1_S400000x128_1_0_n_n_0_1_1128_wf : GatherDims.WF S400000x128 S400000x1 S400000x128 [1] [0] [] [0] [] 1 ![1, 128]
  scatter_S400000x128_S400000x1_S400000x128_1_0_0_1_wf : ScatterDims.WF S400000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S400000x128.size a
  hwx0_0 : ∀ i : grid0.Coords, EltTy.bits .f32 = 32 ∨ (Rect.block (s := S400000x128) S16000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x1.size a ≤ S400000x1.size a
  hwx0_2 : ∀ i : grid0.Coords, EltTy.bits .f32 = 32 ∨ (Rect.block (s := S400000x1) S16000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x128.size a ≤ S400000x128.size a
  hwx0_3 : ∀ i : grid0.Coords, EltTy.bits .f32 = 32 ∨ (Rect.block (s := S400000x128) S16000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S400000x128.size a
  hwx1_0 : ∀ i : grid1.Coords, EltTy.bits .f32 = 32 ∨ (Rect.block (s := S400000x128) S16000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x1.size a ≤ S400000x1.size a
  hwx1_3 : ∀ i : grid1.Coords, EltTy.bits .f32 = 32 ∨ (Rect.block (s := S400000x1) S16000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16000x128.size a ≤ S400000x128.size a
  hwx1_4 : ∀ i : grid1.Coords, EltTy.bits .f32 = 32 ∨ (Rect.block (s := S400000x128) S16000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x128.size a ≤ S400000x128.size a
  hwx2_0 : ∀ i : grid2.Coords, EltTy.bits .f32 = 32 ∨ (Rect.block (s := S400000x128) S16000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16000x1.size a ≤ S400000x1.size a
  hwx2_3 : ∀ i : grid2.Coords, EltTy.bits .f32 = 32 ∨ (Rect.block (s := S400000x1) S16000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16000x128.size a ≤ S400000x128.size a
  hwx2_4 : ∀ i : grid2.Coords, EltTy.bits .f32 = 32 ∨ (Rect.block (s := S400000x128) S16000x128.size (cc2_transform_4 i) (hinb2_4 i)).WholeWords (EltTy.packing .f32)

variable [Facts₀]

def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S400000_S400000x1_S400000_n_0_0_1 : ScatterDims S400000 S400000x1 S400000 where
  updateWindowDims := []
  insertedWindowDims := [0]
  scatterDimsToOperandDims := [0]
  indexVectorDim := 1
  wf := scatter_S400000_S400000x1_S400000_n_0_0_1_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def scatter_S400000x128_S400000x1_S400000x128_1_0_0_1 : ScatterDims S400000x128 S400000x1 S400000x128 where
  updateWindowDims := [1]
  insertedWindowDims := [0]
  scatterDimsToOperandDims := [0]
  indexVectorDim := 1
  wf := scatter_S400000x128_S400000x1_S400000x128_1_0_0_1_wf

abbrev win0_0 : Pipeline.Window sig grid0 :=
  Pipeline.Window.ofSpec (Memref.whole main_v14) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S16000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S16000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S16000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51) S16000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v62) S16000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S16000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v68) S16000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000 : Shape := ⟨1, ![200000]⟩
abbrev S100000x128 : Shape := ⟨2, ![100000, 128]⟩
abbrev S3x128x128 : Shape := ⟨3, ![3, 128, 128]⟩
abbrev S3x128 : Shape := ⟨2, ![3, 128]⟩
abbrev S_ : Shape := ⟨0, ![]⟩
abbrev S200000x1 : Shape := ⟨2, ![200000, 1]⟩
abbrev S200000x128 : Shape := ⟨2, ![200000, 128]⟩
abbrev S400000x128 : Shape := ⟨2, ![400000, 128]⟩
abbrev S400000 : Shape := ⟨1, ![400000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S800000 : Shape := ⟨1, ![800000]⟩
abbrev S800000x1 : Shape := ⟨2, ![800000, 1]⟩
abbrev S800000x128 : Shape := ⟨2, ![800000, 128]⟩

abbrev nBuf : Space → Nat
  | .hbm => 230
  | .vmem => 0
  | .smem => 0
  | _ => 0

abbrev hbmTy0_0 (i : Nat) : BufTy := match i % 128 with
  | 0 => ⟨S200000, .i32⟩
  | 1 => ⟨S200000, .i32⟩
  | 2 => ⟨S100000x128, .f32⟩
  | 3 => ⟨S100000x128, .f32⟩
  | 4 => ⟨S3x128x128, .f32⟩
  | 5 => ⟨S3x128, .f32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x128, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x128, .f32⟩
  | 24 => ⟨S400000x128, .f32⟩
  | 25 => ⟨S_, .i32⟩
  | 26 => ⟨S200000, .i32⟩
  | 27 => ⟨S200000, .i32⟩
  | 28 => ⟨S400000, .i32⟩
  | 29 => ⟨S400000, .i32⟩
  | 30 => ⟨S1x128x128, .f32⟩
  | 31 => ⟨S128x128, .f32⟩
  | 32 => ⟨S1x128, .f32⟩
  | 33 => ⟨S128, .f32⟩
  | 34 => ⟨S400000, .i32⟩
  | 35 => ⟨S800000, .i32⟩
  | 36 => ⟨S800000, .i32⟩
  | 37 => ⟨S_, .f32⟩
  | 38 => ⟨S800000, .f32⟩
  | 39 => ⟨S_, .f32⟩
  | 40 => ⟨S400000, .f32⟩
  | 41 => ⟨S800000x1, .i32⟩
  | 42 => ⟨S400000, .f32⟩
  | 43 => ⟨S_, .f32⟩
  | 44 => ⟨S400000, .f32⟩
  | 45 => ⟨S400000, .i1⟩
  | 46 => ⟨S_, .f32⟩
  | 47 => ⟨S400000, .f32⟩
  | 48 => ⟨S400000, .f32⟩
  | 49 => ⟨S400000, .f32⟩
  | 50 => ⟨S_, .f32⟩
  | 51 => ⟨S_, .f32⟩
  | 52 => ⟨S400000, .f32⟩
  | 53 => ⟨S400000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000, .f32⟩
  | 72 => ⟨S800000, .f32⟩
  | 73 => ⟨S400000x128, .f32⟩
  | 74 => ⟨S800000x1, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x128, .f32⟩
  | 85 => ⟨S800000x128, .f32⟩
  | 86 => ⟨S_, .f32⟩
  | 87 => ⟨S400000x128, .f32⟩
  | 88 => ⟨S800000x1, .i32⟩
  | 89 => ⟨S400000x128, .f32⟩
  | 90 => ⟨S1x128, .f32⟩
  | 91 => ⟨S400000x128, .f32⟩
  | 92 => ⟨S400000x128, .f32⟩
  | 93 => ⟨S_, .f32⟩
  | 94 => ⟨S400000x128, .f32⟩
  | 95 => ⟨S400000x128, .f32⟩
  | 96 => ⟨S1x128x128, .f32⟩
  | 97 => ⟨S128x128, .f32⟩
  | 98 => ⟨S1x128, .f32⟩
  | 99 => ⟨S128, .f32⟩
  | 100 => ⟨S400000, .i32⟩
  | 101 => ⟨S800000, .i32⟩
  | 102 => ⟨S800000, .i32⟩
  | 103 => ⟨S_, .f32⟩
  | 104 => ⟨S800000, .f32⟩
  | 105 => ⟨S_, .f32⟩
  | 106 => ⟨S400000, .f32⟩
  | 107 => ⟨S800000x1, .i32⟩
  | 108 => ⟨S400000, .f32⟩
  | 109 => ⟨S_, .f32⟩
  | 110 => ⟨S400000, .f32⟩
  | 111 => ⟨S400000, .i1⟩
  | 112 => ⟨S_, .f32⟩
  | 113 => ⟨S400000, .f32⟩
  | 114 => ⟨S400000, .f32⟩
  | 115 => ⟨S400000, .f32⟩
  | 116 => ⟨S_, .f32⟩
  | 117 => ⟨S_, .f32⟩
  | 118 => ⟨S400000, .f32⟩
  | 119 => ⟨S400000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S200000, .i32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .f32⟩
  | 10 => ⟨S800000, .f32⟩
  | 11 => ⟨S400000x128, .f32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x128, .f32⟩
  | 23 => ⟨S800000x128, .f32⟩
  | 24 => ⟨S_, .f32⟩
  | 25 => ⟨S400000x128, .f32⟩
  | 26 => ⟨S800000x1, .i32⟩
  | 27 => ⟨S400000x128, .f32⟩
  | 28 => ⟨S1x128, .f32⟩
  | 29 => ⟨S400000x128, .f32⟩
  | 30 => ⟨S400000x128, .f32⟩
  | 31 => ⟨S_, .f32⟩
  | 32 => ⟨S400000x128, .f32⟩
  | 33 => ⟨S400000x128, .f32⟩
  | 34 => ⟨S1x128x128, .f32⟩
  | 35 => ⟨S128x128, .f32⟩
  | 36 => ⟨S1x128, .f32⟩
  | 37 => ⟨S128, .f32⟩
  | 38 => ⟨S400000, .i32⟩
  | 39 => ⟨S800000, .i32⟩
  | 40 => ⟨S800000, .i32⟩
  | 41 => ⟨S_, .f32⟩
  | 42 => ⟨S800000, .f32⟩
  | 43 => ⟨S_, .f32⟩
  | 44 => ⟨S400000, .f32⟩
  | 45 => ⟨S800000x1, .i32⟩
  | 46 => ⟨S400000, .f32⟩
  | 47 => ⟨S_, .f32⟩
  | 48 => ⟨S400000, .f32⟩
  | 49 => ⟨S400000, .i1⟩
  | 50 => ⟨S_, .f32⟩
  | 51 => ⟨S400000, .f32⟩
  | 52 => ⟨S400000, .f32⟩
  | 53 => ⟨S400000, .f32⟩
  | 54 => ⟨S_, .f32⟩
  | 55 => ⟨S_, .f32⟩
  | 56 => ⟨S400000, .f32⟩
  | 57 => ⟨S400000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000, .f32⟩
  | 76 => ⟨S800000, .f32⟩
  | 77 => ⟨S400000x128, .f32⟩
  | 78 => ⟨S800000x1, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S800000x128, .f32⟩
  | 89 => ⟨S800000x128, .f32⟩
  | 90 => ⟨S_, .f32⟩
  | 91 => ⟨S400000x128, .f32⟩
  | 92 => ⟨S800000x1, .i32⟩
  | 93 => ⟨S400000x128, .f32⟩
  | 94 => ⟨S1x128, .f32⟩
  | 95 => ⟨S400000x128, .f32⟩
  | 96 => ⟨S400000x128, .f32⟩
  | 97 => ⟨S_, .f32⟩
  | 98 => ⟨S400000x128, .f32⟩
  | 99 => ⟨S400000x128, .f32⟩
  | 100 => ⟨S200000x128, .f32⟩
  | 101 => ⟨S200000x128, .f32⟩
  | _ => ⟨S200000, .i32⟩

abbrev hbmTy (i : Nat) : BufTy := match i / 128 with
  | 0 => hbmTy0_0 i
  | 1 => hbmTy0_1 i
  | _ => ⟨S200000, .i32⟩

abbrev bufTy : (tb : Table) → Fin (tcTables nBuf tb) → BufTy
  | .hbm, ⟨i, _⟩ => hbmTy i
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_c_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call1_cst : Ref sig .tc := ⟨.hbm, 93, rfl⟩
abbrev main_call1_v0 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_call2_v0 : Ref sig .tc := ⟨.hbm, 117, rfl⟩
abbrev main_call2_v1 : Ref sig .tc := ⟨.hbm, 118, rfl⟩
abbrev main_v85 : Ref sig .tc := ⟨.hbm, 119, rfl⟩
abbrev main_c_20 : Ref sig .tc := ⟨.hbm, 120, rfl⟩
abbrev main_v86 : Ref sig .tc := ⟨.hbm, 121, rfl⟩
abbrev main_v87 : Ref sig .tc := ⟨.hbm, 122, rfl⟩
abbrev main_c_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_22 : Ref sig .tc := ⟨.hbm, 129, rfl⟩
abbrev main_v93 : Ref sig .tc := ⟨.hbm, 130, rfl⟩
abbrev main_v94 : Ref sig .tc := ⟨.hbm, 131, rfl⟩
abbrev main_c_23 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_24 : Ref sig .tc := ⟨.hbm, 141, rfl⟩
abbrev main_v103 : Ref sig .tc := ⟨.hbm, 142, rfl⟩
abbrev main_v104 : Ref sig .tc := ⟨.hbm, 143, rfl⟩
abbrev main_c_25 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_26 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_call3_cst : Ref sig .tc := ⟨.hbm, 159, rfl⟩
abbrev main_call3_v0 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_27 : Ref sig .tc := ⟨.hbm, 169, rfl⟩
abbrev main_v126 : Ref sig .tc := ⟨.hbm, 170, rfl⟩
abbrev main_cst_28 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_29 : Ref sig .tc := ⟨.hbm, 175, rfl⟩
abbrev main_v130 : Ref sig .tc := ⟨.hbm, 176, rfl⟩
abbrev main_v131 : Ref sig .tc := ⟨.hbm, 177, rfl⟩
abbrev main_cst_30 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_31 : Ref sig .tc := ⟨.hbm, 182, rfl⟩
abbrev main_call4_v0 : Ref sig .tc := ⟨.hbm, 183, rfl⟩
abbrev main_call4_v1 : Ref sig .tc := ⟨.hbm, 184, rfl⟩
abbrev main_v135 : Ref sig .tc := ⟨.hbm, 185, rfl⟩
abbrev main_c_32 : Ref sig .tc := ⟨.hbm, 186, rfl⟩
abbrev main_v136 : Ref sig .tc := ⟨.hbm, 187, rfl⟩
abbrev main_v137 : Ref sig .tc := ⟨.hbm, 188, rfl⟩
abbrev main_c_33 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_c_34 : Ref sig .tc := ⟨.hbm, 195, rfl⟩
abbrev main_v143 : Ref sig .tc := ⟨.hbm, 196, rfl⟩
abbrev main_v144 : Ref sig .tc := ⟨.hbm, 197, rfl⟩
abbrev main_c_35 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_c_36 : Ref sig .tc := ⟨.hbm, 207, rfl⟩
abbrev main_v153 : Ref sig .tc := ⟨.hbm, 208, rfl⟩
abbrev main_v154 : Ref sig .tc := ⟨.hbm, 209, rfl⟩
abbrev main_c_37 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_cst_38 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_call5_cst : Ref sig .tc := ⟨.hbm, 225, rfl⟩
abbrev main_call5_v0 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S400000x128_d0 : Shape.Concatenates [S200000x128, S200000x128] S400000x128 0
  concatenates_S200000_S200000_S400000_d0 : Shape.Concatenates [S200000, S200000] S400000 0
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  concatenates_S400000_S400000_S800000_d0 : Shape.Concatenates [S400000, S400000] S800000 0
  bcast_S_S800000 : S_.BroadcastsInDim S800000 (![] : Fin 0 → Fin S800000.rank)
  bcast_S_S400000 : S_.BroadcastsInDim S400000 (![] : Fin 0 → Fin S400000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S400000x128 : S_.BroadcastsInDim S400000x128 (![] : Fin 0 → Fin S400000x128.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S400000x128_S200000x128_0_0 : S400000x128.Slices ![0, 0] S200000x128
  slices_S400000x128_S200000x128_200000_0 : S400000x128.Slices ![200000, 0] S200000x128
  gather_S100000x128_S200000x1_S200000x128_1_0_n_n_0_1_1128_wf : GatherDims.WF S100000x128 S200000x1 S200000x128 [1] [0] [] [0] [] 1 ![1, 128]
  scatter_S400000_S800000x1_S800000_n_0_0_1_wf : ScatterDims.WF S400000 S800000x1 S800000 [] [0] [0] 1
  gather_S400000_S800000x1_S800000_n_0_n_n_0_1_1_wf : GatherDims.WF S400000 S800000x1 S800000 [] [0] [] [0] [] 1 ![1]
  dot_S400000x128_S128x128_S400000x128_1_0_0_1_n_n_wf : DotDims.WF S400000x128 S128x128 S400000x128 [1] [0] [0] [1] [] []
  gather_S400000x128_S800000x1_S800000x128_1_0_n_n_0_1_1128_wf : GatherDims.WF S400000x128 S800000x1 S800000x128 [1] [0] [] [0] [] 1 ![1, 128]
  scatter_S400000x128_S800000x1_S800000x128_1_0_0_1_wf : ScatterDims.WF S400000x128 S800000x1 S800000x128 [1] [0] [0] 1

variable [Facts₀]

def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def scatter_S400000_S800000x1_S800000_n_0_0_1 : ScatterDims S400000 S800000x1 S800000 where
  updateWindowDims := []
  insertedWindowDims := [0]
  scatterDimsToOperandDims := [0]
  indexVectorDim := 1
  wf := scatter_S400000_S800000x1_S800000_n_0_0_1_wf
def gather_S400000_S800000x1_S800000_n_0_n_n_0_1_1 : GatherDims S400000 S800000x1 S800000 where
  offsetDims := []
  collapsedSliceDims := [0]
  operandBatchingDims := []
  startIndicesBatchingDims := []
  startIndexMap := [0]
  indexVectorDim := 1
  sliceSizes := ![1]
  wf := gather_S400000_S800000x1_S800000_n_0_n_n_0_1_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S400000x128_S800000x1_S800000x128_1_0_n_n_0_1_1128 : GatherDims S400000x128 S800000x1 S800000x128 where
  offsetDims := [1]
  collapsedSliceDims := [0]
  operandBatchingDims := []
  startIndicesBatchingDims := []
  startIndexMap := [0]
  indexVectorDim := 1
  sliceSizes := ![1, 128]
  wf := gather_S400000x128_S800000x1_S800000x128_1_0_n_n_0_1_1128_wf
def scatter_S400000x128_S800000x1_S800000x128_1_0_0_1 : ScatterDims S400000x128 S800000x1 S800000x128 where
  updateWindowDims := [1]
  insertedWindowDims := [0]
  scatterDimsToOperandDims := [0]
  indexVectorDim := 1
  wf := scatter_S400000x128_S800000x1_S800000x128_1_0_0_1_wf

class Facts : Prop extends Facts₀ where

variable [Facts]
-- ==== Proof.Spec.lean ====
/-
  The mathematics both programs compute, stated once over plain functions.

  A graph-convolution layer over n nodes with D features.  An edge list is given by two columns of 32-bit words: the
  word `dst e` names the node that edge e adds into — read as a signed integer and NOT clamped, so an edge whose word is
  outside [0, n) adds nowhere — and the word `src e` names the node whose row the edge carries: a negative word is
  first wrapped by adding n, then read signed and clamped into [0, n − 1].  Every node also has one loop edge to itself.

  The in-degree of node i is the number of edges landing on i plus one for the loop; `dv i` is its inverse square root
  (the select on "degree > 0" always takes the first branch, since the degree is at least one).  With H = X · W the
  reference layer is

      relu( ∑ over edges e landing on i of (dv (row e) · dv i) · H (row e)  +  (dv i · dv i) · H i  +  b ),

  while the kernel first scales the rows, H' j = dv j · H j, adds the carried rows and the node's own,
  S i = ∑ over edges e landing on i of H' (row e) + H' i, and only then scales by dv i:  relu(dv i · S i + b).
  The two agree because dv i is a non-negative REAL number: multiplication by such a number distributes over every sum
  of extended reals, infinite terms included.
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic Idealize.ShloMosaic.ValueIdx
open scoped BigOperators

/-! ## The shapes, written out -/

abbrev SND : Shape := ⟨2, ![400000, 128]⟩
abbrev SN1 : Shape := ⟨2, ![400000, 1]⟩
abbrev SDD : Shape := ⟨2, ![128, 128]⟩
abbrev S1D : Shape := ⟨2, ![1, 128]⟩
abbrev SN : Shape := ⟨1, ![400000]⟩
abbrev S3DD : Shape := ⟨3, ![3, 128, 128]⟩
abbrev S3D : Shape := ⟨2, ![3, 128]⟩

/-! ## What one launch of the matrix unit leaves in its output array -/

/-- The first launch: row i of X · W, scaled by the i-th entry of the column dv. -/
def lin (X : SND.Idx → EReal) (W : SDD.Idx → EReal) (dv : SN1.Idx → EReal) : SND.Idx → EReal :=
  fun j => dv (ix2 (j 0) (0 : Fin 1)) * ∑ k : Fin 128, X (ix2 (j 0) k) * W (ix2 k (j 1))

/-- The later launches: the input rows are first scaled, shifted by the bias row and clipped at zero. -/
def linRelu (S : SND.Idx → EReal) (b : S1D.Idx → EReal) (W : SDD.Idx → EReal) (dv : SN1.Idx → EReal) : SND.Idx → EReal :=
  fun j => dv (ix2 (j 0) (0 : Fin 1)) *
    ∑ k : Fin 128, max (dv (ix2 (j 0) (0 : Fin 1)) * S (ix2 (j 0) k) + b (ix2 (0 : Fin 1) k)) 0 * W (ix2 k (j 1))

/-! ## Edge words -/

/-- A negative word is wrapped by adding the node count (32-bit addition); other words are kept. -/
def wrapW (w : BitVec 32) : BitVec 32 := Scalar.select (IntOp.cmpi .slt w 0#32) (IntOp.addi w 400000#32) w

/-- The node whose row a source word carries: wrapped, read signed, clamped into [0, n − 1]. -/
def rowOfW (w : BitVec 32) : Fin 400000 := ⟨min (wrapW w).toInt.toNat (400000 - 1), by omega⟩

/-- A destination word lands on node i when its signed value is i. -/
def landsW (w : BitVec 32) (i : Fin 400000) : Prop := w.toInt = (i.val : Int)

instance (w : BitVec 32) (i : Fin 400000) : Decidable (landsW w i) := inferInstanceAs (Decidable (_ = _))

/-! ## Degrees -/

/-- The float 1.0 and the float 0.0 as the programs write them. -/
def oneW : EReal := Ideal.ofBits .f32 0x3F800000#32
def zeroW : EReal := Ideal.ofBits .f32 0x00000000#32

/-- The inverse square root of a degree, with the programs' guard. -/
def dvOf (g : EReal) : EReal :=
  Scalar.select (Ideal.cmp .ogt g zeroW) (Ideal.rsqrt (max g oneW)) zeroW

section Layer

variable {n D : Nat}
variable (lands : Fin n → Fin n → Prop) [∀ e i, Decidable (lands e i)] (row : Fin n → Fin n)

/-- The degree of node i: one per landing edge, and one for the loop. -/
def degS (i : Fin n) : EReal := (∑ e : Fin n, if lands e i then oneW else 0) + oneW

/-- The matrix product at (i, d). -/
def mm (X : Fin n → Fin D → EReal) (W : Fin D → Fin D → EReal) (i : Fin n) (d : Fin D) : EReal := ∑ k : Fin D, X i k * W k d

/-- The kernel's aggregation of already-scaled rows: the carried rows plus the node's own. -/
def agg (Hp : Fin n → Fin D → EReal) (i : Fin n) (d : Fin D) : EReal :=
  (∑ e : Fin n, if lands e i then Hp (row e) d else 0) + Hp i d

/-- The reference's aggregation: each carried row scaled by both end points' factors, and the loop. -/
def refAgg (dv : Fin n → EReal) (H : Fin n → Fin D → EReal) (i : Fin n) (d : Fin D) : EReal :=
  (∑ e : Fin n, if lands e i then (dv (row e) * dv i) * H (row e) d else 0) + (dv i * dv i) * H i d

/-- One layer: the next activations from the current ones. -/
def step (dv : Fin n → EReal) (X : Fin n → Fin D → EReal) (W : Fin D → Fin D → EReal) (b : Fin D → EReal)
    (i : Fin n) (d : Fin D) : EReal :=
  max (dv i * agg lands row (fun j d' => dv j * mm X W j d') i d + b d) 0

/-- A non-negative real factor distributes over a finite sum of extended reals. -/
theorem coe_mul_sum {ι : Type} (s : Finset ι) (r : ℝ) (hr : 0 ≤ r) (f : ι → EReal) :
    (r : EReal) * ∑ e ∈ s, f e = ∑ e ∈ s, (r : EReal) * f e := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- THE LAW: the reference's aggregation is the kernel's, scaled once more by the node's factor. -/
theorem refAgg_eq (dv : Fin n → EReal) (hdv : ∀ i, ∃ r : ℝ, 0 ≤ r ∧ dv i = (r : EReal)) (H : Fin n → Fin D → EReal)
    (i : Fin n) (d : Fin D) :
    refAgg lands row dv H i d = dv i * agg lands row (fun j d' => dv j * H j d') i d := by
  obtain ⟨r, hr, hri⟩ := hdv i
  unfold refAgg agg
  rw [hri, EReal.left_distrib_of_nonneg_of_ne_top (EReal.coe_nonneg.mpr hr) (EReal.coe_ne_top r), coe_mul_sum _ r hr]
  congr 1
  · refine Finset.sum_congr rfl fun e _ => ?_
    by_cases h : lands e i
    · rw [if_pos h, if_pos h, mul_comm (dv (row e)) (r : EReal), mul_assoc]
    · rw [if_neg h, if_neg h, mul_zero]
  · show (r : EReal) * (r : EReal) * H i d = (r : EReal) * (dv i * H i d)
    rw [hri, mul_assoc]

/-- One reference layer is one step. -/
theorem refStep_eq (dv : Fin n → EReal) (hdv : ∀ i, ∃ r : ℝ, 0 ≤ r ∧ dv i = (r : EReal))
    (X : Fin n → Fin D → EReal) (W : Fin D → Fin D → EReal) (b : Fin D → EReal) (i : Fin n) (d : Fin D) :
    max (refAgg lands row dv (mm X W) i d + b d) 0 = step lands row dv X W b i d := by
  unfold step
  rw [refAgg_eq lands row dv hdv]

end Layer

/-! ## The factor is a non-negative real -/

/-- The float 1.0 is the real number one. -/
theorem oneW_eq : oneW = ((1 : ℝ) : EReal) := by
  unfold oneW; rw [Ideal.ofBits_one_f32]; norm_cast

/-- The float 0.0 is zero. -/
theorem zeroW_eq : zeroW = 0 := Ideal.ofBits_zero_f32

/-- The inverse square root of a real degree that is at least one is a non-negative real. -/
theorem dvOf_real (g : ℝ) (hg : 1 ≤ g) : ∃ r : ℝ, 0 ≤ r ∧ dvOf (g : EReal) = (r : EReal) := by
  have hpos : (0 : ℝ) < g := lt_of_lt_of_le one_pos hg
  have hcmp : Ideal.cmp .ogt (g : EReal) zeroW = 1#1 := by
    unfold Ideal.cmp
    rw [zeroW_eq]
    have : ((0 : EReal) < (g : EReal)) := by exact_mod_cast hpos
    simp [this]
  have hmax : max (g : EReal) oneW = (g : EReal) := by
    rw [oneW_eq]; exact max_eq_left (by exact_mod_cast hg)
  refine ⟨(Real.sqrt g)⁻¹, inv_nonneg.mpr (Real.sqrt_nonneg g), ?_⟩
  unfold dvOf
  rw [hcmp, select_one, hmax]
  show (if g < 0 then (⊥ : EReal) else if g = 0 then ⊤ else (((Real.sqrt g)⁻¹ : ℝ) : EReal)) = _
  rw [if_neg (not_lt.mpr hpos.le), if_neg hpos.ne']

/-- A degree is a real number that is at least one. -/
theorem degS_real {n : Nat} (lands : Fin n → Fin n → Prop) [∀ e i, Decidable (lands e i)] (i : Fin n) :
    ∃ g : ℝ, 1 ≤ g ∧ degS lands i = (g : EReal) := by
  have hs : ∀ s : Finset (Fin n), ∃ q : ℝ, 0 ≤ q ∧ (∑ e ∈ s, if lands e i then oneW else 0) = (q : EReal) := by
    intro s
    induction s using Finset.induction_on with
    | empty => exact ⟨0, le_refl _, by simp⟩
    | insert a s ha ih =>
      obtain ⟨q, hq, hsum⟩ := ih
      rw [Finset.sum_insert ha, hsum]
      by_cases h : lands a i
      · rw [if_pos h, oneW_eq]; exact ⟨1 + q, by linarith, by norm_cast⟩
      · rw [if_neg h]; exact ⟨q, hq, by simp⟩
  obtain ⟨q, hq, hsum⟩ := hs Finset.univ
  unfold degS
  rw [hsum, oneW_eq]
  exact ⟨q + 1, by linarith, by norm_cast⟩

/-- So every node's factor is a non-negative real. -/
theorem dv_real {n : Nat} (lands : Fin n → Fin n → Prop) [∀ e i, Decidable (lands e i)] (i : Fin n) :
    ∃ r : ℝ, 0 ≤ r ∧ dvOf (degS lands i) = (r : EReal) := by
  obtain ⟨g, hg, h⟩ := degS_real lands i
  rw [h]; exact dvOf_real g hg

/-! ## The whole network, from the argument arrays -/

/-- Edge e lands on node i: the e-th destination word, read signed, is i. -/
def landsOf (dst : SN.Idx → BitVec 32) (e i : Fin 400000) : Prop := landsW (dst (ix1 e)) i

instance (dst : SN.Idx → BitVec 32) (e i : Fin 400000) : Decidable (landsOf dst e i) :=
  inferInstanceAs (Decidable (landsW _ _))

/-- The node whose row edge e carries. -/
def rowOf (src : SN.Idx → BitVec 32) (e : Fin 400000) : Fin 400000 := rowOfW (src (ix1 e))

/-- Node i's factor: the inverse square root of its degree. -/
def dvS (dst : SN.Idx → BitVec 32) (i : Fin 400000) : EReal := dvOf (degS (landsOf dst) i)

theorem dvS_real (dst : SN.Idx → BitVec 32) (i : Fin 400000) : ∃ r : ℝ, 0 ≤ r ∧ dvS dst i = (r : EReal) :=
  dv_real (landsOf dst) i

/-- Layer l's weights and bias, read off the stacked arrays. -/
def wOf (x4 : S3DD.Idx → EReal) (l : Fin 3) (k d : Fin 128) : EReal := x4 (ix3 l k d)
def bOf (x5 : S3D.Idx → EReal) (l : Fin 3) (d : Fin 128) : EReal := x5 (ix2 l d)

/-- One layer over the edge columns src, dst. -/
def layer (src dst : SN.Idx → BitVec 32) (X : Fin 400000 → Fin 128 → EReal) (W : Fin 128 → Fin 128 → EReal)
    (b : Fin 128 → EReal) : Fin 400000 → Fin 128 → EReal :=
  step (landsOf dst) (rowOf src) (dvS dst) X W b

/-- The three layers, from the embedded rows X. -/
def net (src dst : SN.Idx → BitVec 32) (X : SND.Idx → EReal) (x4 : S3DD.Idx → EReal) (x5 : S3D.Idx → EReal) :
    Fin 400000 → Fin 128 → EReal :=
  layer src dst (layer src dst (layer src dst (fun i k => X (ix2 i k)) (wOf x4 0) (bOf x5 0)) (wOf x4 1) (bOf x5 1))
    (wOf x4 2) (bOf x5 2)

end Cert.Spec

end
-- ==== Proof.LibWords.lean ====
/-
  Small natural numbers as 32-bit words.

  A natural number `n` below 2^31 written as a 32-bit word has its sign bit clear, so read unsigned or signed it is `n`
  itself. Everything a program computes on such words with signed comparisons and a signed remainder is then the
  arithmetic of the naturals: the word is not negative, it is at most any larger such word, and its remainder by a larger
  positive word is the word itself (a remainder by a divisor that is neither zero nor minus one is never at the
  division's corner, whatever unit computes it).
-/
import Idealize.ShloMosaic.PureOps

namespace Cert.Lib.Words

open Idealize.ShloMosaic

/-- Read unsigned, the word of `n < 2^31` is `n`. -/
theorem toNat_ofNat (n : Nat) (h : n < 2 ^ 31) : (BitVec.ofNat 32 n).toNat = n := by
  rw [BitVec.toNat_ofNat]; exact Nat.mod_eq_of_lt (by omega)

/-- Its sign bit is clear. -/
theorem msb_ofNat (n : Nat) (h : n < 2 ^ 31) : (BitVec.ofNat 32 n).msb = false := by
  rw [BitVec.msb_eq_false_iff_two_mul_lt, toNat_ofNat n h]; omega

/-- Read signed, it is `n` too. -/
theorem toInt_ofNat (n : Nat) (h : n < 2 ^ 31) : (BitVec.ofNat 32 n).toInt = (n : Int) := by
  rw [BitVec.toInt_eq_toNat_of_msb (msb_ofNat n h), toNat_ofNat n h]

/-- Two such words are equal only if the numbers are. -/
theorem ofNat_ne (n k : Nat) (hn : n < 2 ^ 31) (hk : k < 2 ^ 31) (hne : n ≠ k) : BitVec.ofNat 32 n ≠ BitVec.ofNat 32 k :=
  fun e => hne (by rw [← toNat_ofNat n hn, ← toNat_ofNat k hk, e])

/-- The signed remainder of `n` by a larger `d` is `n`: the truncated remainder of two numbers that are not negative is
    the remainder of the naturals. -/
theorem srem_ofNat (n d : Nat) (hn : n < d) (hd : d < 2 ^ 31) :
    (BitVec.ofNat 32 n).srem (BitVec.ofNat 32 d) = BitVec.ofNat 32 n := by
  apply BitVec.eq_of_toInt_eq
  rw [BitVec.toInt_srem, toInt_ofNat n (by omega), toInt_ofNat d hd]
  exact Int.tmod_eq_of_lt (by omega) (by omega)

/-- A positive `d < 2^31` is not a corner of the signed division: it is not the zero word, and it is not minus one (whose
    sign bit is set). -/
theorem not_corner (x : BitVec 32) (d : Nat) (h0 : 0 < d) (hd : d < 2 ^ 31) : ¬IntOp.SDivCorner x (BitVec.ofNat 32 d) := by
  rintro (h | ⟨-, h⟩)
  · exact ofNat_ne d 0 hd (by omega) (by omega) h
  · have hm := msb_ofNat d hd
    rw [h] at hm
    exact absurd hm (by decide)

/-- So on any unit the remainder of `n` by a larger `d` is `n`. -/
theorem remsi_ofNat (u : ArithUnit) (n d : Nat) (hn : n < d) (hd : d < 2 ^ 31) :
    IntOp.remsi u (BitVec.ofNat 32 n) (BitVec.ofNat 32 d) = BitVec.ofNat 32 n := by
  unfold IntOp.remsi
  rw [if_neg (not_corner _ d (by omega) hd)]
  exact srem_ofNat n d hn hd

/-- Such a word is not below zero (signed) … -/
theorem cmpi_slt_zero (n : Nat) (h : n < 2 ^ 31) : IntOp.cmpi .slt (BitVec.ofNat 32 n) 0#32 = 0#1 := by
  have e : (BitVec.ofNat 32 n).slt 0#32 = false := by
    rw [BitVec.slt_eq_decide, toInt_ofNat n h]
    exact decide_eq_false (by show ¬((n : Int) < (0#32 : BitVec 32).toInt); rw [show (0#32 : BitVec 32).toInt = 0 from rfl]; omega)
  show BitVec.ofBool ((BitVec.ofNat 32 n).slt 0#32) = 0#1
  rw [e]; rfl

/-- … it is at least zero … -/
theorem cmpi_sge_zero (n : Nat) (h : n < 2 ^ 31) : IntOp.cmpi .sge (BitVec.ofNat 32 n) 0#32 = 1#1 := by
  have e : (0#32 : BitVec 32).sle (BitVec.ofNat 32 n) = true := by
    rw [BitVec.sle_eq_decide, toInt_ofNat n h]
    exact decide_eq_true (by rw [show (0#32 : BitVec 32).toInt = 0 from rfl]; omega)
  show BitVec.ofBool ((0#32 : BitVec 32).sle (BitVec.ofNat 32 n)) = 1#1
  rw [e]; rfl

/-- … and at most any such word of a number at least `n`. -/
theorem cmpi_sle (n k : Nat) (hnk : n ≤ k) (hk : k < 2 ^ 31) :
    IntOp.cmpi .sle (BitVec.ofNat 32 n) (BitVec.ofNat 32 k) = 1#1 := by
  have e : (BitVec.ofNat 32 n).sle (BitVec.ofNat 32 k) = true := by
    rw [BitVec.sle_eq_decide, toInt_ofNat n (by omega), toInt_ofNat k hk]
    exact decide_eq_true (by omega)
  show BitVec.ofBool ((BitVec.ofNat 32 n).sle (BitVec.ofNat 32 k)) = 1#1
  rw [e]; rfl

/-- Read signed and cut off below at zero, it is `n`. -/
theorem toInt_toNat_ofNat (n : Nat) (h : n < 2 ^ 31) : (BitVec.ofNat 32 n).toInt.toNat = n := by
  rw [toInt_ofNat n h]; exact Int.toNat_natCast n

end Cert.Lib.Words
-- ==== Proof.RefWords.lean ====
/-
  Edge words that name a node.

  A node number j < 400000 written as a 32-bit word is not negative, so wrapping leaves it alone, and read signed and
  clamped it is j itself.  A word whose signed value is a node number i is that node's word.
-/
import proofs.«152663_j1228360647041_2_alg».proof.Proof.Spec
import proofs.«152663_j1228360647041_2_alg».proof.Proof.LibWords

namespace Cert.ReferenceIdeal.RefValue

open Cert.Spec Cert.Lib.Words Idealize.ShloMosaic Idealize.ShloMosaic.ValueIdx

/-- A word whose signed value is a natural number below 2^31 is that number's word. -/
theorem eq_ofNat_of_toInt (w : BitVec 32) (n : Nat) (hn : n < 2 ^ 31) (h : w.toInt = (n : Int)) :
    w = BitVec.ofNat 32 n :=
  BitVec.eq_of_toInt_eq (h.trans (toInt_ofNat n hn).symm)

/-- A word of a number below 2^31 is not negative: wrapping keeps it. -/
theorem wrapW_ofNat (j : Nat) (hj : j < 2 ^ 31) : wrapW (BitVec.ofNat 32 j) = BitVec.ofNat 32 j := by
  unfold wrapW
  rw [cmpi_slt_zero j hj, select_zero]

/-- The word of node j carries node j's row. -/
theorem rowOfW_ofNat (j : Fin 400000) : rowOfW (BitVec.ofNat 32 j.val) = j := by
  have hj := j.isLt
  apply Fin.ext
  show min (wrapW (BitVec.ofNat 32 j.val)).toInt.toNat (400000 - 1) = j.val
  rw [wrapW_ofNat j.val (by omega), toInt_toNat_ofNat j.val (by omega)]
  omega

/-- The word of node j lands on node i exactly when j = i. -/
theorem landsW_ofNat (j i : Fin 400000) : landsW (BitVec.ofNat 32 j.val) i ↔ j = i := by
  have hj := j.isLt
  unfold landsW
  rw [toInt_ofNat j.val (by omega)]
  constructor
  · intro h; exact Fin.ext (by omega)
  · intro h; rw [h]

/-- A word that lands on node i carries node i's row. -/
theorem rowOfW_of_lands (w : BitVec 32) (i : Fin 400000) (h : landsW w i) : rowOfW w = i := by
  have hi := i.isLt
  have e : w = BitVec.ofNat 32 i.val := eq_ofNat_of_toInt w i.val (by omega) h
  rw [e]; exact rowOfW_ofNat i

end Cert.ReferenceIdeal.RefValue
-- ==== Proof.LibConcatVec.lean ====
/-
  Two vectors joined end to end, read at an index.

  The concatenation of `a : [A]` and `b : [B]` along their one axis is the vector of length `A + B` whose first `A`
  elements are `a`'s and whose last `B` elements are `b`'s: position `i < A` reads `a[i]`, position `A + j` reads `b[j]`.
  Both are stated twice: with the result's length written `A + B`, and with it a third number `T` known to be `A + B`
  (for a result length written as one literal).
-/
import Idealize.ShloMosaic.Lib.Pipeline.Value
import Idealize.ShloMosaic.Lib.ValueIdx

namespace Cert.Lib.ConcatVec

open Idealize.ShloMosaic Idealize.ShloMosaic.ValueIdx

variable {α : Type}

/-- Position `i < A` of the joined vector of length `T = A + B` reads `a[i]`. -/
theorem concat_vec_left_of_eq {A B T : Nat} (hT : T = A + B) (a : (⟨1, ![A]⟩ : Shape).Idx → α)
    (b : (⟨1, ![B]⟩ : Shape).Idx → α) (h : Shape.Concatenates [(⟨1, ![A]⟩ : Shape), ⟨1, ![B]⟩] ⟨1, ![T]⟩ 0) (i : Fin A) :
    concatenate ⟨1, ![T]⟩ 0 [⟨⟨1, ![A]⟩, a⟩, ⟨⟨1, ![B]⟩, b⟩] h (ix1 (⟨i.val, by omega⟩ : Fin T)) = a (ix1 i) :=
  concatenate_pair_apply_left (0 : Fin 1) a b h (ix1 (⟨i.val, by omega⟩ : Fin T)) rfl (ix1 i) fun c => by
    obtain rfl : c = 0 := Subsingleton.elim _ _
    rfl

/-- Position `A + j` (`j < B`) of the joined vector of length `T = A + B` reads `b[j]`. -/
theorem concat_vec_right_of_eq {A B T : Nat} (hT : T = A + B) (a : (⟨1, ![A]⟩ : Shape).Idx → α)
    (b : (⟨1, ![B]⟩ : Shape).Idx → α) (h : Shape.Concatenates [(⟨1, ![A]⟩ : Shape), ⟨1, ![B]⟩] ⟨1, ![T]⟩ 0) (j : Fin B) :
    concatenate ⟨1, ![T]⟩ 0 [⟨⟨1, ![A]⟩, a⟩, ⟨⟨1, ![B]⟩, b⟩] h (ix1 (⟨A + j.val, by omega⟩ : Fin T)) = b (ix1 j) :=
  concatenate_pair_apply_right (0 : Fin 1) a b h (ix1 (⟨A + j.val, by omega⟩ : Fin T)) rfl rfl (ix1 j)
    (fun c hc => absurd (Subsingleton.elim _ _) hc)
    (by show j.val + A = A + j.val; omega)

/-- Position `i < A` of the joined vector reads `a[i]`. -/
theorem concat_vec_left {A B : Nat} (a : (⟨1, ![A]⟩ : Shape).Idx → α) (b : (⟨1, ![B]⟩ : Shape).Idx → α)
    (h : Shape.Concatenates [(⟨1, ![A]⟩ : Shape), ⟨1, ![B]⟩] ⟨1, ![A + B]⟩ 0) (i : Fin A) :
    concatenate ⟨1, ![A + B]⟩ 0 [⟨⟨1, ![A]⟩, a⟩, ⟨⟨1, ![B]⟩, b⟩] h (ix1 (Fin.castAdd B i)) = a (ix1 i) :=
  concat_vec_left_of_eq rfl a b h i

/-- Position `A + j` (`j < B`) of the joined vector reads `b[j]`. -/
theorem concat_vec_right {A B : Nat} (a : (⟨1, ![A]⟩ : Shape).Idx → α) (b : (⟨1, ![B]⟩ : Shape).Idx → α)
    (h : Shape.Concatenates [(⟨1, ![A]⟩ : Shape), ⟨1, ![B]⟩] ⟨1, ![A + B]⟩ 0) (j : Fin B) :
    concatenate ⟨1, ![A + B]⟩ 0 [⟨⟨1, ![A]⟩, a⟩, ⟨⟨1, ![B]⟩, b⟩] h (ix1 (Fin.natAdd A j)) = b (ix1 j) :=
  concat_vec_right_of_eq rfl a b h j

end Cert.Lib.ConcatVec
-- ==== Proof.RefEdges.lean ====
/-
  The reference's edge lists.

  The reference appends one loop edge per node to each of its two edge columns: a column c of 400000 words becomes the
  list of 800000 words whose first half is c and whose second half is 0, 1, …, 399999.  Entry e < 400000 is a real edge;
  entry 400000 + j is the loop of node j, whose word is j itself.  A sum over the 800000 entries is the sum over the real
  edges plus the sum over the loops.
-/
import proofs.«152663_j1228360647041_2_alg».proof.Proof.Gen.ReferenceIdeal
import proofs.«152663_j1228360647041_2_alg».proof.Proof.Spec
import proofs.«152663_j1228360647041_2_alg».proof.Proof.RefWords
import proofs.«152663_j1228360647041_2_alg».proof.Proof.LibConcatVec
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Cert.Spec Idealize.ShloMosaic Idealize.ShloMosaic.ValueIdx
open scoped BigOperators

/-- A column of edge words with the loops' words 0, 1, …, 399999 appended. -/
def withLoops (c : IVec S400000 32) : IVec S800000 32 :=
  concatenate S800000 0 [⟨S400000, c⟩, ⟨S400000, iotaInDim S400000 32 0⟩] concatenates_S400000_S400000_S800000_d0

/-- A list of 800000 entries as a column [800000, 1]. -/
def asColumn {α : Type} (c : S800000.Idx → α) : S800000x1.Idx → α :=
  broadcastInDim S800000x1 ![0] bcast_S800000_S800000x1_0 c

/-- The wrapped words of a list, as a column: a negative word has 400000 added. -/
def wrapCol (c : IVec S800000 32) : IVec S800000x1 32 :=
  asColumn (select (cmpi .slt c (broadcastInDim S800000 ![] bcast_S_S800000 (constantI S_ 32 0#32)))
    (addi c (broadcastInDim S800000 ![] bcast_S_S800000 (constantI S_ 32 400000#32))) c)

/-- Entry e < 400000 of the extended list is the column's entry e. -/
theorem withLoops_real (c : IVec S400000 32) (e : Fin 400000) :
    withLoops c (ix1 (⟨e.val, by omega⟩ : Fin 800000)) = c (ix1 e) :=
  Cert.Lib.ConcatVec.concat_vec_left_of_eq (A := 400000) (B := 400000) (T := 800000) (by norm_num) c
    (iotaInDim S400000 32 0) concatenates_S400000_S400000_S800000_d0 e

/-- Entry 400000 + j of the extended list is the word of j. -/
theorem withLoops_loop (c : IVec S400000 32) (j : Fin 400000) :
    withLoops c (ix1 (⟨400000 + j.val, by omega⟩ : Fin 800000)) = BitVec.ofNat 32 j.val :=
  Cert.Lib.ConcatVec.concat_vec_right_of_eq (A := 400000) (B := 400000) (T := 800000) (by norm_num) c
    (iotaInDim S400000 32 0) concatenates_S400000_S400000_S800000_d0 j

/-- The column form reads the list. -/
theorem asColumn_apply {α : Type} (c : S800000.Idx → α) (e : Fin 800000) (z : Fin 1) :
    asColumn c (ix2 e z) = c (ix1 e) :=
  broadcastInDim_apply _ bcast_S800000_S800000x1_0 c (ix2 e z) (ix1 e) (fun a => match a with
    | ⟨0, _⟩ => by show e.val = if (800000 : Nat) = 1 then 0 else e.val; rw [if_neg (by decide)])

/-- The wrapped column reads the wrapped word. -/
theorem wrapCol_apply (c : IVec S800000 32) (e : Fin 800000) (z : Fin 1) :
    wrapCol c (ix2 e z) = wrapW (c (ix1 e)) :=
  asColumn_apply _ e z

/-- A sum over the 800000 entries: the real edges, then the loops. -/
theorem sum_split {M : Type} [AddCommMonoid M] (f : Fin 800000 → M) :
    ∑ e : Fin 800000, f e
      = (∑ e : Fin 400000, f ⟨e.val, by omega⟩) + ∑ j : Fin 400000, f ⟨400000 + j.val, by omega⟩ :=
  Fin.sum_univ_add (a := 400000) (b := 400000) f

end Cert.ReferenceIdeal.RefValue

end
-- ==== Proof.LibScatterRows.lean ====
/-
  A scatter-add of whole rows, read at an index.

  Adding the rows of an update matrix `upd : [R, D]` into the rows of an operand `x : [N, D]` at the row numbers held in
  an integer column `idx : [R, 1]` is a scatter whose row axis is the inserted (one-element) window axis named by the
  scatter index, and whose column axis is the one update window axis. Update element `(e, c)` lands at row `idx[e, 0]`
  — read as a signed integer and NOT clamped: an update whose row number is outside `[0, N − 1]` is dropped — and
  column `c`. So at the extended reals element `(r, c)` of the result is

      x[r, c] + ∑ over the update rows e with idx[e, 0] = r of upd[e, c].

  The rank-1 form (operand `[N]`, indices `[R, 1]`, updates `[R]`) has no window axis at all: update element `e` lands
  at position `idx[e, 0]`, and element `r` of the result is `x[r] + ∑ over e with idx[e, 0] = r of upd[e]`.
-/
import Idealize.ShloMosaic.PureOps
import Idealize.ShloMosaic.PureOps.Ideal
import Idealize.ShloMosaic.Lib.ValueIdx

namespace Cert.Lib.ScatterRows

open Idealize.ShloMosaic Idealize.ShloMosaic.ValueIdx
open scoped BigOperators

/-- WHERE AN UPDATE LANDS: update index `j` lands at operand index `i` exactly when on every operand axis the signed
    start plus the window coordinate is `i`'s coordinate (being a coordinate of `i`, that number is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hEq a
      have := h a
      rw [← hEq]
      show _ = (((d.start j idx a + (d.window j a : Int)).toNat : Nat) : Int)
      omega
    · intro hEq
      funext a
      refine Fin.ext ?_
      show (d.start j idx a + (d.window j a : Int)).toNat = (i a).val
      have := hEq a
      omega
  · rename_i h
    constructor
    · intro hEq; exact absurd hEq (by simp)
    · intro hEq
      exfalso; apply h
      intro a
      have := hEq a
      have := (i a).isLt
      omega

/-! ## Rows of a matrix -/

/-- The dimension numbers of that scatter for an operand `[N, D]`, scatter indices `[R, 1]` and updates `[R, D]`. -/
abbrev rowsDims (N R D : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

section Rows
variable {N R D w : Nat} (wf : ScatterDims.WF ⟨2, ![N, D]⟩ ⟨2, ![R, 1]⟩ ⟨2, ![R, D]⟩ [1] [0] [0] 1)

/-- The row axis is the one the scatter index names: its start is the row number `idx[e, 0]`, read signed. -/
theorem rows_start_row (idx : IVec ⟨2, ![R, 1]⟩ w) (e : Fin R) (c' : Fin D) :
    (rowsDims N R D wf).start (ix2 e c') idx (0 : Fin 2) = (idx (ix2 e (0 : Fin 1))).toInt := by
  unfold ScatterDims.start
  rw [dif_pos (show (0 : Fin 2) ∈ (rowsDims N R D wf).scatterDimsToOperandDims from List.mem_singleton.mpr rfl)]
  have hsi : (rowsDims N R D wf).siIdx (ix2 e c') ⟨List.idxOf (0 : Fin 2) (rowsDims N R D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the scatter index: its start is `0`. -/
theorem rows_start_col (idx : IVec ⟨2, ![R, 1]⟩ w) (j : (⟨2, ![R, D]⟩ : Shape).Idx) :
    (rowsDims N R D wf).start j idx (1 : Fin 2) = 0 := by
  unfold ScatterDims.start
  rw [dif_neg (show (1 : Fin 2) ∉ ([0] : List (Fin 2)) by decide)]

/-- The row axis is an inserted window axis: no window coordinate. -/
theorem rows_window_row (j : (⟨2, ![R, D]⟩ : Shape).Idx) : (rowsDims N R D wf).window j (0 : Fin 2) = 0 := by
  unfold ScatterDims.window
  have h0 : (0 : Fin 2) ∉ (List.finRange 2).filter (· ∉ ([0] : List (Fin 2))) := by decide
  rw [dif_neg (show (0 : Fin 2) ∉ (rowsDims N R D wf).sKept from h0)]

/-- The column axis is the window axis: its window coordinate is the update's column. -/
theorem rows_window_col (e : Fin R) (c' : Fin D) : (rowsDims N R D wf).window (ix2 e c') (1 : Fin 2) = c'.val := by
  unfold ScatterDims.window
  have h1 : (1 : Fin 2) ∈ (List.finRange 2).filter (· ∉ ([0] : List (Fin 2))) := by decide
  rw [dif_pos (show (1 : Fin 2) ∈ (rowsDims N R D wf).sKept from h1)]
  rfl

/-- WHERE UPDATE ELEMENT `(e, c')` LANDS: at `(r, c)` exactly when its row number `idx[e, 0]`, read signed, is `r` and its
    column is `c`. -/
theorem rows_resultIdx?_iff (idx : IVec ⟨2, ![R, 1]⟩ w) (e : Fin R) (c' : Fin D) (r : Fin N) (c : Fin D) :
    (rowsDims N R D wf).resultIdx? (ix2 e c') idx = some (ix2 r c)
      ↔ (idx (ix2 e (0 : Fin 1))).toInt = (r.val : Int) ∧ c' = c := by
  rw [resultIdx?_eq_some_iff]
  constructor
  · intro h
    have h0 := h (0 : Fin 2)
    have h1 := h (1 : Fin 2)
    rw [rows_start_row, rows_window_row] at h0
    rw [rows_start_col, rows_window_col] at h1
    have h0' : (idx (ix2 e (0 : Fin 1))).toInt + ((0 : Nat) : Int) = (r.val : Int) := h0
    have h1' : (0 : Int) + (c'.val : Int) = (c.val : Int) := h1
    exact ⟨by omega, Fin.ext (by omega)⟩
  · rintro ⟨h0, rfl⟩ a
    match a with
    | ⟨0, _⟩ =>
      show (rowsDims N R D wf).start (ix2 e c') idx (0 : Fin 2) + ((rowsDims N R D wf).window (ix2 e c') (0 : Fin 2) : Int)
        = (r.val : Int)
      rw [rows_start_row, rows_window_row]; omega
    | ⟨1, _⟩ =>
      show (rowsDims N R D wf).start (ix2 e c') idx (1 : Fin 2) + ((rowsDims N R D wf).window (ix2 e c') (1 : Fin 2) : Int)
        = (c'.val : Int)
      rw [rows_start_col, rows_window_col]; omega

/-- THE SCATTER-ADD READ AT `(r, c)`: the operand's element plus the sum, over the update rows whose row number
    `idx[e, 0]` (read signed) is `r`, of their elements in column `c`. -/
theorem scatterAdd_rows_apply (x : (⟨2, ![N, D]⟩ : Shape).Idx → EReal) (idx : IVec ⟨2, ![R, 1]⟩ w)
    (upd : (⟨2, ![R, D]⟩ : Shape).Idx → EReal) (r : Fin N) (c : Fin D) :
    Ideal.hostScatterAdd (rowsDims N R D wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases he : (idx (ix2 e (0 : Fin 1))).toInt = (r.val : Int)
  · rw [if_pos he]
    refine (Finset.sum_congr rfl fun c' _ =>
      if_congr ((rows_resultIdx?_iff wf idx e c' r c).trans (and_iff_right he)) rfl rfl).trans ?_
    exact (Finset.sum_ite_eq' Finset.univ c fun c' => upd (ix2 e c')).trans (if_pos (Finset.mem_univ c))
  · rw [if_neg he]
    exact Finset.sum_eq_zero fun c' _ =>
      if_neg fun h => he ((rows_resultIdx?_iff wf idx e c' r c).mp h).1

end Rows

/-! ## Elements of a vector -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of the rank-1 scatter: an operand `[N]`, scatter indices `[R, 1]` and updates `[R]`; the
    operand's one axis is the inserted window axis the scatter index names, and the updates have no window axis. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The one operand axis is named by the scatter index: its start is the position `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: no window coordinate. -/
theorem vec_window (j : (⟨1, ![R]⟩ : Shape).Idx) : (vecDims N R wf).window j (0 : Fin 1) = 0 := by
  unfold ScatterDims.window
  have h0 : (0 : Fin 1) ∉ (List.finRange 1).filter (· ∉ ([0] : List (Fin 1))) := by decide
  rw [dif_neg (show (0 : Fin 1) ∉ (vecDims N R wf).sKept from h0)]

/-- WHERE UPDATE ELEMENT `e` LANDS: at `r` exactly when its position `idx[e, 0]`, read signed, is `r`. -/
theorem vec_resultIdx?_iff (idx : IVec ⟨2, ![R, 1]⟩ w) (e : Fin R) (r : Fin N) :
    (vecDims N R wf).resultIdx? (ix1 e) idx = some (ix1 r) ↔ (idx (ix2 e (0 : Fin 1))).toInt = (r.val : Int) := by
  rw [resultIdx?_eq_some_iff]
  constructor
  · intro h
    have h0 := h (0 : Fin 1)
    rw [vec_start, vec_window] at h0
    have h0' : (idx (ix2 e (0 : Fin 1))).toInt + ((0 : Nat) : Int) = (r.val : Int) := h0
    omega
  · intro h0 a
    obtain rfl : a = 0 := Subsingleton.elim _ _
    show (vecDims N R wf).start (ix1 e) idx (0 : Fin 1) + ((vecDims N R wf).window (ix1 e) (0 : Fin 1) : Int) = (r.val : Int)
    rw [vec_start, vec_window]; omega

/-- THE RANK-1 SCATTER-ADD READ AT `r`: the operand's element plus the sum of the update elements whose position
    `idx[e, 0]` (read signed) is `r`. -/
theorem scatterAdd_vec_apply (x : (⟨1, ![N]⟩ : Shape).Idx → EReal) (idx : IVec ⟨2, ![R, 1]⟩ w)
    (upd : (⟨1, ![R]⟩ : Shape).Idx → EReal) (r : Fin N) :
    Ideal.hostScatterAdd (vecDims N R wf) x idx upd (ix1 r)
      = x (ix1 r) + ∑ e : Fin R, if (idx (ix2 e (0 : Fin 1))).toInt = (r.val : Int) then upd (ix1 e) else 0 := by
  unfold Ideal.hostScatterAdd
  congr 1
  rw [Finset.sum_filter, sum_idx1]
  exact Finset.sum_congr rfl fun e _ => if_congr (vec_resultIdx?_iff wf idx e r) rfl rfl

end Vec

end Cert.Lib.ScatterRows
-- ==== Proof.RefDegree.lean ====
/-
  The reference's degrees and factors.

  The reference counts, for each node i, the entries of the extended destination list whose word — read signed, not
  clamped — is i, adding 1.0 for each into a zero: the real edges landing on i, and node i's own loop.  That is the
  degree of the specification.  The factor is its guarded inverse square root.
-/
import proofs.«152663_j1228360647041_2_alg».proof.Proof.RefEdges
import proofs.«152663_j1228360647041_2_alg».proof.Proof.LibScatterRows
import Idealize.ShloMosaic.PureOps.Ideal
import Idealize.ShloMosaic.PureOps.Ideal.Laws

noncomputable section

namespace Cert.ReferenceIdeal.RefValue

open Cert.ReferenceIdeal Cert.ReferenceIdeal.Gen Cert.Spec Idealize.ShloMosaic Idealize.ShloMosaic.ValueIdx
open scoped BigOperators

/-- The degree array: 1.0 scattered into zeros at the extended destination list. -/
def refDeg (dst : IVec S400000 32) : FVec Ideal S400000 .f32 :=
  Host.scatterAdd scatter_S400000_S800000x1_S800000_n_0_0_1
    (broadcastInDim S400000 ![] bcast_S_S400000 (constant (F := Ideal) S_ .f32 0x00000000#32))
    (asColumn (withLoops dst))
    (broadcastInDim S800000 ![] bcast_S_S800000 (constant (F := Ideal) S_ .f32 0x3F800000#32))

/-- The guarded inverse square root of an array of degrees: where the degree is positive, the inverse square root of the
    degree raised to at least one; elsewhere zero. -/
def dinvOf (g : FVec Ideal S400000 .f32) : FVec Ideal S400000 .f32 :=
  select (cmpf .ogt g (broadcastInDim S400000 ![] bcast_S_S400000 (constant (F := Ideal) S_ .f32 0x00000000#32)))
    (Host.rsqrt (maximumf g (broadcastInDim S400000 ![] bcast_S_S400000 (constant (F := Ideal) S_ .f32 0x3F800000#32))))
    (broadcastInDim S400000 ![] bcast_S_S400000 (id (constant (F := Ideal) S_ .f32 0x00000000#32)))

/-- The factor array. -/
def refDinv (dst : IVec S400000 32) : FVec Ideal S400000 .f32 := dinvOf (refDeg dst)

/-- Over the extended reals the host's scatter-add is the exact sum. -/
theorem hostScatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The array of zeros is the constant 0.0 … -/
theorem zerosN_eq :
    broadcastInDim S400000 ![] bcast_S_S400000 (constant (F := Ideal) S_ .f32 0x00000000#32) = fun _ => zeroW := rfl

/-- … and the list of ones is the constant 1.0. -/
theorem ones2N_eq :
    broadcastInDim S800000 ![] bcast_S_S800000 (constant (F := Ideal) S_ .f32 0x3F800000#32) = fun _ => oneW := rfl

/-- Entry by entry, the guarded inverse square root is the specification's. -/
theorem dinvOf_apply (g : FVec Ideal S400000 .f32) (j : S400000.Idx) : dinvOf g j = dvOf (g j) := rfl

/-- The real edges' half of the count: entry e < 400000 counts when edge e lands on i. -/
theorem deg_real_half (dst : IVec S400000 32) (i : Fin 400000) :
    (∑ e : Fin 400000, if (asColumn (withLoops dst) (ix2 (⟨e.val, by omega⟩ : Fin 800000) (0 : Fin 1))).toInt = (i.val : Int)
        then oneW else (0 : EReal))
      = ∑ e : Fin 400000, if landsOf dst e i then oneW else 0 :=
  Finset.sum_congr rfl fun e _ => by
    rw [asColumn_apply, withLoops_real]
    exact if_congr Iff.rfl rfl rfl

/-- The loops' half of the count: only node i's own loop lands on i. -/
theorem deg_loop_half (dst : IVec S400000 32) (i : Fin 400000) :
    (∑ j : Fin 400000, if (asColumn (withLoops dst) (ix2 (⟨400000 + j.val, by omega⟩ : Fin 800000) (0 : Fin 1))).toInt
        = (i.val : Int) then oneW else (0 : EReal)) = oneW :=
  (Finset.sum_congr rfl fun j _ => by
    rw [asColumn_apply, withLoops_loop]
    exact if_congr (landsW_ofNat j i) rfl rfl).trans
  ((Finset.sum_ite_eq' Finset.univ i fun _ => oneW).trans (if_pos (Finset.mem_univ i)))

/-- The reference's degree of node i is the specification's. -/
theorem refDeg_apply (dst : IVec S400000 32) (i : Fin 400000) : refDeg dst (ix1 i) = degS (landsOf dst) i := by
  unfold refDeg
  rw [hostScatterAdd_ideal, zerosN_eq, ones2N_eq,
    show scatter_S400000_S800000x1_S800000_n_0_0_1
      = Cert.Lib.ScatterRows.vecDims 400000 800000 scatter_S400000_S800000x1_S800000_n_0_0_1_wf from rfl,
    Cert.Lib.ScatterRows.scatterAdd_vec_apply, zeroW_eq, zero_add, sum_split, deg_real_half, deg_loop_half]
  unfold degS
  rfl

/-- The reference's factor of node i is the specification's. -/
theorem refDinv_apply (dst : IVec S400000 32) (i : Fin 400000) : refDinv dst (ix1 i) = dvS dst i :=
  (dinvOf_apply (refDeg dst) (ix1 i)).trans (congrArg dvOf (refDeg_apply dst i))

end Cert.ReferenceIdeal.RefValue

end
-- ==== Proof.LibGatherRows.lean ====
/-
  A gather of whole rows, read at an index.

  Taking rows of a matrix `x : [N, D]` at an integer column of row numbers `idx : [R, 1]` is a gather that collapses the
  row axis, keeps the column axis as its one offset axis (slices of one row, `D` wide) and reads each start index off
  `idx`'s second axis. Its element `(r, d)` is `x` at row `idx[r, 0]` — read as a signed integer and clamped into
  `[0, N − 1]`, as every start index of a gather is — and column `d`.
-/
import Idealize.ShloMosaic.PureOps
import Idealize.ShloMosaic.Lib.ValueIdx

namespace Cert.Lib.GatherRows

open Idealize.ShloMosaic Idealize.ShloMosaic.ValueIdx

variable {α : Type}

/-- The dimension numbers of that gather for an operand `[N, D]`, start indices `[R, 1]` and a result `[R, D]`. -/
abbrev rowsDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Where result index `(r, d)` reads its row number: `[r, 0]`. -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, d)`: the operand at the row `idx[r, 0]`, read signed and clamped into `[0, N − 1]`, and
    column `d`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N R D wf) x idx y
      = x (ix2 (⟨min (idx (rowsIdx y)).toInt.toNat (N - 1), by omega⟩ : Fin N) (⟨(y 1).val, idx2_lt1 y⟩ : Fin D)) := by
  unfold Host.gather
  congr 1
  funext a
  refine Fin.ext ?_
  show (rowsDims N R D wf).start y idx a + (rowsDims N R D wf).batchCoord y a + (rowsDims N R D wf).offCoord y a = _
  rw [GatherDims.batchCoord_eq_zero _ _ _ List.not_mem_nil, Nat.add_zero]
  -- the row axis: collapsed (no offset), its start the clamped row number
  have row : (rowsDims N R D wf).start y idx (0 : Fin 2) + (rowsDims N R D wf).offCoord y (0 : Fin 2)
      = min (idx (rowsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N R D wf).startIndexMap from List.mem_singleton.mpr rfl)]
    have hsi : (rowsDims N R D wf).siIdx y ⟨List.idxOf (0 : Fin 2) (rowsDims N R D wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  -- the column axis: not in the start index map (start 0), the result's offset axis
  have col : (rowsDims N R D wf).start y idx (1 : Fin 2) + (rowsDims N R D wf).offCoord y (1 : Fin 2) = (y 1).val := by
    have h1 : (1 : Fin 2) ∉ ([0] : List (Fin 2)) := by decide
    have hk : (1 : Fin 2) ∈ (rowsDims N R D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows
-- ==== Proof.LibGatherVec.lean ====
/-
  A gather of single elements of a vector, read at an index.

  Taking elements of a vector `x : [N]` at an integer column of positions `idx : [R, 1]` is a gather that collapses the
  operand's one axis (slices of one element), has no offset axis, and reads each start index off `idx`'s second axis.
  Its element `e` is `x` at the position `idx[e, 0]` — read as a signed integer and clamped into `[0, N − 1]`, as every
  start index of a gather is.
-/
import Idealize.ShloMosaic.PureOps
import Idealize.ShloMosaic.Lib.ValueIdx

namespace Cert.Lib.GatherVec

open Idealize.ShloMosaic Idealize.ShloMosaic.ValueIdx

variable {α : Type}

/-- The dimension numbers of that gather for an operand `[N]`, start indices `[R, 1]` and a result `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `e`: the operand at the position `idx[e, 0]`, read signed and clamped into `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N R wf).start (ix1 e) idx 0 + (vecDims N R wf).batchCoord (ix1 e) 0 + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.GatherVec
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.RefLayer.lean ====
/-
  One reference layer, read at an index.

  With H = X · W, the reference multiplies, for every entry e of the extended edge lists, row g(row e) of H by
  norm e = dv(g(row e)) · dv(g(col e)), where g wraps a word, reads it signed and clamps it into the node range; it adds
  the products into a zero array at the rows col e (read signed, not clamped), adds the bias and clips at zero.
  Split into real edges and loops, the sum at node i is the specification's reference aggregation: a real edge that
  lands on i has the word of i as its destination word, so g(col e) = i; the loop of node j lands on j only and carries
  row j with the factor dv j · dv j.
-/
import proofs.«152663_j1228360647041_2_alg».proof.Proof.RefDegree
import proofs.«152663_j1228360647041_2_alg».proof.Proof.LibGatherRows
import proofs.«152663_j1228360647041_2_alg».proof.Proof.LibGatherVec
import proofs.«152663_j1228360647041_2_alg».proof.Proof.LibDotRows

noncomputable section

namespace Cert.ReferenceIdeal.RefValue

open Cert.ReferenceIdeal Cert.ReferenceIdeal.Gen Cert.Spec Idealize.ShloMosaic Idealize.ShloMosaic.ValueIdx
open scoped BigOperators

/-- The per-entry weight: the factor at the entry's source node times the factor at its destination node. -/
def refNorm (src dst : IVec S400000 32) : FVec Ideal S800000 .f32 :=
  mulf (Host.gather gather_S400000_S800000x1_S800000_n_0_n_n_0_1_1 (refDinv dst) (wrapCol (withLoops src)))
    (Host.gather gather_S400000_S800000x1_S800000_n_0_n_n_0_1_1 (refDinv dst) (wrapCol (withLoops dst)))

/-- The matrix product X · W. -/
def refH (X : FVec Ideal S400000x128 .f32) (W : FVec Ideal S128x128 .f32) : FVec Ideal S400000x128 .f32 :=
  Host.dotGeneral dot_S400000x128_S128x128_S400000x128_1_0_0_1_n_n none X W

/-- The per-entry messages: the carried row of H, weighted. -/
def refMsg (src dst : IVec S400000 32) (H : FVec Ideal S400000x128 .f32) : FVec Ideal S800000x128 .f32 :=
  mulf (broadcastInDim S800000x128 ![0, 1] bcast_S800000x1_S800000x128_0_1 (asColumn (refNorm src dst)))
    (Host.gather gather_S400000x128_S800000x1_S800000x128_1_0_n_n_0_1_1128 H (wrapCol (withLoops src)))

/-- The messages added into a zero array at their destination rows. -/
def refOut (src dst : IVec S400000 32) (H : FVec Ideal S400000x128 .f32) : FVec Ideal S400000x128 .f32 :=
  Host.scatterAdd scatter_S400000x128_S800000x1_S800000x128_1_0_0_1
    (broadcastInDim S400000x128 ![] bcast_S_S400000x128 (constant (F := Ideal) S_ .f32 0x00000000#32))
    (asColumn (withLoops dst)) (refMsg src dst H)

/-- The layer: the aggregate plus the bias row, clipped at zero. -/
def refLayer (src dst : IVec S400000 32) (X : FVec Ideal S400000x128 .f32) (W : FVec Ideal S128x128 .f32)
    (b : FVec Ideal S128 .f32) : FVec Ideal S400000x128 .f32 :=
  maximumf (addf (refOut src dst (refH X W))
      (broadcastInDim S400000x128 ![0, 1] bcast_S1x128_S400000x128_0_1 (broadcastInDim S1x128 ![1] bcast_S128_S1x128_1 b)))
    (broadcastInDim S400000x128 ![] bcast_S_S400000x128 (constant (F := Ideal) S_ .f32 0x00000000#32))

/-- The array of zeros reads 0.0. -/
theorem zerosND_apply (j : S400000x128.Idx) :
    broadcastInDim S400000x128 ![] bcast_S_S400000x128 (constant (F := Ideal) S_ .f32 0x00000000#32) j = zeroW := rfl

/-- The array of zeros is the constant 0.0. -/
theorem zerosND_eq :
    broadcastInDim S400000x128 ![] bcast_S_S400000x128 (constant (F := Ideal) S_ .f32 0x00000000#32) = fun _ => zeroW := rfl

/-- The factor gathered at a wrapped column is the factor of the node the word carries. -/
theorem gatherDinv_apply (dst : IVec S400000 32) (c : IVec S800000 32) (e : Fin 800000) :
    Host.gather gather_S400000_S800000x1_S800000_n_0_n_n_0_1_1 (refDinv dst) (wrapCol c) (ix1 e)
      = dvS dst (rowOfW (c (ix1 e))) := by
  rw [show gather_S400000_S800000x1_S800000_n_0_n_n_0_1_1
      = Cert.Lib.GatherVec.vecDims 400000 800000 gather_S400000_S800000x1_S800000_n_0_n_n_0_1_1_wf from rfl,
    Cert.Lib.GatherVec.gather_vec_apply (N := 400000) (by norm_num)]
  refine (congrArg (fun r : Fin 400000 => refDinv dst (ix1 r)) (Fin.ext ?_)).trans (refDinv_apply dst (rowOfW (c (ix1 e))))
  show min (wrapCol c (ix2 e (0 : Fin 1))).toInt.toNat (400000 - 1) = (rowOfW (c (ix1 e))).val
  rw [wrapCol_apply]
  rfl

/-- The weight of entry e. -/
theorem refNorm_apply (src dst : IVec S400000 32) (e : Fin 800000) :
    refNorm src dst (ix1 e)
      = dvS dst (rowOfW (withLoops src (ix1 e))) * dvS dst (rowOfW (withLoops dst (ix1 e))) := by
  unfold refNorm
  rw [mulf_apply, gatherDinv_apply, gatherDinv_apply]

/-- The matrix product at (p, q). -/
theorem refH_apply (X : FVec Ideal S400000x128 .f32) (W : FVec Ideal S128x128 .f32) (p : Fin 400000) (q : Fin 128) :
    refH X W (ix2 p q) = ∑ k : Fin 128, X (ix2 p k) * W (ix2 k q) := by
  unfold refH
  simp only [Host.dotGeneral]
  rw [Ideal.dotGeneral_apply]
  dot_rows dot_S400000x128_S128x128_S400000x128_1_0_0_1_n_n S400000x128 S128x128 128

/-- A column [800000, 1] spread over 128 columns reads the column. -/
theorem bcastCols_apply {α : Type} (v : S800000x1.Idx → α) (e : Fin 800000) (d : Fin 128) :
    broadcastInDim S800000x128 ![0, 1] bcast_S800000x1_S800000x128_0_1 v (ix2 e d) = v (ix2 e (0 : Fin 1)) :=
  broadcastInDim_apply _ bcast_S800000x1_S800000x128_0_1 v (ix2 e d) (ix2 e (0 : Fin 1)) (fun a => match a with
    | ⟨0, _⟩ => by show e.val = if (800000 : Nat) = 1 then 0 else e.val; rw [if_neg (by decide)]
    | ⟨1, _⟩ => by show 0 = if (1 : Nat) = 1 then 0 else d.val; rw [if_pos rfl])

/-- The bias vector spread over the rows reads the vector. -/
theorem bcastBias_apply (b : FVec Ideal S128 .f32) (i : Fin 400000) (d : Fin 128) :
    broadcastInDim S400000x128 ![0, 1] bcast_S1x128_S400000x128_0_1 (broadcastInDim S1x128 ![1] bcast_S128_S1x128_1 b)
      (ix2 i d) = b (ix1 d) :=
  (broadcastInDim_apply _ bcast_S1x128_S400000x128_0_1 (broadcastInDim S1x128 ![1] bcast_S128_S1x128_1 b) (ix2 i d)
    (ix2 (0 : Fin 1) d) (fun a => match a with
    | ⟨0, _⟩ => by show 0 = if (1 : Nat) = 1 then 0 else i.val; rw [if_pos rfl]
    | ⟨1, _⟩ => by show d.val = if (128 : Nat) = 1 then 0 else d.val; rw [if_neg (by decide)])).trans
  (broadcastInDim_apply _ bcast_S128_S1x128_1 b (ix2 (0 : Fin 1) d) (ix1 d) (fun a => match a with
    | ⟨0, _⟩ => by show d.val = if (128 : Nat) = 1 then 0 else d.val; rw [if_neg (by decide)]))

/-- The rows of H gathered at a wrapped column: row e is the row of the node the word carries. -/
theorem gatherRows_apply (H : FVec Ideal S400000x128 .f32) (c : IVec S800000 32) (e : Fin 800000) (d : Fin 128) :
    Host.gather gather_S400000x128_S800000x1_S800000x128_1_0_n_n_0_1_1128 H (wrapCol c) (ix2 e d)
      = H (ix2 (rowOfW (c (ix1 e))) d) := by
  rw [show gather_S400000x128_S800000x1_S800000x128_1_0_n_n_0_1_1128
      = Cert.Lib.GatherRows.rowsDims 400000 800000 128 gather_S400000x128_S800000x1_S800000x128_1_0_n_n_0_1_1128_wf from rfl,
    Cert.Lib.GatherRows.gather_rows_apply (N := 400000) (by norm_num)]
  have hi : Cert.Lib.GatherRows.rowsIdx (ix2 e d) = ix2 e (0 : Fin 1) :=
    funext fun a => match a with
      | ⟨0, _⟩ => rfl
      | ⟨1, _⟩ => rfl
  refine congrArg H (congrArg₂ ix2 (Fin.ext ?_) (Fin.ext rfl))
  show min (wrapCol c (Cert.Lib.GatherRows.rowsIdx (ix2 e d))).toInt.toNat (400000 - 1) = (rowOfW (c (ix1 e))).val
  rw [hi, wrapCol_apply]
  rfl

/-- The message of entry e in column d. -/
theorem refMsg_apply (src dst : IVec S400000 32) (H : FVec Ideal S400000x128 .f32) (e : Fin 800000) (d : Fin 128) :
    refMsg src dst H (ix2 e d) = refNorm src dst (ix1 e) * H (ix2 (rowOfW (withLoops src (ix1 e))) d) := by
  unfold refMsg
  rw [mulf_apply, bcastCols_apply, asColumn_apply, gatherRows_apply]

/-- The real edges' half of the aggregate: an edge that lands on i has i's word as its destination word, so the
    factor gathered at its destination is dv i. -/
theorem out_real_half (src dst : IVec S400000 32) (H : FVec Ideal S400000x128 .f32) (i : Fin 400000) (d : Fin 128) :
    (∑ e : Fin 400000, if (asColumn (withLoops dst) (ix2 (⟨e.val, by omega⟩ : Fin 800000) (0 : Fin 1))).toInt = (i.val : Int)
        then refMsg src dst H (ix2 (⟨e.val, by omega⟩ : Fin 800000) d) else 0)
      = ∑ e : Fin 400000, if landsOf dst e i then dvS dst (rowOf src e) * dvS dst i * H (ix2 (rowOf src e) d) else 0 :=
  Finset.sum_congr rfl fun e _ => by
    rw [asColumn_apply, withLoops_real, refMsg_apply, refNorm_apply, withLoops_real, withLoops_real]
    by_cases h : landsOf dst e i
    · rw [if_pos h, if_pos (show (dst (ix1 e)).toInt = (i.val : Int) from h), rowOfW_of_lands _ _ h]
      rfl
    · rw [if_neg h, if_neg (show ¬(dst (ix1 e)).toInt = (i.val : Int) from h)]

/-- The loops' half of the aggregate: only node i's own loop lands on i, carrying row i with the factor dv i · dv i. -/
theorem out_loop_half (src dst : IVec S400000 32) (H : FVec Ideal S400000x128 .f32) (i : Fin 400000) (d : Fin 128) :
    (∑ j : Fin 400000, if (asColumn (withLoops dst) (ix2 (⟨400000 + j.val, by omega⟩ : Fin 800000) (0 : Fin 1))).toInt
        = (i.val : Int) then refMsg src dst H (ix2 (⟨400000 + j.val, by omega⟩ : Fin 800000) d) else 0)
      = dvS dst i * dvS dst i * H (ix2 i d) :=
  (Finset.sum_congr rfl fun j _ => by
    rw [asColumn_apply, withLoops_loop, refMsg_apply, refNorm_apply, withLoops_loop, withLoops_loop, rowOfW_ofNat]
    exact if_congr (landsW_ofNat j i) rfl rfl).trans
  ((Finset.sum_ite_eq' Finset.univ i fun j => dvS dst j * dvS dst j * H (ix2 j d)).trans (if_pos (Finset.mem_univ i)))

/-- The aggregate at (i, d) is the specification's reference aggregation of H. -/
theorem refOut_apply (src dst : IVec S400000 32) (H : FVec Ideal S400000x128 .f32) (i : Fin 400000) (d : Fin 128) :
    refOut src dst H (ix2 i d)
      = refAgg (landsOf dst) (rowOf src) (dvS dst) (fun j d' => H (ix2 j d')) i d := by
  unfold refOut
  rw [hostScatterAdd_ideal, zerosND_eq,
    show scatter_S400000x128_S800000x1_S800000x128_1_0_0_1
      = Cert.Lib.ScatterRows.rowsDims 400000 800000 128 scatter_S400000x128_S800000x1_S800000x128_1_0_0_1_wf from rfl,
    Cert.Lib.ScatterRows.scatterAdd_rows_apply, zeroW_eq, zero_add, sum_split, out_real_half, out_loop_half]
  unfold refAgg
  rfl

/-- ONE REFERENCE LAYER IS ONE STEP of the specification, over the rows X, the weights W and the bias b. -/
theorem refLayer_apply (src dst : IVec S400000 32) (X : FVec Ideal S400000x128 .f32) (W : FVec Ideal S128x128 .f32)
    (b : FVec Ideal S128 .f32) (i : Fin 400000) (d : Fin 128) :
    refLayer src dst X W b (ix2 i d)
      = Cert.Spec.layer src dst (fun i k => X (ix2 i k)) (fun k d => W (ix2 k d)) (fun d => b (ix1 d)) i d := by
  unfold refLayer
  rw [maximumf_apply, addf_apply, refOut_apply, bcastBias_apply, zerosND_apply, zeroW_eq]
  have hH : (fun j d' => refH X W (ix2 j d')) = mm (fun i k => X (ix2 i k)) (fun k d => W (ix2 k d)) :=
    funext fun j => funext fun d' => refH_apply X W j d'
  rw [hH]
  exact refStep_eq (landsOf dst) (rowOf src) (dvS dst) (dvS_real dst) _ _ (fun d => b (ix1 d)) i d

end Cert.ReferenceIdeal.RefValue

end
-- ==== Proof.RefNet.lean ====
/-
  The whole reference network, read at an index.

  Each of the reference's three layers is the same chain of operations on other buffers: its output array is the generic
  layer of this proof at the edge columns, the previous layer's output, and that layer's slice of the stacked weights and
  biases.  The slices read the stacked arrays at the layer's number.  So the final array, at (i, d), is the three steps
  of the specification composed.
-/
import proofs.«152663_j1228360647041_2_alg».proof.Proof.RefReadP
import proofs.«152663_j1228360647041_2_alg».proof.Proof.RefLayer

noncomputable section

namespace Cert.ReferenceIdeal.RefValue

open Cert.ReferenceIdeal Cert.ReferenceIdeal.Gen Cert.ReferenceIdeal.Read Cert.Spec Idealize.ShloMosaic
  Idealize.ShloMosaic.ValueIdx
open scoped BigOperators

variable (x0 x1 : (⟨S200000, .i32⟩ : BufTy).Contents (Elt Ideal))
  (x2 x3 : (⟨S100000x128, .f32⟩ : BufTy).Contents (Elt Ideal))
  (x4 : (⟨S3x128x128, .f32⟩ : BufTy).Contents (Elt Ideal)) (x5 : (⟨S3x128, .f32⟩ : BufTy).Contents (Elt Ideal))

/-! ## The factor arrays: recomputed by every layer from the same destination column -/

theorem v35_eq : val_main_v35 (F := Ideal) x0 x1 = refDinv (val_main_v18 (F := Ideal) x0 x1) := rfl
theorem v85_eq : val_main_v85 (F := Ideal) x0 x1 = refDinv (val_main_v18 (F := Ideal) x0 x1) := rfl
theorem v135_eq : val_main_v135 (F := Ideal) x0 x1 = refDinv (val_main_v18 (F := Ideal) x0 x1) := rfl

/-- Every layer's factor of node i is the specification's. -/
theorem ref_dinv0_apply (i : Fin 400000) :
    val_main_v35 (F := Ideal) x0 x1 (ix1 i) = dvS (val_main_v18 (F := Ideal) x0 x1) i := by
  rw [v35_eq]; exact refDinv_apply _ i
theorem ref_dinv1_apply (i : Fin 400000) :
    val_main_v85 (F := Ideal) x0 x1 (ix1 i) = dvS (val_main_v18 (F := Ideal) x0 x1) i := by
  rw [v85_eq]; exact refDinv_apply _ i
theorem ref_dinv2_apply (i : Fin 400000) :
    val_main_v135 (F := Ideal) x0 x1 (ix1 i) = dvS (val_main_v18 (F := Ideal) x0 x1) i := by
  rw [v135_eq]; exact refDinv_apply _ i

/-! ## The layers' output arrays are the generic layer at their operands -/

theorem v68_eq : val_main_v68 (F := Ideal) x0 x1 x2 x3 x4 x5
    = refLayer (val_main_v17 (F := Ideal) x0 x1) (val_main_v18 (F := Ideal) x0 x1)
        (val_main_v14 (F := Ideal) x0 x1 x2 x3) (val_main_v20 (F := Ideal) x4) (val_main_v22 (F := Ideal) x5) := rfl

theorem v118_eq : val_main_v118 (F := Ideal) x0 x1 x2 x3 x4 x5
    = refLayer (val_main_v17 (F := Ideal) x0 x1) (val_main_v18 (F := Ideal) x0 x1)
        (val_main_v68 (F := Ideal) x0 x1 x2 x3 x4 x5) (val_main_v70 (F := Ideal) x4) (val_main_v72 (F := Ideal) x5) := rfl

theorem v168_eq : val_main_v168 (F := Ideal) x0 x1 x2 x3 x4 x5
    = refLayer (val_main_v17 (F := Ideal) x0 x1) (val_main_v18 (F := Ideal) x0 x1)
        (val_main_v118 (F := Ideal) x0 x1 x2 x3 x4 x5) (val_main_v120 (F := Ideal) x4) (val_main_v122 (F := Ideal) x5) := rfl

/-! ## The slices of the stacked weights and biases -/

theorem v20_apply (k d : Fin 128) : val_main_v20 (F := Ideal) x4 (ix2 k d) = wOf x4 0 k d := by
  have hk := k.isLt
  have hd := d.isLt
  rw [val_main_v20_apply, val_main_v19_apply]
  show x4 _ = x4 (ix3 (0 : Fin 3) k d)
  refine congrArg x4 (funext fun a => Fin.ext ?_)
  match a with
  | ⟨0, _⟩ => rfl
  | ⟨1, _⟩ => show (k.val * 128 + d.val) / 128 % 128 = k.val; omega
  | ⟨2, _⟩ => show (k.val * 128 + d.val) % 128 = d.val; omega

theorem v70_apply (k d : Fin 128) : val_main_v70 (F := Ideal) x4 (ix2 k d) = wOf x4 1 k d := by
  have hk := k.isLt
  have hd := d.isLt
  rw [val_main_v70_apply, val_main_v69_apply]
  show x4 _ = x4 (ix3 (1 : Fin 3) k d)
  refine congrArg x4 (funext fun a => Fin.ext ?_)
  match a with
  | ⟨0, _⟩ => rfl
  | ⟨1, _⟩ => show (k.val * 128 + d.val) / 128 % 128 = k.val; omega
  | ⟨2, _⟩ => show (k.val * 128 + d.val) % 128 = d.val; omega

theorem v120_apply (k d : Fin 128) : val_main_v120 (F := Ideal) x4 (ix2 k d) = wOf x4 2 k d := by
  have hk := k.isLt
  have hd := d.isLt
  rw [val_main_v120_apply, val_main_v119_apply]
  show x4 _ = x4 (ix3 (2 : Fin 3) k d)
  refine congrArg x4 (funext fun a => Fin.ext ?_)
  match a with
  | ⟨0, _⟩ => rfl
  | ⟨1, _⟩ => show (k.val * 128 + d.val) / 128 % 128 = k.val; omega
  | ⟨2, _⟩ => show (k.val * 128 + d.val) % 128 = d.val; omega

theorem v22_apply (d : Fin 128) : val_main_v22 (F := Ideal) x5 (ix1 d) = bOf x5 0 d := by
  have hd := d.isLt
  rw [val_main_v22_apply, val_main_v21_apply]
  show x5 _ = x5 (ix2 (0 : Fin 3) d)
  refine congrArg x5 (funext fun a => Fin.ext ?_)
  match a with
  | ⟨0, _⟩ => rfl
  | ⟨1, _⟩ => show d.val % 128 = d.val; omega

theorem v72_apply (d : Fin 128) : val_main_v72 (F := Ideal) x5 (ix1 d) = bOf x5 1 d := by
  have hd := d.isLt
  rw [val_main_v72_apply, val_main_v71_apply]
  show x5 _ = x5 (ix2 (1 : Fin 3) d)
  refine congrArg x5 (funext fun a => Fin.ext ?_)
  match a with
  | ⟨0, _⟩ => rfl
  | ⟨1, _⟩ => show d.val % 128 = d.val; omega

theorem v122_apply (d : Fin 128) : val_main_v122 (F := Ideal) x5 (ix1 d) = bOf x5 2 d := by
  have hd := d.isLt
  rw [val_main_v122_apply, val_main_v121_apply]
  show x5 _ = x5 (ix2 (2 : Fin 3) d)
  refine congrArg x5 (funext fun a => Fin.ext ?_)
  match a with
  | ⟨0, _⟩ => rfl
  | ⟨1, _⟩ => show d.val % 128 = d.val; omega

/-! ## The three layers -/

/-- The first layer's output is one step over the embedded rows. -/
theorem ref_layer0_apply (i : Fin 400000) (d : Fin 128) :
    val_main_v68 (F := Ideal) x0 x1 x2 x3 x4 x5 (ix2 i d)
      = Cert.Spec.layer (val_main_v17 (F := Ideal) x0 x1) (val_main_v18 (F := Ideal) x0 x1)
          (fun i k => val_main_v14 (F := Ideal) x0 x1 x2 x3 (ix2 i k)) (wOf x4 0) (bOf x5 0) i d := by
  rw [v68_eq, refLayer_apply,
    show (fun k d => val_main_v20 (F := Ideal) x4 (ix2 k d)) = wOf x4 0 from funext fun k => funext fun d => v20_apply x4 k d,
    show (fun d => val_main_v22 (F := Ideal) x5 (ix1 d)) = bOf x5 0 from funext fun d => v22_apply x5 d]

/-- The second layer's output is one step over the first layer's. -/
theorem ref_layer1_apply (i : Fin 400000) (d : Fin 128) :
    val_main_v118 (F := Ideal) x0 x1 x2 x3 x4 x5 (ix2 i d)
      = Cert.Spec.layer (val_main_v17 (F := Ideal) x0 x1) (val_main_v18 (F := Ideal) x0 x1)
          (fun i k => val_main_v68 (F := Ideal) x0 x1 x2 x3 x4 x5 (ix2 i k)) (wOf x4 1) (bOf x5 1) i d := by
  rw [v118_eq, refLayer_apply,
    show (fun k d => val_main_v70 (F := Ideal) x4 (ix2 k d)) = wOf x4 1 from funext fun k => funext fun d => v70_apply x4 k d,
    show (fun d => val_main_v72 (F := Ideal) x5 (ix1 d)) = bOf x5 1 from funext fun d => v72_apply x5 d]

/-- The third layer's output is one step over the second layer's. -/
theorem ref_layer2_apply (i : Fin 400000) (d : Fin 128) :
    val_main_v168 (F := Ideal) x0 x1 x2 x3 x4 x5 (ix2 i d)
      = Cert.Spec.layer (val_main_v17 (F := Ideal) x0 x1) (val_main_v18 (F := Ideal) x0 x1)
          (fun i k => val_main_v118 (F := Ideal) x0 x1 x2 x3 x4 x5 (ix2 i k)) (wOf x4 2) (bOf x5 2) i d := by
  rw [v168_eq, refLayer_apply,
    show (fun k d => val_main_v120 (F := Ideal) x4 (ix2 k d)) = wOf x4 2 from funext fun k => funext fun d => v120_apply x4 k d,
    show (fun d => val_main_v122 (F := Ideal) x5 (ix1 d)) = bOf x5 2 from funext fun d => v122_apply x5 d]

/-- THE REFERENCE'S RESULT AT (i, d) is the specification's network over the edge columns, the embedded rows and the
    stacked weights and biases. -/
theorem ref_net_apply (i : Fin 400000) (d : Fin 128) :
    val_main_v168 (F := Ideal) x0 x1 x2 x3 x4 x5 (ix2 i d)
      = Cert.Spec.net (val_main_v17 (F := Ideal) x0 x1) (val_main_v18 (F := Ideal) x0 x1)
          (val_main_v14 (F := Ideal) x0 x1 x2 x3) x4 x5 i d := by
  have h0 : (fun i k => val_main_v68 (F := Ideal) x0 x1 x2 x3 x4 x5 (ix2 i k))
      = Cert.Spec.layer (val_main_v17 (F := Ideal) x0 x1) (val_main_v18 (F := Ideal) x0 x1)
          (fun i k => val_main_v14 (F := Ideal) x0 x1 x2 x3 (ix2 i k)) (wOf x4 0) (bOf x5 0) :=
    funext fun i => funext fun k => ref_layer0_apply x0 x1 x2 x3 x4 x5 i k
  have h1 : (fun i k => val_main_v118 (F := Ideal) x0 x1 x2 x3 x4 x5 (ix2 i k))
      = Cert.Spec.layer (val_main_v17 (F := Ideal) x0 x1) (val_main_v18 (F := Ideal) x0 x1)
          (fun i k => val_main_v68 (F := Ideal) x0 x1 x2 x3 x4 x5 (ix2 i k)) (wOf x4 1) (bOf x5 1) :=
    funext fun i => funext fun k => ref_layer1_apply x0 x1 x2 x3 x4 x5 i k
  rw [ref_layer2_apply, h1, h0]
  rfl

end Cert.ReferenceIdeal.RefValue

end
-- ==== Proof.KerRun.lean ====
/-
  The idealized kernel's run with its two results named.

  @main is eleven segments: stretches of host operations around three launches of the matrix unit.  The contents of
  every buffer at each segment boundary are a fold from the launch memory: a host stretch rewrites the buffers its
  operations write, a launch rewrites its output array to what its write-backs leave.  Every weakly fair execution
  terminates with every unscoped buffer at the last boundary's contents; here that fact is kept for the two result
  buffers as well as for the six argument arrays.
-/
import proofs.«152663_j1228360647041_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the argument arrays as launched. -/
theorem run_values : θ_run defs (onTc (τ := τ) (main (F := F))) ⟨m, fun _ => 0, ρ⟩ (fun r => ∀ c : Dev nD,
      r.2.mem ((c.tc : Thread nD τ).loc main_v88) = W11 m ρ c (Proc.devRef .tc main_v88)
      ∧ r.2.mem ((c.tc : Thread nD τ).loc main_v89) = W11 m ρ c (Proc.devRef .tc main_v89)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v88 (by decide)), h c _ (mem_uc main_v89 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.RunValue

end
-- ==== Proof.KerHostDefs.lean ====
/-
  The idealized kernel's host operations as named functions of arrays.

  Around its three launches the kernel's @main builds, from the two index columns a0, a1 (200000 words each) and the
  tables, weights and biases: the embedded rows (two row gathers joined), the edge columns src = (a0 + 200000) ++ a1 and
  dst = a1 ++ (a0 + 200000), the in-degree by a scatter-add of ones at dst plus one for the loop, its guarded inverse
  square root as a column, each layer's weight matrix and bias row cut out of the stacked arrays, the aggregation
  (rows gathered at the wrapped source words, scatter-added at the destination words, plus the node's own row), and the
  last bias + ReLU with the two halves of the result.  Each definition is the operations' own text.
-/
import proofs.«152663_j1228360647041_2_alg».proof.Proof.Gen.KernelIdeal
import Idealize.ShloMosaic.Lib.ValueIdx

noncomputable section

namespace Cert.KernelIdeal.HostValue

open Cert.KernelIdeal Cert.KernelIdeal.Gen Idealize.ShloMosaic Idealize.ShloMosaic.ValueIdx

/-- Integer and float arrays of a shape, at the extended reals. -/
abbrev CI (s : Shape) := (⟨s, .i32⟩ : BufTy).Contents (Elt Ideal)
abbrev CF (s : Shape) := (⟨s, .f32⟩ : BufTy).Contents (Elt Ideal)

/-- The user column shifted by half the node count. -/
def kU (a0 : CI S200000) : CI S200000 :=
  addi a0 (broadcastInDim S200000 ![] bcast_S_S200000 (constantI S_ 32 200000#32))

/-- The edge sources and destinations. -/
def kSrc (a0 a1 : CI S200000) : CI S400000 :=
  concatenate S400000 0 [⟨S200000, kU a0⟩, ⟨S200000, a1⟩] concatenates_S200000_S200000_S400000_d0
def kDst (a0 a1 : CI S200000) : CI S400000 :=
  concatenate S400000 0 [⟨S200000, a1⟩, ⟨S200000, kU a0⟩] concatenates_S200000_S200000_S400000_d0

/-- A table index column: negative words wrapped by the table's length. -/
def kWrapTab (a : CI S200000) : CI S200000x1 :=
  broadcastInDim S200000x1 ![0] bcast_S200000_S200000x1_0
    (select (cmpi .slt a (broadcastInDim S200000 ![] bcast_S_S200000 (constantI S_ 32 0#32)))
      (addi a (broadcastInDim S200000 ![] bcast_S_S200000 (constantI S_ 32 100000#32))) a)

/-- The embedded rows: user rows, then item rows. -/
def kX0 (a0 a1 : CI S200000) (a2 a3 : CF S100000x128) : CF S400000x128 :=
  concatenate S400000x128 0
    [⟨S200000x128, Host.gather gather_S100000x128_S200000x1_S200000x128_1_0_n_n_0_1_1128 a2 (kWrapTab a0)⟩,
     ⟨S200000x128, Host.gather gather_S100000x128_S200000x1_S200000x128_1_0_n_n_0_1_1128 a3 (kWrapTab a1)⟩]
    concatenates_S200000x128_S200000x128_S400000x128_d0

def kZeros1 : CF S400000 := broadcastInDim S400000 ![] bcast_S_S400000 (constant (F := Ideal) S_ .f32 0x00000000#32)
def kOnes1 : CF S400000 := broadcastInDim S400000 ![] bcast_S_S400000 (constant (F := Ideal) S_ .f32 0x3F800000#32)
def kZeros2 : CF S400000x128 := broadcastInDim S400000x128 ![] bcast_S_S400000x128 (constant (F := Ideal) S_ .f32 0x00000000#32)

/-- The destination words as an index column. -/
def kDstB (dst : CI S400000) : CI S400000x1 := broadcastInDim S400000x1 ![0] bcast_S400000_S400000x1_0 dst

/-- The in-degree: a one per landing edge, and one more. -/
def kDeg (dst : CI S400000) : CF S400000 :=
  addf (F := Ideal) (φ := .f32) (Host.scatterAdd (F := Ideal) (φ := .f32) scatter_S400000_S400000x1_S400000_n_0_0_1 kZeros1 (kDstB dst) kOnes1) kOnes1

/-- Its guarded inverse square root, as a vector and as a column. -/
def kDinv (dst : CI S400000) : CF S400000 :=
  select (cmpf (F := Ideal) (φ := .f32) .ogt (kDeg dst) kZeros1) (Host.rsqrt (F := Ideal) (φ := .f32) (maximumf (F := Ideal) (φ := .f32) (kDeg dst) kOnes1))
    (broadcastInDim S400000 ![] bcast_S_S400000 (id (constant (F := Ideal) S_ .f32 0x00000000#32)))
def kDinv2 (dst : CI S400000) : CF S400000x1 := shapeCast S400000x1 (kDinv dst) shapeCasts_S400000_S400000x1

/-- Layer l's weight matrix. -/
def kW0 (a4 : CF S3x128x128) : CF S128x128 :=
  shapeCast S128x128 (extractStridedSlice S1x128x128 ![0, 0, 0] a4 slices_S3x128x128_S1x128x128_0_0_0) shapeCasts_S1x128x128_S128x128
def kW1 (a4 : CF S3x128x128) : CF S128x128 :=
  shapeCast S128x128 (extractStridedSlice S1x128x128 ![1, 0, 0] a4 slices_S3x128x128_S1x128x128_1_0_0) shapeCasts_S1x128x128_S128x128
def kW2 (a4 : CF S3x128x128) : CF S128x128 :=
  shapeCast S128x128 (extractStridedSlice S1x128x128 ![2, 0, 0] a4 slices_S3x128x128_S1x128x128_2_0_0) shapeCasts_S1x128x128_S128x128

/-- Layer l's bias as a row. -/
def kB0 (a5 : CF S3x128) : CF S1x128 :=
  shapeCast S1x128 (shapeCast S128 (extractStridedSlice S1x128 ![0, 0] a5 slices_S3x128_S1x128_0_0) shapeCasts_S1x128_S128) shapeCasts_S128_S1x128
def kB1 (a5 : CF S3x128) : CF S1x128 :=
  shapeCast S1x128 (shapeCast S128 (extractStridedSlice S1x128 ![1, 0] a5 slices_S3x128_S1x128_1_0) shapeCasts_S1x128_S128) shapeCasts_S128_S1x128
def kB2 (a5 : CF S3x128) : CF S1x128 :=
  shapeCast S1x128 (shapeCast S128 (extractStridedSlice S1x128 ![2, 0] a5 slices_S3x128_S1x128_2_0) shapeCasts_S1x128_S128) shapeCasts_S128_S1x128

/-- The source words as an index column, negative words wrapped by the node count. -/
def kSrcN (src : CI S400000) : CI S400000x1 :=
  broadcastInDim S400000x1 ![0] bcast_S400000_S400000x1_0
    (select (cmpi .slt src (broadcastInDim S400000 ![] bcast_S_S400000 (constantI S_ 32 0#32)))
      (addi src (broadcastInDim S400000 ![] bcast_S_S400000 (constantI S_ 32 400000#32))) src)

/-- The aggregation: rows gathered at the sources, scatter-added at the destinations, plus each node's own row. -/
def kAgg (Hp : CF S400000x128) (src dst : CI S400000) : CF S400000x128 :=
  addf (F := Ideal) (φ := .f32)
    (Host.scatterAdd (F := Ideal) (φ := .f32) scatter_S400000x128_S400000x1_S400000x128_1_0_0_1 kZeros2 (kDstB dst)
      (Host.gather gather_S400000x128_S400000x1_S400000x128_1_0_n_n_0_1_1128 Hp (kSrcN src))) Hp

/-- The last scaling, bias and ReLU. -/
def kOut (S : CF S400000x128) (dv2 : CF S400000x1) (b : CF S1x128) : CF S400000x128 :=
  maximumf (F := Ideal) (φ := .f32)
    (addf (F := Ideal) (φ := .f32) (mulf (F := Ideal) (φ := .f32) (broadcastInDim S400000x128 ![0, 1] bcast_S400000x1_S400000x128_0_1 dv2) S)
      (broadcastInDim S400000x128 ![0, 1] bcast_S1x128_S400000x128_0_1 b)) kZeros2

/-- The two halves of the result. -/
def kRes0 (O : CF S400000x128) : CF S200000x128 := extractStridedSlice S200000x128 ![0, 0] O slices_S400000x128_S200000x128_0_0
def kRes1 (O : CF S400000x128) : CF S200000x128 := extractStridedSlice S200000x128 ![200000, 0] O slices_S400000x128_S200000x128_200000_0

end Cert.KernelIdeal.HostValue

end
-- ==== Proof.KerHost.lean ====
/-
  What each stretch of host operations leaves, as the named functions of what it found.

  A stretch rewrites the buffers its operations write and leaves every other buffer alone, so what a buffer holds
  after a stretch is the composition of the operations that produced it, applied to the contents the stretch started
  from; a buffer the stretch does not write is unchanged.  An operation of an outlined function stores its result
  through a transport along its buffer's type equation; such a transport is the identity.
-/
import proofs.«152663_j1228360647041_2_alg».proof.Proof.Gen.KernelIdeal.Launch
import proofs.«152663_j1228360647041_2_alg».proof.Proof.KerHostDefs
import Idealize.ShloMosaic.Lib.StableHlo.Run

set_option maxRecDepth 16384

noncomputable section

namespace Cert.KernelIdeal.HostValue

open Cert.KernelIdeal Cert.KernelIdeal.Gen Idealize.ShloMosaic Idealize.ShloMosaic.ValueIdx Idealize.ShloMosaic.StableHlo

variable (V : Valuation τ sig (Elt Ideal))

/-- A TensorCore reference as a device reference. -/
abbrev dr (b : Ref sig .tc) : DevRef τ sig := Proc.devRef .tc b

/-! ### Before the first launch -/

/-- The contents before the first launch, after the three opening stretches. -/
abbrev open3 : Valuation τ sig (Elt Ideal) := after hostOps0_2 (after hostOps0_1 (after (hostOps0 (F := Ideal)) V))

theorem open3_v14 : open3 V (dr main_v14) = kX0 (V (dr main_arg0)) (V (dr main_arg1)) (V (dr main_arg2)) (V (dr main_arg3)) := by
  simp only [open3, hostOps0, hostOps0_1, hostOps0_2]
  after_results_simp <;> (try simp only [cast_eq]) <;> rfl
theorem open3_v17 : open3 V (dr main_v17) = kSrc (V (dr main_arg0)) (V (dr main_arg1)) := by
  simp only [open3, hostOps0, hostOps0_1, hostOps0_2]
  after_results_simp <;> (try simp only [cast_eq]) <;> rfl
theorem open3_v18 : open3 V (dr main_v18) = kDst (V (dr main_arg0)) (V (dr main_arg1)) := by
  simp only [open3, hostOps0, hostOps0_1, hostOps0_2]
  after_results_simp <;> (try simp only [cast_eq]) <;> rfl
theorem open3_v33 : open3 V (dr main_v33) = kW0 (V (dr main_arg4)) := by
  simp only [open3, hostOps0, hostOps0_1, hostOps0_2]
  after_results_simp <;> (try simp only [cast_eq]) <;> rfl
theorem open3_arg4 : open3 V (dr main_arg4) = (V (dr main_arg4)) := by
  simp only [open3, hostOps0, hostOps0_1, hostOps0_2]
  after_results_simp <;> (try simp only [cast_eq]) <;> rfl
theorem open3_arg5 : open3 V (dr main_arg5) = (V (dr main_arg5)) := by
  simp only [open3, hostOps0, hostOps0_1, hostOps0_2]
  after_results_simp <;> (try simp only [cast_eq]) <;> rfl

/-! ### The factor column, from the destination column already in memory -/

theorem after_append (l₁ l₂ : List (HloOp τ sig (Elt Ideal))) (W : Valuation τ sig (Elt Ideal)) :
    after (l₁ ++ l₂) W = after l₂ (after l₁ W) := by
  induction l₁ generalizing W with
  | nil => rfl
  | cons op l ih => exact ih _

/-- The first stretch cut where both edge columns have been written: 24 operations, then 17. -/
abbrev headOps : List (HloOp τ sig (Elt Ideal)) := (hostOps0 (F := Ideal)).take 24
abbrev degOps : List (HloOp τ sig (Elt Ideal)) := (hostOps0 (F := Ideal)).drop 24

theorem hostOps0_eq : hostOps0 (F := Ideal) = headOps ++ degOps := (List.take_append_drop 24 _).symm

/-- The opening stretches from that cut on. -/
abbrev degTail (W : Valuation τ sig (Elt Ideal)) : Valuation τ sig (Elt Ideal) :=
  after hostOps0_2 (after hostOps0_1 (after degOps W))

theorem open3_split : open3 V = degTail (after headOps V) := by
  show after hostOps0_2 (after hostOps0_1 (after (hostOps0 (F := Ideal)) V)) = _
  rw [hostOps0_eq, after_append]

theorem degTail_v18 (W : Valuation τ sig (Elt Ideal)) : degTail W (dr main_v18) = W (dr main_v18) := by
  simp only [degTail, degOps, hostOps0, List.drop_succ_cons, List.drop_zero, hostOps0_1, hostOps0_2]
  after_results_simp <;> (try simp only [cast_eq]) <;> rfl

theorem degTail_v31 (W : Valuation τ sig (Elt Ideal)) : degTail W (dr main_v31) = kDinv2 (W (dr main_v18)) := by
  simp only [degTail, degOps, hostOps0, List.drop_succ_cons, List.drop_zero, hostOps0_1, hostOps0_2]
  after_results_simp <;> (try simp only [cast_eq]) <;> rfl

theorem open3_v31 : open3 V (dr main_v31) = kDinv2 (kDst (V (dr main_arg0)) (V (dr main_arg1))) := by
  rw [← open3_v18 V, open3_split, degTail_v31, degTail_v18]

/-! ### Between the launches -/

theorem mid1_v45 : after (hostOps1 (F := Ideal)) V (dr main_v45) = kAgg (V (dr main_v34)) (V (dr main_v17)) (V (dr main_v18)) := by
  simp only [hostOps1]
  after_results_simp <;> (try simp only [cast_eq]) <;> rfl
theorem mid1_v48 : after (hostOps1 (F := Ideal)) V (dr main_v48) = kB0 (V (dr main_arg5)) := by
  simp only [hostOps1]
  after_results_simp <;> (try simp only [cast_eq]) <;> rfl
theorem mid1_v50 : after (hostOps1 (F := Ideal)) V (dr main_v50) = kW1 (V (dr main_arg4)) := by
  simp only [hostOps1]
  after_results_simp <;> (try simp only [cast_eq]) <;> rfl
theorem mid1_v31 : after (hostOps1 (F := Ideal)) V (dr main_v31) = (V (dr main_v31)) := by
  simp only [hostOps1]
  after_results_simp <;> (try simp only [cast_eq]) <;> rfl
theorem mid1_v17 : after (hostOps1 (F := Ideal)) V (dr main_v17) = (V (dr main_v17)) := by
  simp only [hostOps1]
  after_results_simp <;> (try simp only [cast_eq]) <;> rfl
theorem mid1_v18 : after (hostOps1 (F := Ideal)) V (dr main_v18) = (V (dr main_v18)) := by
  simp only [hostOps1]
  after_results_simp <;> (try simp only [cast_eq]) <;> rfl
theorem mid1_arg4 : after (hostOps1 (F := Ideal)) V (dr main_arg4) = (V (dr main_arg4)) := by
  simp only [hostOps1]
  after_results_simp <;> (try simp only [cast_eq]) <;> rfl
theorem mid1_arg5 : after (hostOps1 (F := Ideal)) V (dr main_arg5) = (V (dr main_arg5)) := by
  simp only [hostOps1]
  after_results_simp <;> (try simp only [cast_eq]) <;> rfl
theorem mid2_v62 : after (hostOps2 (F := Ideal)) V (dr main_v62) = kAgg (V (dr main_v51)) (V (dr main_v17)) (V (dr main_v18)) := by
  simp only [hostOps2]
  after_results_simp <;> (try simp only [cast_eq]) <;> rfl
theorem mid2_v65 : after (hostOps2 (F := Ideal)) V (dr main_v65) = kB1 (V (dr main_arg5)) := by
  simp only [hostOps2]
  after_results_simp <;> (try simp only [cast_eq]) <;> rfl
theorem mid2_v67 : after (hostOps2 (F := Ideal)) V (dr main_v67) = kW2 (V (dr main_arg4)) := by
  simp only [hostOps2]
  after_results_simp <;> (try simp only [cast_eq]) <;> rfl
theorem mid2_v31 : after (hostOps2 (F := Ideal)) V (dr main_v31) = (V (dr main_v31)) := by
  simp only [hostOps2]
  after_results_simp <;> (try simp only [cast_eq]) <;> rfl
theorem mid2_v17 : after (hostOps2 (F := Ideal)) V (dr main_v17) = (V (dr main_v17)) := by
  simp only [hostOps2]
  after_results_simp <;> (try simp only [cast_eq]) <;> rfl
theorem mid2_v18 : after (hostOps2 (F := Ideal)) V (dr main_v18) = (V (dr main_v18)) := by
  simp only [hostOps2]
  after_results_simp <;> (try simp only [cast_eq]) <;> rfl
theorem mid2_arg5 : after (hostOps2 (F := Ideal)) V (dr main_arg5) = (V (dr main_arg5)) := by
  simp only [hostOps2]
  after_results_simp <;> (try simp only [cast_eq]) <;> rfl

/-! ### After the last launch -/

/-- The contents at the return, after the three closing stretches. -/
abbrev close3 : Valuation τ sig (Elt Ideal) := after hostOps3_2 (after hostOps3_1 (after (hostOps3 (F := Ideal)) V))

theorem close3_v88 : close3 V (dr main_v88) = kRes0 (kOut (kAgg (V (dr main_v68)) (V (dr main_v17)) (V (dr main_v18))) (V (dr main_v31)) (kB2 (V (dr main_arg5)))) := by
  simp only [close3, hostOps3, hostOps3_1, hostOps3_2]
  after_results_simp <;> (try simp only [cast_eq]) <;> rfl
theorem close3_v89 : close3 V (dr main_v89) = kRes1 (kOut (kAgg (V (dr main_v68)) (V (dr main_v17)) (V (dr main_v18))) (V (dr main_v31)) (kB2 (V (dr main_arg5)))) := by
  simp only [close3, hostOps3, hostOps3_1, hostOps3_2]
  after_results_simp <;> (try simp only [cast_eq]) <;> rfl

end Cert.KernelIdeal.HostValue

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.KerPayload.lean ====
/-
  The arithmetic of one launch of the matrix unit, read at one entry of its output block.

  A launch holds a block of 16000 rows.  In the first layer the block of X is multiplied by the weight matrix W and row p
  of the product is scaled by the p-th entry of the column dv:  out (p, q) = dv p · ∑ k, X (p, k) · W (k, q).
  In the later layers the rows are first scaled by dv, shifted by the bias row b and clipped at zero, and only then
  multiplied:  out (p, q) = dv p · ∑ k, max (dv p · S (p, k) + b k) 0 · W (k, q).
  The product's accumulator and the clip's lower bound are the float 0.0, which is the extended real zero.
-/
import proofs.«152663_j1228360647041_2_alg».proof.Proof.Gen.KernelIdeal.Skeleton
import proofs.«152663_j1228360647041_2_alg».proof.Proof.LibDotRows
import proofs.«152663_j1228360647041_2_alg».proof.Proof.LibColumns
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.ValueIdx
open scoped BigOperators

/-- A row [1, b] broadcast along the first axis to [a, b] reads, at (r, j), the row's entry j. -/
theorem KerBroadcastRow_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

/-- The block product of the first layer at (p, q). -/
theorem KerMatmul_apply (l : FVec Ideal S16000x128 .f32) (r : FVec Ideal S128x128 .f32) (p : Fin 16000) (q : Fin 128) :
    matmul (F := Ideal) dot_S16000x128_S128x128_S16000x128_1_0_0_1_n_n none l r (constant (F := Ideal) S16000x128 .f32 0x00000000#32) (ix2 p q)
      = ∑ k : Fin 128, l (ix2 p k) * r (ix2 k q) := by
  refine (Ideal.matmul_constant_zero_apply dot_S16000x128_S128x128_S16000x128_1_0_0_1_n_n none l r (ix2 p q)).trans ?_
  dot_rows dot_S16000x128_S128x128_S16000x128_1_0_0_1_n_n S16000x128 S128x128 128

/-- The first layer's block at (p, q): row p of X · W, scaled by dv p. -/
theorem KerPay0_apply (x0 : Vec Ideal S16000x128 .f32) (x1 : Vec Ideal S128x128 .f32) (x2 : Vec Ideal S16000x1 .f32)
    (p : Fin 16000) (q : Fin 128) :
    k0_pay1 (F := Ideal) x0 x1 x2 (ix2 p q) = x2 (ix2 p (0 : Fin 1)) * ∑ k : Fin 128, x0 (ix2 p k) * x1 (ix2 k q) := by
  unfold k0_pay1
  simp only [shapeCast_self]
  rw [mulf_apply, KerMatmul_apply, Cert.Columns.broadcastTo_a1_ab_apply]

/-- The later layers' block at (p, q): the rows scaled, shifted by the bias row and clipped at zero, then multiplied by
    W, and row p of the product scaled by dv p. -/
theorem KerPay1_apply (x0 : Vec Ideal S16000x1 .f32) (x2 : Vec Ideal S16000x128 .f32) (x6 : Vec Ideal S1x128 .f32)
    (x12 : Vec Ideal S128x128 .f32) (p : Fin 16000) (q : Fin 128) :
    k1_pay1 (F := Ideal) x0 x2 x6 x12 (ix2 p q)
      = x0 (ix2 p (0 : Fin 1)) * ∑ k : Fin 128, max (x0 (ix2 p (0 : Fin 1)) * x2 (ix2 p k) + x6 (ix2 (0 : Fin 1) k)) 0 * x12 (ix2 k q) := by
  unfold k1_pay1
  simp only [shapeCast_self]
  rw [mulf_apply, KerMatmul_apply, Cert.Columns.broadcastTo_a1_ab_apply]
  congr 1
  refine Finset.sum_congr rfl fun k _ => ?_
  rw [maximumf_apply, addf_apply, mulf_apply, broadcast_apply, Cert.Columns.broadcastTo_a1_ab_apply, KerBroadcastRow_apply]
  show max _ (Ideal.ofBits .f32 0x00000000#32) * _ = _
  rw [Ideal.ofBits_zero_f32]

/-- The third launch runs the same arithmetic as the second. -/
theorem KerPay2_apply (x0 : Vec Ideal S16000x1 .f32) (x2 : Vec Ideal S16000x128 .f32) (x6 : Vec Ideal S1x128 .f32)
    (x12 : Vec Ideal S128x128 .f32) (p : Fin 16000) (q : Fin 128) :
    k2_pay1 (F := Ideal) x0 x2 x6 x12 (ix2 p q)
      = x0 (ix2 p (0 : Fin 1)) * ∑ k : Fin 128, max (x0 (ix2 p (0 : Fin 1)) * x2 (ix2 p k) + x6 (ix2 (0 : Fin 1) k)) 0 * x12 (ix2 k q) :=
  KerPay1_apply x0 x2 x6 x12 p q

end Cert.KernelIdeal.RegionValue

end
-- ==== Proof.KerRegion0.lean ====
/-
  The first launch of the matrix unit, from its 25 row blocks to the whole output array.

  Grid point t holds rows 16000·t … 16000·t + 15999 of X and of the column dv, and all of W; it writes back rows
  16000·t … 16000·t + 15999 of the output.  The block it writes is the restriction to those rows of ONE function of the
  whole arrays, out (i, d) = dv i · ∑ k, X (i, k) · W (k, d), and the 25 blocks tile the 400000 rows, so after the last
  point the output array is that function.
-/
import proofs.«152663_j1228360647041_2_alg».proof.Proof.Gen.KernelIdeal.Frame
import proofs.«152663_j1228360647041_2_alg».proof.Proof.Spec
import proofs.«152663_j1228360647041_2_alg».proof.Proof.KerPayload
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-buffer access. -/
theorem KerZero0 : (![0, 0] : Fin 2 → Nat) = fun _ => 0 := funext fun a => by fin_cases a <;> rfl

/-- The index maps over the grid: the row-blocked windows are at block-row t, the weights at block (0, 0). -/
theorem KerIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t leaves for write-back: the block arithmetic of the three input blocks at t. -/
theorem KerAfter0 (c : Dev nD) (t : Fin cfg0.N) :
    (dat0 (F := Ideal) V c).flushed 3 t
      = k0_pay1 (F := Ideal) (iblk0 V c 0 t) (iblk0 V c 1 t) (iblk0 V c 2 t) := by
  show (cfg0.win 3).cut (grid0.coords t) ((dat0 V c).after 3 t) = _
  rw [after0_3]
  unfold out0_3
  rw [View.canon_unit_zero KerZero0]
  simp only [View.ld_unit_zero (S := S16000x128) KerZero0, View.ld_unit_zero (S := S128x128) KerZero0,
    View.ld_unit_zero (S := S16000x1) KerZero0]
  rfl

/-- The block of X at point t, read at (p, k), is X at row 16000·t + p. -/
theorem KerReadX0 (c : Dev nD) (t : Fin cfg0.N) (p : Fin 16000) (k : Fin 128) (i : S400000x128.Idx)
    (h0 : (i 0).val = t.val * 16000 + p.val) (h1 : (i 1).val = k.val) :
    (iblk0 (F := Ideal) V c 0 t : Vec Ideal S16000x128 .f32) (ix2 p k) = (V c main_v14 : S400000x128.Idx → EReal) i := by
  obtain ⟨a0, a1, b0, b1, d0, d1, o0, o1⟩ := KerIdx0 t
  show (V c main_v14 : S400000x128.Idx → EReal) (((cfg0.win 0).blk t).view.emb (ix2 p k)) = _
  congr 1
  funext a; apply Fin.ext
  match a with
  | ⟨0, _⟩ => show win0_0.index t (0 : Fin 2) * 16000 + 1 * p.val = (i 0).val; omega
  | ⟨1, _⟩ => show win0_0.index t (1 : Fin 2) * 128 + 1 * k.val = (i 1).val; omega

/-- The weights' block at every point is the whole matrix. -/
theorem KerReadW0 (c : Dev nD) (t : Fin cfg0.N) (k q : Fin 128) (i : S128x128.Idx)
    (h0 : (i 0).val = k.val) (h1 : (i 1).val = q.val) :
    (iblk0 (F := Ideal) V c 1 t : Vec Ideal S128x128 .f32) (ix2 k q) = (V c main_v33 : S128x128.Idx → EReal) i := by
  obtain ⟨a0, a1, b0, b1, d0, d1, o0, o1⟩ := KerIdx0 t
  show (V c main_v33 : S128x128.Idx → EReal) (((cfg0.win 1).blk t).view.emb (ix2 k q)) = _
  congr 1
  funext a; apply Fin.ext
  match a with
  | ⟨0, _⟩ => show win0_1.index t (0 : Fin 2) * 128 + 1 * k.val = (i 0).val; omega
  | ⟨1, _⟩ => show win0_1.index t (1 : Fin 2) * 128 + 1 * q.val = (i 1).val; omega

/-- The block of the column dv at point t, read at (p, 0), is dv at row 16000·t + p. -/
theorem KerReadD0 (c : Dev nD) (t : Fin cfg0.N) (p : Fin 16000) (i : S400000x1.Idx)
    (h0 : (i 0).val = t.val * 16000 + p.val) :
    (iblk0 (F := Ideal) V c 2 t : Vec Ideal S16000x1 .f32) (ix2 p (0 : Fin 1)) = (V c main_v31 : S400000x1.Idx → EReal) i := by
  obtain ⟨a0, a1, b0, b1, d0, d1, o0, o1⟩ := KerIdx0 t
  have h1 : (i 1).val = 0 := by have : (i 1).val < 1 := (i 1).isLt; omega
  show (V c main_v31 : S400000x1.Idx → EReal) (((cfg0.win 2).blk t).view.emb (ix2 p (0 : Fin 1))) = _
  congr 1
  funext a; apply Fin.ext
  match a with
  | ⟨0, _⟩ => show win0_2.index t (0 : Fin 2) * 16000 + 1 * p.val = (i 0).val; omega
  | ⟨1, _⟩ => show win0_2.index t (1 : Fin 2) * 1 + 1 * 0 = (i 1).val; omega

/-- Where the output's block at point t sits in the array: row 16000·t + p, column q. -/
theorem KerEmbOut0 (t : Fin cfg0.N) (p : Fin 16000) (q : Fin 128) :
    ((((cfg0.win 3).blk t).view.emb (ix2 p q)) 0).val = t.val * 16000 + p.val
    ∧ ((((cfg0.win 3).blk t).view.emb (ix2 p q)) 1).val = q.val := by
  obtain ⟨a0, a1, b0, b1, d0, d1, o0, o1⟩ := KerIdx0 t
  constructor
  · show win0_3.index t (0 : Fin 2) * 16000 + 1 * p.val = _; omega
  · show win0_3.index t (1 : Fin 2) * 128 + 1 * q.val = _; omega

/-- What point t writes back is block t of the whole-array function. -/
theorem KerFlushed0 (c : Dev nD) (t : Fin cfg0.N) :
    (dat0 (F := Ideal) V c).flushed 3 t
      = ((cfg0.win 3).blk t).view.read (Elt Ideal) (Cert.Spec.lin (V c main_v14) (V c main_v33) (V c main_v31)) := by
  rw [KerAfter0]
  funext j
  obtain ⟨p, q, rfl⟩ : ∃ (p : Fin 16000) (q : Fin 128), j = ix2 p q := ⟨j 0, j 1, eq_ix2 j⟩
  obtain ⟨e0, e1⟩ := KerEmbOut0 t p q
  show k0_pay1 (F := Ideal) (iblk0 V c 0 t) (iblk0 V c 1 t) (iblk0 V c 2 t) (ix2 p q)
    = Cert.Spec.lin (V c main_v14) (V c main_v33) (V c main_v31) (((cfg0.win 3).blk t).view.emb (ix2 p q))
  rw [KerPay0_apply]
  unfold Cert.Spec.lin
  rw [KerReadD0 V c t p (ix2 ((((cfg0.win 3).blk t).view.emb (ix2 p q)) 0) (0 : Fin 1)) e0]
  congr 1
  refine Finset.sum_congr rfl fun k _ => ?_
  rw [KerReadX0 V c t p k (ix2 ((((cfg0.win 3).blk t).view.emb (ix2 p q)) 0) k) e0 rfl,
    KerReadW0 V c t k q (ix2 k ((((cfg0.win 3).blk t).view.emb (ix2 p q)) 1)) rfl e1]

/-- An index of the output array is in point t's block iff each coordinate is in the block's range on its axis. -/
theorem KerMemBlk0 (t : Fin cfg0.N) (i : S400000x128.Idx) :
    i ∈ ((cfg0.win 3).blk t).view.set ↔ ∀ a : Fin 2, win0_3.index t a * S16000x128.size a ≤ (i a).val
      ∧ (i a).val < win0_3.index t a * S16000x128.size a + S16000x128.size a := by
  show i ∈ ((View.whole main_v34).slice (win0_3.rect t)).set ↔ _
  rw [View.set_slice_whole, Rect.mem_set_unit]
  exact Iff.rfl

/-- Row i of the output is in the block of point i / 16000: the blocks tile the array. -/
theorem KerCover0 (i : S400000x128.Idx) :
    ∃ t : Fin cfg0.N, (cfg0.win 3).flush t = true ∧ i ∈ ((cfg0.win 3).blk t).view.set := by
  have hi0 : (i 0).val < 400000 := (i 0).isLt
  have hi1 : (i 1).val < 128 := (i 1).isLt
  obtain ⟨t, ht⟩ : ∃ t : Fin cfg0.N, t.val = (i 0).val / 16000 :=
    ⟨⟨(i 0).val / 16000, by rw [show cfg0.N = 25 from N_0]; omega⟩, rfl⟩
  obtain ⟨a0, a1, b0, b1, d0, d1, o0, o1⟩ := KerIdx0 t
  refine ⟨t, flush0_3 t, ?_⟩
  rw [KerMemBlk0]
  intro a
  match a with
  | ⟨0, _⟩ =>
    show win0_3.index t (0 : Fin 2) * 16000 ≤ (i 0).val ∧ (i 0).val < win0_3.index t (0 : Fin 2) * 16000 + 16000
    omega
  | ⟨1, _⟩ =>
    show win0_3.index t (1 : Fin 2) * 128 ≤ (i 1).val ∧ (i 1).val < win0_3.index t (1 : Fin 2) * 128 + 128
    omega

/-- THE FIRST LAUNCH'S OUTPUT ARRAY: row i of X · W scaled by dv i, at every index. -/
theorem region0_out (c : Dev nD) :
    (dat0 (F := Ideal) V c).arrAt 3 cfg0.N = Cert.Spec.lin (V c main_v14) (V c main_v33) (V c main_v31) :=
  (dat0 (F := Ideal) V c).arrAt_eq_of_cover 3 _ (fun t _ => KerFlushed0 V c t) KerCover0

end Cert.KernelIdeal.RegionValue

end
-- ==== Proof.KerRegion1.lean ====
/-
  The second launch of the matrix unit, from its 25 row blocks to the whole output array.

  Grid point t holds rows 16000·t … 16000·t + 15999 of the incoming sums S and of the column dv, and all of the bias row
  b and of the weights W; it writes back rows 16000·t … 16000·t + 15999 of the output.  The block it writes is the
  restriction to those rows of ONE function of the whole arrays,
      out (i, d) = dv i · ∑ k, max (dv i · S (i, k) + b k) 0 · W (k, d),
  and the 25 blocks tile the 400000 rows, so after the last point the output array is that function.
-/
import proofs.«152663_j1228360647041_2_alg».proof.Proof.Gen.KernelIdeal.Frame
import proofs.«152663_j1228360647041_2_alg».proof.Proof.Spec
import proofs.«152663_j1228360647041_2_alg».proof.Proof.KerPayload
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-buffer access. -/
theorem KerZero1 : (![0, 0] : Fin 2 → Nat) = fun _ => 0 := funext fun a => by fin_cases a <;> rfl

/-- The index maps over the grid: the row-blocked windows are at block-row t, the bias row and the weights at
    block (0, 0). -/
theorem KerIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point t leaves for write-back: the block arithmetic of the four input blocks at t. -/
theorem KerAfter1 (c : Dev nD) (t : Fin cfg1.N) :
    (dat1 (F := Ideal) V c).flushed 4 t
      = k1_pay1 (F := Ideal) (iblk1 V c 3 t) (iblk1 V c 0 t) (iblk1 V c 1 t) (iblk1 V c 2 t) := by
  show (cfg1.win 4).cut (grid1.coords t) ((dat1 V c).after 4 t) = _
  rw [after1_4]
  unfold out1_4
  rw [View.canon_unit_zero KerZero1]
  simp only [View.ld_unit_zero (S := S16000x128) KerZero1, View.ld_unit_zero (S := S128x128) KerZero1,
    View.ld_unit_zero (S := S16000x1) KerZero1, View.ld_unit_zero (S := S1x128) KerZero1]
  rfl

/-- The block of S at point t, read at (p, k), is S at row 16000·t + p. -/
theorem KerReadS1 (c : Dev nD) (t : Fin cfg1.N) (p : Fin 16000) (k : Fin 128) (i : S400000x128.Idx)
    (h0 : (i 0).val = t.val * 16000 + p.val) (h1 : (i 1).val = k.val) :
    (iblk1 (F := Ideal) V c 0 t : Vec Ideal S16000x128 .f32) (ix2 p k) = (V c main_v45 : S400000x128.Idx → EReal) i := by
  obtain ⟨a0, a1, b0, b1, w0, w1, d0, d1, o0, o1⟩ := KerIdx1 t
  show (V c main_v45 : S400000x128.Idx → EReal) (((cfg1.win 0).blk t).view.emb (ix2 p k)) = _
  congr 1
  funext a; apply Fin.ext
  match a with
  | ⟨0, _⟩ => show win1_0.index t (0 : Fin 2) * 16000 + 1 * p.val = (i 0).val; omega
  | ⟨1, _⟩ => show win1_0.index t (1 : Fin 2) * 128 + 1 * k.val = (i 1).val; omega

/-- The bias row's block at every point is the whole row. -/
theorem KerReadB1 (c : Dev nD) (t : Fin cfg1.N) (k : Fin 128) :
    (iblk1 (F := Ideal) V c 1 t : Vec Ideal S1x128 .f32) (ix2 (0 : Fin 1) k) = (V c main_v48 : S1x128.Idx → EReal) (ix2 (0 : Fin 1) k) := by
  obtain ⟨a0, a1, b0, b1, w0, w1, d0, d1, o0, o1⟩ := KerIdx1 t
  show (V c main_v48 : S1x128.Idx → EReal) (((cfg1.win 1).blk t).view.emb (ix2 (0 : Fin 1) k)) = _
  congr 1
  funext a; apply Fin.ext
  match a with
  | ⟨0, _⟩ => show win1_1.index t (0 : Fin 2) * 1 + 1 * 0 = 0; omega
  | ⟨1, _⟩ => show win1_1.index t (1 : Fin 2) * 128 + 1 * k.val = k.val; omega

/-- The weights' block at every point is the whole matrix. -/
theorem KerReadW1 (c : Dev nD) (t : Fin cfg1.N) (k q : Fin 128) (i : S128x128.Idx)
    (h0 : (i 0).val = k.val) (h1 : (i 1).val = q.val) :
    (iblk1 (F := Ideal) V c 2 t : Vec Ideal S128x128 .f32) (ix2 k q) = (V c main_v50 : S128x128.Idx → EReal) i := by
  obtain ⟨a0, a1, b0, b1, w0, w1, d0, d1, o0, o1⟩ := KerIdx1 t
  show (V c main_v50 : S128x128.Idx → EReal) (((cfg1.win 2).blk t).view.emb (ix2 k q)) = _
  congr 1
  funext a; apply Fin.ext
  match a with
  | ⟨0, _⟩ => show win1_2.index t (0 : Fin 2) * 128 + 1 * k.val = (i 0).val; omega
  | ⟨1, _⟩ => show win1_2.index t (1 : Fin 2) * 128 + 1 * q.val = (i 1).val; omega

/-- The block of the column dv at point t, read at (p, 0), is dv at row 16000·t + p. -/
theorem KerReadD1 (c : Dev nD) (t : Fin cfg1.N) (p : Fin 16000) (i : S400000x1.Idx)
    (h0 : (i 0).val = t.val * 16000 + p.val) :
    (iblk1 (F := Ideal) V c 3 t : Vec Ideal S16000x1 .f32) (ix2 p (0 : Fin 1)) = (V c main_v31 : S400000x1.Idx → EReal) i := by
  obtain ⟨a0, a1, b0, b1, w0, w1, d0, d1, o0, o1⟩ := KerIdx1 t
  have h1 : (i 1).val = 0 := by have : (i 1).val < 1 := (i 1).isLt; omega
  show (V c main_v31 : S400000x1.Idx → EReal) (((cfg1.win 3).blk t).view.emb (ix2 p (0 : Fin 1))) = _
  congr 1
  funext a; apply Fin.ext
  match a with
  | ⟨0, _⟩ => show win1_3.index t (0 : Fin 2) * 16000 + 1 * p.val = (i 0).val; omega
  | ⟨1, _⟩ => show win1_3.index t (1 : Fin 2) * 1 + 1 * 0 = (i 1).val; omega

/-- Where the output's block at point t sits in the array: row 16000·t + p, column q. -/
theorem KerEmbOut1 (t : Fin cfg1.N) (p : Fin 16000) (q : Fin 128) :
    ((((cfg1.win 4).blk t).view.emb (ix2 p q)) 0).val = t.val * 16000 + p.val
    ∧ ((((cfg1.win 4).blk t).view.emb (ix2 p q)) 1).val = q.val := by
  obtain ⟨a0, a1, b0, b1, w0, w1, d0, d1, o0, o1⟩ := KerIdx1 t
  constructor
  · show win1_4.index t (0 : Fin 2) * 16000 + 1 * p.val = _; omega
  · show win1_4.index t (1 : Fin 2) * 128 + 1 * q.val = _; omega

/-- What point t writes back is block t of the whole-array function. -/
theorem KerFlushed1 (c : Dev nD) (t : Fin cfg1.N) :
    (dat1 (F := Ideal) V c).flushed 4 t
      = ((cfg1.win 4).blk t).view.read (Elt Ideal)
          (Cert.Spec.linRelu (V c main_v45) (V c main_v48) (V c main_v50) (V c main_v31)) := by
  rw [KerAfter1]
  funext j
  obtain ⟨p, q, rfl⟩ : ∃ (p : Fin 16000) (q : Fin 128), j = ix2 p q := ⟨j 0, j 1, eq_ix2 j⟩
  obtain ⟨e0, e1⟩ := KerEmbOut1 t p q
  show k1_pay1 (F := Ideal) (iblk1 V c 3 t) (iblk1 V c 0 t) (iblk1 V c 1 t) (iblk1 V c 2 t) (ix2 p q)
    = Cert.Spec.linRelu (V c main_v45) (V c main_v48) (V c main_v50) (V c main_v31) (((cfg1.win 4).blk t).view.emb (ix2 p q))
  rw [KerPay1_apply]
  unfold Cert.Spec.linRelu
  rw [KerReadD1 V c t p (ix2 ((((cfg1.win 4).blk t).view.emb (ix2 p q)) 0) (0 : Fin 1)) e0]
  congr 1
  refine Finset.sum_congr rfl fun k _ => ?_
  rw [KerReadS1 V c t p k (ix2 ((((cfg1.win 4).blk t).view.emb (ix2 p q)) 0) k) e0 rfl,
    KerReadB1 V c t k,
    KerReadW1 V c t k q (ix2 k ((((cfg1.win 4).blk t).view.emb (ix2 p q)) 1)) rfl e1]

/-- An index of the output array is in point t's block iff each coordinate is in the block's range on its axis. -/
theorem KerMemBlk1 (t : Fin cfg1.N) (i : S400000x128.Idx) :
    i ∈ ((cfg1.win 4).blk t).view.set ↔ ∀ a : Fin 2, win1_4.index t a * S16000x128.size a ≤ (i a).val
      ∧ (i a).val < win1_4.index t a * S16000x128.size a + S16000x128.size a := by
  show i ∈ ((View.whole main_v51).slice (win1_4.rect t)).set ↔ _
  rw [View.set_slice_whole, Rect.mem_set_unit]
  exact Iff.rfl

/-- Row i of the output is in the block of point i / 16000: the blocks tile the array. -/
theorem KerCover1 (i : S400000x128.Idx) :
    ∃ t : Fin cfg1.N, (cfg1.win 4).flush t = true ∧ i ∈ ((cfg1.win 4).blk t).view.set := by
  have hi0 : (i 0).val < 400000 := (i 0).isLt
  have hi1 : (i 1).val < 128 := (i 1).isLt
  obtain ⟨t, ht⟩ : ∃ t : Fin cfg1.N, t.val = (i 0).val / 16000 :=
    ⟨⟨(i 0).val / 16000, by rw [show cfg1.N = 25 from N_1]; omega⟩, rfl⟩
  obtain ⟨a0, a1, b0, b1, w0, w1, d0, d1, o0, o1⟩ := KerIdx1 t
  refine ⟨t, flush1_4 t, ?_⟩
  rw [KerMemBlk1]
  intro a
  match a with
  | ⟨0, _⟩ =>
    show win1_4.index t (0 : Fin 2) * 16000 ≤ (i 0).val ∧ (i 0).val < win1_4.index t (0 : Fin 2) * 16000 + 16000
    omega
  | ⟨1, _⟩ =>
    show win1_4.index t (1 : Fin 2) * 128 ≤ (i 1).val ∧ (i 1).val < win1_4.index t (1 : Fin 2) * 128 + 128
    omega

/-- THE SECOND LAUNCH'S OUTPUT ARRAY: the rows scaled by dv, shifted by b and clipped at zero, times W, scaled by
    dv again, at every index. -/
theorem region1_out (c : Dev nD) :
    (dat1 (F := Ideal) V c).arrAt 4 cfg1.N
      = Cert.Spec.linRelu (V c main_v45) (V c main_v48) (V c main_v50) (V c main_v31) :=
  (dat1 (F := Ideal) V c).arrAt_eq_of_cover 4 _ (fun t _ => KerFlushed1 V c t) KerCover1

end Cert.KernelIdeal.RegionValue

end
-- ==== Proof.KerRegion2.lean ====
/-
  The third launch of the matrix unit, from its 25 row blocks to the whole output array.

  Grid point t holds rows 16000·t … 16000·t + 15999 of the incoming sums S and of the column dv, and all of the bias row
  b and of the weights W; it writes back rows 16000·t … 16000·t + 15999 of the output.  The block it writes is the
  restriction to those rows of ONE function of the whole arrays,
      out (i, d) = dv i · ∑ k, max (dv i · S (i, k) + b k) 0 · W (k, d),
  and the 25 blocks tile the 400000 rows, so after the last point the output array is that function.
-/
import proofs.«152663_j1228360647041_2_alg».proof.Proof.Gen.KernelIdeal.Frame
import proofs.«152663_j1228360647041_2_alg».proof.Proof.Spec
import proofs.«152663_j1228360647041_2_alg».proof.Proof.KerPayload
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-buffer access. -/
theorem KerZero2 : (![0, 0] : Fin 2 → Nat) = fun _ => 0 := funext fun a => by fin_cases a <;> rfl

/-- The index maps over the grid: the row-blocked windows are at block-row t, the bias row and the weights at
    block (0, 0). -/
theorem KerIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point t leaves for write-back: the block arithmetic of the four input blocks at t. -/
theorem KerAfter2 (c : Dev nD) (t : Fin cfg2.N) :
    (dat2 (F := Ideal) V c).flushed 4 t
      = k2_pay1 (F := Ideal) (iblk2 V c 3 t) (iblk2 V c 0 t) (iblk2 V c 1 t) (iblk2 V c 2 t) := by
  show (cfg2.win 4).cut (grid2.coords t) ((dat2 V c).after 4 t) = _
  rw [after2_4]
  unfold out2_4
  rw [View.canon_unit_zero KerZero2]
  simp only [View.ld_unit_zero (S := S16000x128) KerZero2, View.ld_unit_zero (S := S128x128) KerZero2,
    View.ld_unit_zero (S := S16000x1) KerZero2, View.ld_unit_zero (S := S1x128) KerZero2]
  rfl

/-- The block of S at point t, read at (p, k), is S at row 16000·t + p. -/
theorem KerReadS2 (c : Dev nD) (t : Fin cfg2.N) (p : Fin 16000) (k : Fin 128) (i : S400000x128.Idx)
    (h0 : (i 0).val = t.val * 16000 + p.val) (h1 : (i 1).val = k.val) :
    (iblk2 (F := Ideal) V c 0 t : Vec Ideal S16000x128 .f32) (ix2 p k) = (V c main_v62 : S400000x128.Idx → EReal) i := by
  obtain ⟨a0, a1, b0, b1, w0, w1, d0, d1, o0, o1⟩ := KerIdx2 t
  show (V c main_v62 : S400000x128.Idx → EReal) (((cfg2.win 0).blk t).view.emb (ix2 p k)) = _
  congr 1
  funext a; apply Fin.ext
  match a with
  | ⟨0, _⟩ => show win2_0.index t (0 : Fin 2) * 16000 + 1 * p.val = (i 0).val; omega
  | ⟨1, _⟩ => show win2_0.index t (1 : Fin 2) * 128 + 1 * k.val = (i 1).val; omega

/-- The bias row's block at every point is the whole row. -/
theorem KerReadB2 (c : Dev nD) (t : Fin cfg2.N) (k : Fin 128) :
    (iblk2 (F := Ideal) V c 1 t : Vec Ideal S1x128 .f32) (ix2 (0 : Fin 1) k) = (V c main_v65 : S1x128.Idx → EReal) (ix2 (0 : Fin 1) k) := by
  obtain ⟨a0, a1, b0, b1, w0, w1, d0, d1, o0, o1⟩ := KerIdx2 t
  show (V c main_v65 : S1x128.Idx → EReal) (((cfg2.win 1).blk t).view.emb (ix2 (0 : Fin 1) k)) = _
  congr 1
  funext a; apply Fin.ext
  match a with
  | ⟨0, _⟩ => show win2_1.index t (0 : Fin 2) * 1 + 1 * 0 = 0; omega
  | ⟨1, _⟩ => show win2_1.index t (1 : Fin 2) * 128 + 1 * k.val = k.val; omega

/-- The weights' block at every point is the whole matrix. -/
theorem KerReadW2 (c : Dev nD) (t : Fin cfg2.N) (k q : Fin 128) (i : S128x128.Idx)
    (h0 : (i 0).val = k.val) (h1 : (i 1).val = q.val) :
    (iblk2 (F := Ideal) V c 2 t : Vec Ideal S128x128 .f32) (ix2 k q) = (V c main_v67 : S128x128.Idx → EReal) i := by
  obtain ⟨a0, a1, b0, b1, w0, w1, d0, d1, o0, o1⟩ := KerIdx2 t
  show (V c main_v67 : S128x128.Idx → EReal) (((cfg2.win 2).blk t).view.emb (ix2 k q)) = _
  congr 1
  funext a; apply Fin.ext
  match a with
  | ⟨0, _⟩ => show win2_2.index t (0 : Fin 2) * 128 + 1 * k.val = (i 0).val; omega
  | ⟨1, _⟩ => show win2_2.index t (1 : Fin 2) * 128 + 1 * q.val = (i 1).val; omega

/-- The block of the column dv at point t, read at (p, 0), is dv at row 16000·t + p. -/
theorem KerReadD2 (c : Dev nD) (t : Fin cfg2.N) (p : Fin 16000) (i : S400000x1.Idx)
    (h0 : (i 0).val = t.val * 16000 + p.val) :
    (iblk2 (F := Ideal) V c 3 t : Vec Ideal S16000x1 .f32) (ix2 p (0 : Fin 1)) = (V c main_v31 : S400000x1.Idx → EReal) i := by
  obtain ⟨a0, a1, b0, b1, w0, w1, d0, d1, o0, o1⟩ := KerIdx2 t
  have h1 : (i 1).val = 0 := by have : (i 1).val < 1 := (i 1).isLt; omega
  show (V c main_v31 : S400000x1.Idx → EReal) (((cfg2.win 3).blk t).view.emb (ix2 p (0 : Fin 1))) = _
  congr 1
  funext a; apply Fin.ext
  match a with
  | ⟨0, _⟩ => show win2_3.index t (0 : Fin 2) * 16000 + 1 * p.val = (i 0).val; omega
  | ⟨1, _⟩ => show win2_3.index t (1 : Fin 2) * 1 + 1 * 0 = (i 1).val; omega

/-- Where the output's block at point t sits in the array: row 16000·t + p, column q. -/
theorem KerEmbOut2 (t : Fin cfg2.N) (p : Fin 16000) (q : Fin 128) :
    ((((cfg2.win 4).blk t).view.emb (ix2 p q)) 0).val = t.val * 16000 + p.val
    ∧ ((((cfg2.win 4).blk t).view.emb (ix2 p q)) 1).val = q.val := by
  obtain ⟨a0, a1, b0, b1, w0, w1, d0, d1, o0, o1⟩ := KerIdx2 t
  constructor
  · show win2_4.index t (0 : Fin 2) * 16000 + 1 * p.val = _; omega
  · show win2_4.index t (1 : Fin 2) * 128 + 1 * q.val = _; omega

/-- What point t writes back is block t of the whole-array function. -/
theorem KerFlushed2 (c : Dev nD) (t : Fin cfg2.N) :
    (dat2 (F := Ideal) V c).flushed 4 t
      = ((cfg2.win 4).blk t).view.read (Elt Ideal)
          (Cert.Spec.linRelu (V c main_v62) (V c main_v65) (V c main_v67) (V c main_v31)) := by
  rw [KerAfter2]
  funext j
  obtain ⟨p, q, rfl⟩ : ∃ (p : Fin 16000) (q : Fin 128), j = ix2 p q := ⟨j 0, j 1, eq_ix2 j⟩
  obtain ⟨e0, e1⟩ := KerEmbOut2 t p q
  show k2_pay1 (F := Ideal) (iblk2 V c 3 t) (iblk2 V c 0 t) (iblk2 V c 1 t) (iblk2 V c 2 t) (ix2 p q)
    = Cert.Spec.linRelu (V c main_v62) (V c main_v65) (V c main_v67) (V c main_v31) (((cfg2.win 4).blk t).view.emb (ix2 p q))
  rw [KerPay2_apply]
  unfold Cert.Spec.linRelu
  rw [KerReadD2 V c t p (ix2 ((((cfg2.win 4).blk t).view.emb (ix2 p q)) 0) (0 : Fin 1)) e0]
  congr 1
  refine Finset.sum_congr rfl fun k _ => ?_
  rw [KerReadS2 V c t p k (ix2 ((((cfg2.win 4).blk t).view.emb (ix2 p q)) 0) k) e0 rfl,
    KerReadB2 V c t k,
    KerReadW2 V c t k q (ix2 k ((((cfg2.win 4).blk t).view.emb (ix2 p q)) 1)) rfl e1]

/-- An index of the output array is in point t's block iff each coordinate is in the block's range on its axis. -/
theorem KerMemBlk2 (t : Fin cfg2.N) (i : S400000x128.Idx) :
    i ∈ ((cfg2.win 4).blk t).view.set ↔ ∀ a : Fin 2, win2_4.index t a * S16000x128.size a ≤ (i a).val
      ∧ (i a).val < win2_4.index t a * S16000x128.size a + S16000x128.size a := by
  show i ∈ ((View.whole main_v68).slice (win2_4.rect t)).set ↔ _
  rw [View.set_slice_whole, Rect.mem_set_unit]
  exact Iff.rfl

/-- Row i of the output is in the block of point i / 16000: the blocks tile the array. -/
theorem KerCover2 (i : S400000x128.Idx) :
    ∃ t : Fin cfg2.N, (cfg2.win 4).flush t = true ∧ i ∈ ((cfg2.win 4).blk t).view.set := by
  have hi0 : (i 0).val < 400000 := (i 0).isLt
  have hi1 : (i 1).val < 128 := (i 1).isLt
  obtain ⟨t, ht⟩ : ∃ t : Fin cfg2.N, t.val = (i 0).val / 16000 :=
    ⟨⟨(i 0).val / 16000, by rw [show cfg2.N = 25 from N_2]; omega⟩, rfl⟩
  obtain ⟨a0, a1, b0, b1, w0, w1, d0, d1, o0, o1⟩ := KerIdx2 t
  refine ⟨t, flush2_4 t, ?_⟩
  rw [KerMemBlk2]
  intro a
  match a with
  | ⟨0, _⟩ =>
    show win2_4.index t (0 : Fin 2) * 16000 ≤ (i 0).val ∧ (i 0).val < win2_4.index t (0 : Fin 2) * 16000 + 16000
    omega
  | ⟨1, _⟩ =>
    show win2_4.index t (1 : Fin 2) * 128 ≤ (i 1).val ∧ (i 1).val < win2_4.index t (1 : Fin 2) * 128 + 128
    omega

/-- THE THIRD LAUNCH'S OUTPUT ARRAY: the rows scaled by dv, shifted by b and clipped at zero, times W, scaled by
    dv again, at every index. -/
theorem region2_out (c : Dev nD) :
    (dat2 (F := Ideal) V c).arrAt 4 cfg2.N
      = Cert.Spec.linRelu (V c main_v62) (V c main_v65) (V c main_v67) (V c main_v31) :=
  (dat2 (F := Ideal) V c).arrAt_eq_of_cover 4 _ (fun t _ => KerFlushed2 V c t) KerCover2

end Cert.KernelIdeal.RegionValue

end
-- ==== Proof.KerIndexA.lean ====
/-
  The kernel's index columns and constant arrays read at an index.

  An index column read at (e, 0) is the vector's entry e; the wrapped source column's entry e is the source word
  wrapped; the constant arrays hold the floats 0.0 and 1.0 everywhere.
-/
import proofs.«152663_j1228360647041_2_alg».proof.Proof.KerHostDefs
import proofs.«152663_j1228360647041_2_alg».proof.Proof.Spec
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.HostValue

open Cert.KernelIdeal Cert.KernelIdeal.Gen Cert.Spec Idealize.ShloMosaic Idealize.ShloMosaic.ValueIdx
open scoped BigOperators

/-- An index column at (e, 0) is the vector at e. -/
theorem col_apply (v : CI S400000) (e : Fin 400000) : kDstB v (ix2 e (0 : Fin 1)) = v (ix1 e) := by
  unfold kDstB
  exact broadcastInDim_apply _ bcast_S400000_S400000x1_0 v (ix2 e (0 : Fin 1)) (ix1 e) (fun a => match a with
    | ⟨0, _⟩ => by show e.val = if (400000 : Nat) = 1 then 0 else e.val; rw [if_neg (by decide)])

/-- The wrapped source column at (e, 0) is the source word e, wrapped. -/
theorem srcN_apply (src : CI S400000) (e : Fin 400000) : kSrcN src (ix2 e (0 : Fin 1)) = wrapW (src (ix1 e)) := by
  unfold kSrcN
  refine (broadcastInDim_apply _ bcast_S400000_S400000x1_0 _ (ix2 e (0 : Fin 1)) (ix1 e) (fun a => match a with
    | ⟨0, _⟩ => by show e.val = if (400000 : Nat) = 1 then 0 else e.val; rw [if_neg (by decide)])).trans ?_
  show Scalar.select (IntOp.cmpi .slt (src (ix1 e)) (broadcastInDim S400000 ![] bcast_S_S400000 (constantI S_ 32 0#32) (ix1 e)))
      (IntOp.addi (src (ix1 e)) (broadcastInDim S400000 ![] bcast_S_S400000 (constantI S_ 32 400000#32) (ix1 e))) (src (ix1 e)) = _
  rw [broadcastInDim_scalar_apply, broadcastInDim_scalar_apply]
  rfl

theorem kZeros1_apply (j : S400000.Idx) : kZeros1 j = 0 := by
  unfold kZeros1; rw [broadcastInDim_scalar_apply]; exact Ideal.ofBits_zero_f32
theorem kZeros1_apply' (j : S400000.Idx) : kZeros1 j = zeroW := by
  unfold kZeros1; rw [broadcastInDim_scalar_apply]; rfl
theorem kOnes1_apply (j : S400000.Idx) : kOnes1 j = oneW := by
  unfold kOnes1; rw [broadcastInDim_scalar_apply]; rfl
theorem kZeros2_apply (j : S400000x128.Idx) : kZeros2 j = 0 := by
  unfold kZeros2; rw [broadcastInDim_scalar_apply]; exact Ideal.ofBits_zero_f32

end Cert.KernelIdeal.HostValue

end
-- ==== Proof.KerIndexB.lean ====
/-
  The degree and the factor column at an index.

  A scatter-add of ones at the destination column, read at node i, counts the edges whose destination word, read signed,
  is i; with the loop's one this is the degree, and the factor column holds its guarded inverse square root.
-/
import proofs.«152663_j1228360647041_2_alg».proof.Proof.KerHostDefs
import proofs.«152663_j1228360647041_2_alg».proof.Proof.Spec
import proofs.«152663_j1228360647041_2_alg».proof.Proof.KerIndexA
import proofs.«152663_j1228360647041_2_alg».proof.Proof.LibScatterRows
import proofs.«152663_j1228360647041_2_alg».proof.Proof.LibColumns
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.HostValue

open Cert.KernelIdeal Cert.KernelIdeal.Gen Cert.Spec Idealize.ShloMosaic Idealize.ShloMosaic.ValueIdx
open scoped BigOperators

/-- The printed dimension record is the vector scatter's. -/
theorem sVec_eq : scatter_S400000_S400000x1_S400000_n_0_0_1
    = Cert.Lib.ScatterRows.vecDims 400000 400000 scatter_S400000_S400000x1_S400000_n_0_0_1_wf := rfl

/-- The host's accumulating scatter of a vector, as a function, is the exact one at that record. -/
theorem scatterVec_fun (x : CF S400000) (idx : CI S400000x1) (upd : CF S400000) :
    Host.scatterAdd (F := Ideal) (φ := .f32) scatter_S400000_S400000x1_S400000_n_0_0_1 x idx upd
      = Ideal.hostScatterAdd (Cert.Lib.ScatterRows.vecDims 400000 400000 scatter_S400000_S400000x1_S400000_n_0_0_1_wf) x idx upd :=
  rfl

/-- Read at node i: the operand's entry plus the updates whose index word, read signed, is i. -/
theorem scatterVec_apply (x : CF S400000) (idx : CI S400000x1) (upd : CF S400000) (i : Fin 400000) :
    Host.scatterAdd (F := Ideal) (φ := .f32) scatter_S400000_S400000x1_S400000_n_0_0_1 x idx upd (ix1 i)
      = x (ix1 i) + ∑ e : Fin 400000, if (idx (ix2 e (0 : Fin 1))).toInt = (i.val : Int) then upd (ix1 e) else 0 :=
  (congrFun (scatterVec_fun x idx upd) (ix1 i)).trans (Cert.Lib.ScatterRows.scatterAdd_vec_apply _ x idx upd i)

/-- The pointwise reads, for arbitrary arrays. -/
theorem cmpf_ogt_apply (x y : CF S400000) (j : S400000.Idx) :
    cmpf (F := Ideal) (φ := .f32) .ogt x y j = Ideal.cmp .ogt (x j) (y j) := rfl
theorem hostRsqrt_apply (x : CF S400000) (j : S400000.Idx) : Host.rsqrt (F := Ideal) (φ := .f32) x j = Ideal.rsqrt (x j) := rfl
theorem zerosId_apply (j : S400000.Idx) :
    broadcastInDim S400000 ![] bcast_S_S400000 (id (constant (F := Ideal) S_ .f32 0x00000000#32)) j = zeroW := by
  rw [broadcastInDim_scalar_apply]; rfl

/-- The count of landing edges at node i. -/
theorem count_apply (dst : CI S400000) (i : Fin 400000) :
    Host.scatterAdd (F := Ideal) (φ := .f32) scatter_S400000_S400000x1_S400000_n_0_0_1 kZeros1 (kDstB dst) kOnes1 (ix1 i)
      = ∑ e : Fin 400000, if landsOf dst e i then oneW else 0 := by
  rw [scatterVec_apply, kZeros1_apply, zero_add]
  refine Finset.sum_congr rfl fun e _ => ?_
  rw [col_apply, kOnes1_apply]
  exact if_congr Iff.rfl rfl rfl

/-- The degree at node i. -/
theorem kDeg_apply (dst : CI S400000) (i : Fin 400000) : kDeg dst (ix1 i) = degS (landsOf dst) i := by
  unfold kDeg degS
  rw [addf_apply, kOnes1_apply, count_apply]

/-- The factor vector at node i. -/
theorem kDinv_apply (dst : CI S400000) (i : Fin 400000) : kDinv dst (ix1 i) = dvS dst i := by
  unfold kDinv dvS dvOf
  rw [select_apply, cmpf_ogt_apply, hostRsqrt_apply, maximumf_apply, zerosId_apply, kZeros1_apply', kOnes1_apply, kDeg_apply]

/-- The factor column at (i, 0). -/
theorem kDinv2_apply (dst : CI S400000) (i : Fin 400000) : kDinv2 dst (ix2 i (0 : Fin 1)) = dvS dst i := by
  unfold kDinv2
  rw [Cert.Columns.shapeCast_a_a1_apply, kDinv_apply]

end Cert.KernelIdeal.HostValue

end
-- ==== Proof.KerIndexC.lean ====
/-
  The aggregation at an index.

  A scatter-add of rows at the destination column, read at (i, d), is the sum over the edges whose destination word,
  read signed, is i, of their rows' entries d; a row gather at the wrapped source column reads the row the word names.
  So the aggregation is the sum of the carried rows plus the node's own.
-/
import proofs.«152663_j1228360647041_2_alg».proof.Proof.KerHostDefs
import proofs.«152663_j1228360647041_2_alg».proof.Proof.Spec
import proofs.«152663_j1228360647041_2_alg».proof.Proof.KerIndexA
import proofs.«152663_j1228360647041_2_alg».proof.Proof.LibScatterRows
import proofs.«152663_j1228360647041_2_alg».proof.Proof.LibGatherRows
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.HostValue

open Cert.KernelIdeal Cert.KernelIdeal.Gen Cert.Spec Idealize.ShloMosaic Idealize.ShloMosaic.ValueIdx
open scoped BigOperators

/-- The printed dimension records are the row scatter's and the row gather's. -/
theorem sRows_eq : scatter_S400000x128_S400000x1_S400000x128_1_0_0_1
    = Cert.Lib.ScatterRows.rowsDims 400000 400000 128 scatter_S400000x128_S400000x1_S400000x128_1_0_0_1_wf := rfl
theorem gRows_eq : gather_S400000x128_S400000x1_S400000x128_1_0_n_n_0_1_1128
    = Cert.Lib.GatherRows.rowsDims 400000 400000 128 gather_S400000x128_S400000x1_S400000x128_1_0_n_n_0_1_1128_wf := rfl

/-- The host's accumulating scatter of rows, as a function, is the exact one at that record. -/
theorem scatterRows_fun (x : CF S400000x128) (idx : CI S400000x1) (upd : CF S400000x128) :
    Host.scatterAdd (F := Ideal) (φ := .f32) scatter_S400000x128_S400000x1_S400000x128_1_0_0_1 x idx upd
      = Ideal.hostScatterAdd (Cert.Lib.ScatterRows.rowsDims 400000 400000 128 scatter_S400000x128_S400000x1_S400000x128_1_0_0_1_wf)
          x idx upd :=
  rfl

/-- Read at (i, d): the operand's entry plus the update rows whose index word, read signed, is i, at column d. -/
theorem scatterRows_apply (x : CF S400000x128) (idx : CI S400000x1) (upd : CF S400000x128) (i : Fin 400000) (d : Fin 128) :
    Host.scatterAdd (F := Ideal) (φ := .f32) scatter_S400000x128_S400000x1_S400000x128_1_0_0_1 x idx upd (ix2 i d)
      = x (ix2 i d) + ∑ e : Fin 400000, if (idx (ix2 e (0 : Fin 1))).toInt = (i.val : Int) then upd (ix2 e d) else 0 :=
  (congrFun (scatterRows_fun x idx upd) (ix2 i d)).trans (Cert.Lib.ScatterRows.scatterAdd_rows_apply _ x idx upd i d)

/-- A row gather at (e, d): row "index word e, read signed and clamped", column d. -/
theorem gatherRows_apply (Hp : CF S400000x128) (idx : CI S400000x1) (e : Fin 400000) (d : Fin 128) :
    Host.gather gather_S400000x128_S400000x1_S400000x128_1_0_n_n_0_1_1128 Hp idx (ix2 e d)
      = Hp (ix2 (⟨min (idx (ix2 e (0 : Fin 1))).toInt.toNat (400000 - 1), by omega⟩ : Fin 400000) d) := by
  rw [gRows_eq, Cert.Lib.GatherRows.gather_rows_apply (by decide)]
  have hi : Cert.Lib.GatherRows.rowsIdx (ix2 e d) = ix2 e (0 : Fin 1) :=
    funext fun a => Fin.ext (by match a with | ⟨0, _⟩ => rfl | ⟨1, _⟩ => rfl)
  refine congrArg Hp (funext fun a => Fin.ext ?_)
  match a with
  | ⟨0, _⟩ =>
    show min (idx (Cert.Lib.GatherRows.rowsIdx (ix2 e d))).toInt.toNat (400000 - 1) = _
    rw [hi]
  | ⟨1, _⟩ => rfl

/-- The gathered rows at (e, d): the row the wrapped source word e names. -/
theorem gathered_apply (Hp : CF S400000x128) (src : CI S400000) (e : Fin 400000) (d : Fin 128) :
    Host.gather gather_S400000x128_S400000x1_S400000x128_1_0_n_n_0_1_1128 Hp (kSrcN src) (ix2 e d) = Hp (ix2 (rowOf src e) d) := by
  rw [gatherRows_apply]
  refine congrArg Hp (funext fun a => Fin.ext ?_)
  match a with
  | ⟨0, _⟩ =>
    show min (kSrcN src (ix2 e (0 : Fin 1))).toInt.toNat (400000 - 1) = _
    rw [srcN_apply]; rfl
  | ⟨1, _⟩ => rfl

/-- The aggregation at (i, d): the rows carried by the edges landing on i, and i's own. -/
theorem kAgg_apply (Hp : CF S400000x128) (src dst : CI S400000) (i : Fin 400000) (d : Fin 128) :
    kAgg Hp src dst (ix2 i d) = agg (landsOf dst) (rowOf src) (fun j d' => Hp (ix2 j d')) i d := by
  unfold kAgg agg
  rw [addf_apply, scatterRows_apply, kZeros2_apply, zero_add]
  refine congrArg (· + Hp (ix2 i d)) ?_
  refine Finset.sum_congr rfl fun e _ => ?_
  rw [col_apply, gathered_apply]
  exact if_congr Iff.rfl rfl rfl

end Cert.KernelIdeal.HostValue

end
-- ==== Proof.KerNet.lean ====
/-
  The kernel's whole computation, as one function of arrays, is the network of Spec.

  From the embedded rows X, the edge columns and the stacked weights and biases, the kernel computes three times
  "scale the rows of (activations · W) by the factor, aggregate over the edges", feeding each aggregate S back through
  relu(factor · S + bias), and ends with that same relu.  Reading each launch's output array and each host operation at
  an index turns this into three applications of one layer step.
-/
import proofs.«152663_j1228360647041_2_alg».proof.Proof.KerHostDefs
import proofs.«152663_j1228360647041_2_alg».proof.Proof.KerIndexA
import proofs.«152663_j1228360647041_2_alg».proof.Proof.KerIndexB
import proofs.«152663_j1228360647041_2_alg».proof.Proof.KerIndexC
import proofs.«152663_j1228360647041_2_alg».proof.Proof.Spec
import Idealize.ShloMosaic.Lib.Pipeline.Value
import Idealize.ShloMosaic.Lib.ValueLayout

noncomputable section

namespace Cert.KernelIdeal.HostValue

open Cert.KernelIdeal Cert.KernelIdeal.Gen Cert.Spec Idealize.ShloMosaic Idealize.ShloMosaic.ValueIdx
open scoped BigOperators

/-! ## Weights, biases and the last operations at an index -/

/-- A [1,128,128] slice at offset (l,0,0) of the stacked weights, with its unit axis dropped, at (k, d). -/
theorem sliceW_apply (l : Fin 3) (h : S3x128x128.Slices ![l.val, 0, 0] S1x128x128) (a4 : CF S3x128x128) (k d : Fin 128) :
    shapeCast S128x128 (extractStridedSlice S1x128x128 ![l.val, 0, 0] a4 h) shapeCasts_S1x128x128_S128x128 (ix2 k d)
      = a4 (ix3 l k d) := by
  refine (shapeCast_dropUnit_apply (n := 2) ![128, 128] _ shapeCasts_S1x128x128_S128x128 (ix2 k d)).trans ?_
  refine extractStridedSlice_apply _ a4 h _ (ix3 l k d) fun a => ?_
  match a with
  | ⟨0, _⟩ => rfl
  | ⟨1, _⟩ => show k.val = 0 + k.val; omega
  | ⟨2, _⟩ => show d.val = 0 + d.val; omega

theorem kW0_apply (a4 : CF S3x128x128) (k d : Fin 128) : kW0 a4 (ix2 k d) = wOf a4 0 k d :=
  sliceW_apply 0 slices_S3x128x128_S1x128x128_0_0_0 a4 k d
theorem kW1_apply (a4 : CF S3x128x128) (k d : Fin 128) : kW1 a4 (ix2 k d) = wOf a4 1 k d :=
  sliceW_apply 1 slices_S3x128x128_S1x128x128_1_0_0 a4 k d
theorem kW2_apply (a4 : CF S3x128x128) (k d : Fin 128) : kW2 a4 (ix2 k d) = wOf a4 2 k d :=
  sliceW_apply 2 slices_S3x128x128_S1x128x128_2_0_0 a4 k d

/-- A [1,128] slice at offset (l,0) of the stacked biases, flattened and made a row again, at (0, d). -/
theorem sliceB_apply (l : Fin 3) (h : S3x128.Slices ![l.val, 0] S1x128) (a5 : CF S3x128) (d : Fin 128) :
    shapeCast S1x128 (shapeCast S128 (extractStridedSlice S1x128 ![l.val, 0] a5 h) shapeCasts_S1x128_S128) shapeCasts_S128_S1x128
      (ix2 (0 : Fin 1) d) = a5 (ix2 l d) := by
  rw [shapeCast_shapeCast]
  refine extractStridedSlice_apply _ a5 h _ (ix2 l d) fun a => ?_
  match a with
  | ⟨0, _⟩ => rfl
  | ⟨1, _⟩ => show d.val = 0 + d.val; omega

theorem kB0_apply (a5 : CF S3x128) (d : Fin 128) : kB0 a5 (ix2 (0 : Fin 1) d) = bOf a5 0 d :=
  sliceB_apply 0 slices_S3x128_S1x128_0_0 a5 d
theorem kB1_apply (a5 : CF S3x128) (d : Fin 128) : kB1 a5 (ix2 (0 : Fin 1) d) = bOf a5 1 d :=
  sliceB_apply 1 slices_S3x128_S1x128_1_0 a5 d
theorem kB2_apply (a5 : CF S3x128) (d : Fin 128) : kB2 a5 (ix2 (0 : Fin 1) d) = bOf a5 2 d :=
  sliceB_apply 2 slices_S3x128_S1x128_2_0 a5 d

/-- The last scaling, bias and ReLU at (i, d). -/
theorem kOut_apply (S : CF S400000x128) (dv2 : CF S400000x1) (b : CF S1x128) (i : Fin 400000) (d : Fin 128) :
    kOut S dv2 b (ix2 i d) = max (dv2 (ix2 i (0 : Fin 1)) * S (ix2 i d) + b (ix2 (0 : Fin 1) d)) 0 := by
  unfold kOut
  rw [maximumf_apply, addf_apply, mulf_apply, kZeros2_apply]
  have h1 : broadcastInDim S400000x128 ![0, 1] bcast_S400000x1_S400000x128_0_1 dv2 (ix2 i d) = dv2 (ix2 i (0 : Fin 1)) :=
    broadcastInDim_apply _ bcast_S400000x1_S400000x128_0_1 dv2 (ix2 i d) (ix2 i (0 : Fin 1)) (fun a => match a with
      | ⟨0, _⟩ => by show i.val = if (400000 : Nat) = 1 then 0 else i.val; rw [if_neg (by decide)]
      | ⟨1, _⟩ => by show (0 : Nat) = if (1 : Nat) = 1 then 0 else d.val; rw [if_pos rfl])
  have h2 : broadcastInDim S400000x128 ![0, 1] bcast_S1x128_S400000x128_0_1 b (ix2 i d) = b (ix2 (0 : Fin 1) d) :=
    broadcastInDim_apply _ bcast_S1x128_S400000x128_0_1 b (ix2 i d) (ix2 (0 : Fin 1) d) (fun a => match a with
      | ⟨0, _⟩ => by show (0 : Nat) = if (1 : Nat) = 1 then 0 else i.val; rw [if_pos rfl]
      | ⟨1, _⟩ => by show d.val = if (128 : Nat) = 1 then 0 else d.val; rw [if_neg (by decide)])
  rw [h1, h2]

/-! ## The launches' whole-array functions at an index -/

theorem lin_apply' (X : CF S400000x128) (W : CF S128x128) (dv2 : CF S400000x1) (j : Fin 400000) (d' : Fin 128) :
    lin X W dv2 (ix2 j d') = dv2 (ix2 j (0 : Fin 1)) * ∑ k : Fin 128, X (ix2 j k) * W (ix2 k d') := rfl

theorem linRelu_apply' (S : CF S400000x128) (b : CF S1x128) (W : CF S128x128) (dv2 : CF S400000x1) (j : Fin 400000) (d' : Fin 128) :
    linRelu S b W dv2 (ix2 j d')
      = dv2 (ix2 j (0 : Fin 1)) * ∑ k : Fin 128, max (dv2 (ix2 j (0 : Fin 1)) * S (ix2 j k) + b (ix2 (0 : Fin 1) k)) 0 * W (ix2 k d') := rfl

/-! ## The whole computation -/

/-- The kernel's computation from the embedded rows and the edge columns on. -/
def kNetG (src dst : CI S400000) (X : CF S400000x128) (a4 : CF S3x128x128) (a5 : CF S3x128) : CF S400000x128 :=
  kOut
    (kAgg (linRelu
      (kAgg (linRelu
        (kAgg (lin X (kW0 a4) (kDinv2 dst)) src dst)
        (kB0 a5) (kW1 a4) (kDinv2 dst)) src dst)
      (kB1 a5) (kW2 a4) (kDinv2 dst)) src dst)
    (kDinv2 dst) (kB2 a5)

/-- The kernel's computation from the argument arrays. -/
def kNet (a0 a1 : CI S200000) (a2 a3 : CF S100000x128) (a4 : CF S3x128x128) (a5 : CF S3x128) : CF S400000x128 :=
  kNetG (kSrc a0 a1) (kDst a0 a1) (kX0 a0 a1 a2 a3) a4 a5

/-- One pass "launch, then aggregate" from activations A: the aggregate that the next relu turns into the next layer. -/
theorem pass_apply (src dst : CI S400000) (H : CF S400000x128) (A : Fin 400000 → Fin 128 → EReal) (W : Fin 128 → Fin 128 → EReal)
    (hH : ∀ j d', H (ix2 j d') = dvS dst j * mm A W j d') (b : Fin 128 → EReal) (i : Fin 400000) (k : Fin 128) :
    max (dvS dst i * kAgg H src dst (ix2 i k) + b k) 0 = layer src dst A W b i k := by
  rw [kAgg_apply]
  simp only [hH]
  rfl

theorem kNetG_apply (src dst : CI S400000) (X : CF S400000x128) (a4 : CF S3x128x128) (a5 : CF S3x128)
    (i : Fin 400000) (d : Fin 128) :
    kNetG src dst X a4 a5 (ix2 i d) = net src dst X a4 a5 i d := by
  have h0 : ∀ j d', lin X (kW0 a4) (kDinv2 dst) (ix2 j d')
      = dvS dst j * mm (fun i k => X (ix2 i k)) (wOf a4 0) j d' := fun j d' => by
    rw [lin_apply', kDinv2_apply]; unfold mm; simp only [kW0_apply]
  have h1 : ∀ j d', linRelu (kAgg (lin X (kW0 a4) (kDinv2 dst)) src dst) (kB0 a5) (kW1 a4) (kDinv2 dst) (ix2 j d')
      = dvS dst j * mm (layer src dst (fun i k => X (ix2 i k)) (wOf a4 0) (bOf a5 0)) (wOf a4 1) j d' := fun j d' => by
    rw [linRelu_apply', kDinv2_apply]; unfold mm
    simp only [kB0_apply, kW1_apply, pass_apply src dst _ _ _ h0]
  have h2 : ∀ j d', linRelu (kAgg (linRelu (kAgg (lin X (kW0 a4) (kDinv2 dst)) src dst) (kB0 a5) (kW1 a4) (kDinv2 dst)) src dst)
        (kB1 a5) (kW2 a4) (kDinv2 dst) (ix2 j d')
      = dvS dst j * mm (layer src dst (layer src dst (fun i k => X (ix2 i k)) (wOf a4 0) (bOf a5 0)) (wOf a4 1) (bOf a5 1))
          (wOf a4 2) j d' := fun j d' => by
    rw [linRelu_apply', kDinv2_apply]; unfold mm
    simp only [kB1_apply, kW2_apply, pass_apply src dst _ _ _ h1]
  unfold kNetG net
  rw [kOut_apply, kDinv2_apply, kB2_apply]
  exact pass_apply src dst _ _ _ h2 _ i d

theorem kNet_apply (a0 a1 : CI S200000) (a2 a3 : CF S100000x128) (a4 : CF S3x128x128) (a5 : CF S3x128)
    (i : Fin 400000) (d : Fin 128) :
    kNet a0 a1 a2 a3 a4 a5 (ix2 i d) = net (kSrc a0 a1) (kDst a0 a1) (kX0 a0 a1 a2 a3) a4 a5 i d :=
  kNetG_apply _ _ _ a4 a5 i d

end Cert.KernelIdeal.HostValue

end
-- ==== Proof.KerChain.lean ====
/-
  The idealized kernel's two results as functions of the argument arrays.

  The buffer contents at the return are a fold through @main's eleven segments.  Walking it forward: the opening
  stretches build the embedded rows, the edge columns, the factor column and the first weights from the arguments; each
  launch writes its output array to the whole-array function of its input arrays; each middle stretch aggregates that
  output over the edges and cuts the next weights and bias; the closing stretches aggregate once more, scale, add the
  last bias, clip at zero and cut the two halves.  A buffer that a segment does not write keeps its contents.
-/
import proofs.«152663_j1228360647041_2_alg».proof.Proof.Gen.KernelIdeal.Frame
import proofs.«152663_j1228360647041_2_alg».proof.Proof.KerHost
import proofs.«152663_j1228360647041_2_alg».proof.Proof.KerRegion0
import proofs.«152663_j1228360647041_2_alg».proof.Proof.KerRegion1
import proofs.«152663_j1228360647041_2_alg».proof.Proof.KerRegion2
import proofs.«152663_j1228360647041_2_alg».proof.Proof.KerNet

set_option maxRecDepth 16384

noncomputable section

namespace Cert.KernelIdeal.ChainValue

open Cert.KernelIdeal Cert.KernelIdeal.Gen Cert.KernelIdeal.HostValue Cert.KernelIdeal.RegionValue Cert.Spec
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- The argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- The embedded rows, the edge columns and the factor column. -/
abbrev X0 : CF S400000x128 := kX0 (a0 m c) (a1 m c) (a2 m c) (a3 m c)
abbrev SRC : CI S400000 := kSrc (a0 m c) (a1 m c)
abbrev DST : CI S400000 := kDst (a0 m c) (a1 m c)
abbrev DV : CF S400000x1 := kDinv2 (DST m c)
/-- Each launch's output array and each aggregate. -/
abbrev H0 : CF S400000x128 := lin (X0 m c) (kW0 (a4 m c)) (DV m c)
abbrev S1 : CF S400000x128 := kAgg (H0 m c) (SRC m c) (DST m c)
abbrev H1 : CF S400000x128 := linRelu (S1 m c) (kB0 (a5 m c)) (kW1 (a4 m c)) (DV m c)
abbrev S2 : CF S400000x128 := kAgg (H1 m c) (SRC m c) (DST m c)
abbrev H2 : CF S400000x128 := linRelu (S2 m c) (kB1 (a5 m c)) (kW2 (a4 m c)) (DV m c)

/-! ## Before and after the first launch -/

theorem w3_v14 : W3 m ρ c (dr main_v14) = X0 m c := open3_v14 (W0 m ρ c)
theorem w3_v17 : W3 m ρ c (dr main_v17) = SRC m c := open3_v17 (W0 m ρ c)
theorem w3_v18 : W3 m ρ c (dr main_v18) = DST m c := open3_v18 (W0 m ρ c)
theorem w3_v31 : W3 m ρ c (dr main_v31) = DV m c := open3_v31 (W0 m ρ c)
theorem w3_v33 : W3 m ρ c (dr main_v33) = kW0 (a4 m c) := open3_v33 (W0 m ρ c)
theorem w3_arg4 : W3 m ρ c (dr main_arg4) = a4 m c := open3_arg4 (W0 m ρ c)
theorem w3_arg5 : W3 m ρ c (dr main_arg5) = a5 m c := open3_arg5 (W0 m ρ c)

theorem w4_v34 : W4 m ρ c (dr main_v34) = H0 m c := by
  refine (W4_arr m ρ c 3).trans ?_
  rw [region0_out (V3 m ρ) c]
  show lin (W3 m ρ c (dr main_v14)) (W3 m ρ c (dr main_v33)) (W3 m ρ c (dr main_v31)) = _
  rw [w3_v14, w3_v33, w3_v31]
theorem w4_v17 : W4 m ρ c (dr main_v17) = SRC m c := (W4_of_ne m ρ c main_v17 (by decide)).trans (w3_v17 m ρ c)
theorem w4_v18 : W4 m ρ c (dr main_v18) = DST m c := (W4_of_ne m ρ c main_v18 (by decide)).trans (w3_v18 m ρ c)
/-- The factor column is an input window of every launch: a launch leaves an input window's array as entered. -/
theorem w4_v31 : W4 m ρ c (dr main_v31) = DV m c :=
  (W4_arr m ρ c 2).trans (((dat0 (V3 m ρ) c).arrAt_in 2 rfl cfg0.N).trans ((A_eq0 (V3 m ρ) c 2).trans (w3_v31 m ρ c)))
theorem w4_arg4 : W4 m ρ c (dr main_arg4) = a4 m c := (W4_of_ne m ρ c main_arg4 (by decide)).trans (w3_arg4 m ρ c)
theorem w4_arg5 : W4 m ρ c (dr main_arg5) = a5 m c := (W4_of_ne m ρ c main_arg5 (by decide)).trans (w3_arg5 m ρ c)

/-! ## Around the second launch -/

theorem w5_v45 : W5 m ρ c (dr main_v45) = S1 m c := by
  refine (mid1_v45 (W4 m ρ c)).trans ?_
  rw [w4_v34, w4_v17, w4_v18]
theorem w5_v48 : W5 m ρ c (dr main_v48) = kB0 (a5 m c) := (mid1_v48 (W4 m ρ c)).trans (by rw [w4_arg5])
theorem w5_v50 : W5 m ρ c (dr main_v50) = kW1 (a4 m c) := (mid1_v50 (W4 m ρ c)).trans (by rw [w4_arg4])
theorem w5_v31 : W5 m ρ c (dr main_v31) = DV m c := (mid1_v31 (W4 m ρ c)).trans (w4_v31 m ρ c)
theorem w5_v17 : W5 m ρ c (dr main_v17) = SRC m c := (mid1_v17 (W4 m ρ c)).trans (w4_v17 m ρ c)
theorem w5_v18 : W5 m ρ c (dr main_v18) = DST m c := (mid1_v18 (W4 m ρ c)).trans (w4_v18 m ρ c)
theorem w5_arg4 : W5 m ρ c (dr main_arg4) = a4 m c := (mid1_arg4 (W4 m ρ c)).trans (w4_arg4 m ρ c)
theorem w5_arg5 : W5 m ρ c (dr main_arg5) = a5 m c := (mid1_arg5 (W4 m ρ c)).trans (w4_arg5 m ρ c)

theorem w6_v51 : W6 m ρ c (dr main_v51) = H1 m c := by
  refine (W6_arr m ρ c 4).trans ?_
  rw [region1_out (V5 m ρ) c]
  show linRelu (W5 m ρ c (dr main_v45)) (W5 m ρ c (dr main_v48)) (W5 m ρ c (dr main_v50)) (W5 m ρ c (dr main_v31)) = _
  rw [w5_v45, w5_v48, w5_v50, w5_v31]
theorem w6_v17 : W6 m ρ c (dr main_v17) = SRC m c := (W6_of_ne m ρ c main_v17 (by decide)).trans (w5_v17 m ρ c)
theorem w6_v18 : W6 m ρ c (dr main_v18) = DST m c := (W6_of_ne m ρ c main_v18 (by decide)).trans (w5_v18 m ρ c)
theorem w6_v31 : W6 m ρ c (dr main_v31) = DV m c :=
  (W6_arr m ρ c 3).trans (((dat1 (V5 m ρ) c).arrAt_in 3 rfl cfg1.N).trans ((A_eq1 (V5 m ρ) c 3).trans (w5_v31 m ρ c)))
theorem w6_arg4 : W6 m ρ c (dr main_arg4) = a4 m c := (W6_of_ne m ρ c main_arg4 (by decide)).trans (w5_arg4 m ρ c)
theorem w6_arg5 : W6 m ρ c (dr main_arg5) = a5 m c := (W6_of_ne m ρ c main_arg5 (by decide)).trans (w5_arg5 m ρ c)

/-! ## Around the third launch -/

theorem w7_v62 : W7 m ρ c (dr main_v62) = S2 m c := by
  refine (mid2_v62 (W6 m ρ c)).trans ?_
  rw [w6_v51, w6_v17, w6_v18]
theorem w7_v65 : W7 m ρ c (dr main_v65) = kB1 (a5 m c) := (mid2_v65 (W6 m ρ c)).trans (by rw [w6_arg5])
theorem w7_v67 : W7 m ρ c (dr main_v67) = kW2 (a4 m c) := (mid2_v67 (W6 m ρ c)).trans (by rw [w6_arg4])
theorem w7_v31 : W7 m ρ c (dr main_v31) = DV m c := (mid2_v31 (W6 m ρ c)).trans (w6_v31 m ρ c)
theorem w7_v17 : W7 m ρ c (dr main_v17) = SRC m c := (mid2_v17 (W6 m ρ c)).trans (w6_v17 m ρ c)
theorem w7_v18 : W7 m ρ c (dr main_v18) = DST m c := (mid2_v18 (W6 m ρ c)).trans (w6_v18 m ρ c)
theorem w7_arg5 : W7 m ρ c (dr main_arg5) = a5 m c := (mid2_arg5 (W6 m ρ c)).trans (w6_arg5 m ρ c)

theorem w8_v68 : W8 m ρ c (dr main_v68) = H2 m c := by
  refine (W8_arr m ρ c 4).trans ?_
  rw [region2_out (V7 m ρ) c]
  show linRelu (W7 m ρ c (dr main_v62)) (W7 m ρ c (dr main_v65)) (W7 m ρ c (dr main_v67)) (W7 m ρ c (dr main_v31)) = _
  rw [w7_v62, w7_v65, w7_v67, w7_v31]
theorem w8_v17 : W8 m ρ c (dr main_v17) = SRC m c := (W8_of_ne m ρ c main_v17 (by decide)).trans (w7_v17 m ρ c)
theorem w8_v18 : W8 m ρ c (dr main_v18) = DST m c := (W8_of_ne m ρ c main_v18 (by decide)).trans (w7_v18 m ρ c)
theorem w8_v31 : W8 m ρ c (dr main_v31) = DV m c :=
  (W8_arr m ρ c 3).trans (((dat2 (V7 m ρ) c).arrAt_in 3 rfl cfg2.N).trans ((A_eq2 (V7 m ρ) c 3).trans (w7_v31 m ρ c)))
theorem w8_arg5 : W8 m ρ c (dr main_arg5) = a5 m c := (W8_of_ne m ρ c main_arg5 (by decide)).trans (w7_arg5 m ρ c)

/-! ## The two results -/

theorem w11_v88 : W11 m ρ c (dr main_v88) = kRes0 (kNet (a0 m c) (a1 m c) (a2 m c) (a3 m c) (a4 m c) (a5 m c)) := by
  refine (close3_v88 (W8 m ρ c)).trans ?_
  rw [w8_v68, w8_v17, w8_v18, w8_v31, w8_arg5]
  rfl
theorem w11_v89 : W11 m ρ c (dr main_v89) = kRes1 (kNet (a0 m c) (a1 m c) (a2 m c) (a3 m c) (a4 m c) (a5 m c)) := by
  refine (close3_v89 (W8 m ρ c)).trans ?_
  rw [w8_v68, w8_v17, w8_v18, w8_v31, w8_arg5]
  rfl

end Cert.KernelIdeal.ChainValue

end
-- ==== Proof.Bridge.lean ====
/-
  The two programs compute the same arrays: the bridge between the kernel's host operations and the reference's stages.

  Both programs build, from the two index columns a0, a1 and the two tables, the same embedded rows (each table's rows
  gathered at its column, negative words wrapped by the table's length, the two halves joined) and the same edge
  columns src = (a0 + 200000) ++ a1 and dst = a1 ++ (a0 + 200000): the two texts apply the same operations to the same
  shapes, so these arrays are equal by unfolding.  Both end by cutting the final [400000, 128] array into its first
  and its last 200000 rows.  So once each program's final array is, entry by entry, the network of Spec over those
  shared arrays, the two pairs of results are equal.
-/
import proofs.«152663_j1228360647041_2_alg».proof.Proof.KerHostDefs
import proofs.«152663_j1228360647041_2_alg».proof.Proof.KerNet
import proofs.«152663_j1228360647041_2_alg».proof.Proof.RefReadP
import proofs.«152663_j1228360647041_2_alg».proof.Proof.Spec
import Idealize.ShloMosaic.Lib.ValueIdx

noncomputable section

namespace Cert.Bridge

open Idealize.ShloMosaic Idealize.ShloMosaic.ValueIdx
open Cert.KernelIdeal.HostValue
open Cert.KernelIdeal (S200000 S100000x128 S3x128x128 S3x128 S400000x128 S200000x128 S400000 S200000x1)

/-! ## The shared arrays -/

/-- The user column shifted by half the node count is the same array in both programs. -/
theorem shift_eq (a0 : CI S200000) : kU a0 = Cert.ReferenceIdeal.Read.val_main_v16 (F := Ideal) a0 := rfl

/-- The edge sources. -/
theorem src_eq (a0 a1 : CI S200000) : kSrc a0 a1 = Cert.ReferenceIdeal.Read.val_main_v17 (F := Ideal) a0 a1 := rfl

/-- The edge destinations. -/
theorem dst_eq (a0 a1 : CI S200000) : kDst a0 a1 = Cert.ReferenceIdeal.Read.val_main_v18 (F := Ideal) a0 a1 := rfl

/-- The first table's index column, negative words wrapped by the table's length. -/
theorem wrapTab_eq0 (a0 : CI S200000) : kWrapTab a0 = Cert.ReferenceIdeal.Read.val_main_v5 (F := Ideal) a0 := rfl

/-- The second table's index column. -/
theorem wrapTab_eq1 (a1 : CI S200000) : kWrapTab a1 = Cert.ReferenceIdeal.Read.val_main_v12 (F := Ideal) a1 := rfl

/-- The embedded rows: the first table's rows at a0, then the second table's rows at a1. -/
theorem x0_eq (a0 a1 : CI S200000) (a2 a3 : CF S100000x128) :
    kX0 a0 a1 a2 a3 = Cert.ReferenceIdeal.Read.val_main_v14 (F := Ideal) a0 a1 a2 a3 := rfl

/-! ## The results are the two halves of the final array -/

/-- The reference's first result is rows 0 … 199999 of its final array. -/
theorem res0_eq (a0 a1 : CI S200000) (a2 a3 : CF S100000x128) (a4 : CF S3x128x128) (a5 : CF S3x128) :
    Cert.ReferenceIdeal.Read.val_main_v169 (F := Ideal) a0 a1 a2 a3 a4 a5
      = kRes0 (Cert.ReferenceIdeal.Read.val_main_v168 (F := Ideal) a0 a1 a2 a3 a4 a5) := rfl

/-- The reference's second result is rows 200000 … 399999 of its final array. -/
theorem res1_eq (a0 a1 : CI S200000) (a2 a3 : CF S100000x128) (a4 : CF S3x128x128) (a5 : CF S3x128) :
    Cert.ReferenceIdeal.Read.val_main_v170 (F := Ideal) a0 a1 a2 a3 a4 a5
      = kRes1 (Cert.ReferenceIdeal.Read.val_main_v168 (F := Ideal) a0 a1 a2 a3 a4 a5) := rfl

/-! ## The two programs' results agree -/

/-- The kernel's final array is the reference's, given that the reference's is the network of Spec over its own
    edge columns and embedded rows (the kernel's is, by the reading of its launches and host operations). -/
theorem final_eq (a0 a1 : CI S200000) (a2 a3 : CF S100000x128) (a4 : CF S3x128x128) (a5 : CF S3x128)
    (href : ∀ (i : Fin 400000) (d : Fin 128),
      Cert.ReferenceIdeal.Read.val_main_v168 (F := Ideal) a0 a1 a2 a3 a4 a5 (ix2 i d)
        = Cert.Spec.net (Cert.ReferenceIdeal.Read.val_main_v17 (F := Ideal) a0 a1)
            (Cert.ReferenceIdeal.Read.val_main_v18 (F := Ideal) a0 a1)
            (Cert.ReferenceIdeal.Read.val_main_v14 (F := Ideal) a0 a1 a2 a3) a4 a5 i d) :
    kNet a0 a1 a2 a3 a4 a5 = Cert.ReferenceIdeal.Read.val_main_v168 (F := Ideal) a0 a1 a2 a3 a4 a5 := by
  have key : ∀ j : S400000x128.Idx,
      kNet a0 a1 a2 a3 a4 a5 j = Cert.ReferenceIdeal.Read.val_main_v168 (F := Ideal) a0 a1 a2 a3 a4 a5 j := by
    intro j
    obtain ⟨i, d, rfl⟩ : ∃ (i : Fin 400000) (d : Fin 128), j = ix2 i d := ⟨j 0, j 1, eq_ix2 j⟩
    rw [kNet_apply, href, src_eq, dst_eq, x0_eq]
  exact funext key

/-- THE RESULTS: each half of the kernel's final array is the reference's result of the same rows. -/
theorem results_eq (a0 a1 : CI S200000) (a2 a3 : CF S100000x128) (a4 : CF S3x128x128) (a5 : CF S3x128)
    (href : ∀ (i : Fin 400000) (d : Fin 128),
      Cert.ReferenceIdeal.Read.val_main_v168 (F := Ideal) a0 a1 a2 a3 a4 a5 (ix2 i d)
        = Cert.Spec.net (Cert.ReferenceIdeal.Read.val_main_v17 (F := Ideal) a0 a1)
            (Cert.ReferenceIdeal.Read.val_main_v18 (F := Ideal) a0 a1)
            (Cert.ReferenceIdeal.Read.val_main_v14 (F := Ideal) a0 a1 a2 a3) a4 a5 i d) :
    kRes0 (kNet a0 a1 a2 a3 a4 a5) = Cert.ReferenceIdeal.Read.val_main_v169 (F := Ideal) a0 a1 a2 a3 a4 a5
    ∧ kRes1 (kNet a0 a1 a2 a3 a4 a5) = Cert.ReferenceIdeal.Read.val_main_v170 (F := Ideal) a0 a1 a2 a3 a4 a5 := by
  rw [res0_eq, res1_eq, final_eq a0 a1 a2 a3 a4 a5 href]
  exact ⟨rfl, rfl⟩

end Cert.Bridge

end
-- ==== Proof.lean ====
/-
  The certificate of a three-layer graph convolution: a kernel that launches one matrix product per layer on the
  matrix unit (each fused with a row scaling and, from the second layer on, with the previous layer's bias and ReLU)
  and aggregates over the edges on the host, against the textbook layer with self-loops appended and per-edge
  normalization.

  The frames of the two printed kernels are their generated frames; the reference's frame is its run with the results
  forgotten; the idealization rewrote nothing.  For the value claim both programs are read as one function of the six
  argument arrays, `Cert.Spec.net`: the kernel through the fold of its eleven segments (each launch's output array is a
  whole-array function of its inputs; each host stretch composes its operations), the reference through its run's
  stages, each read at an index.  The two readings meet because a node's factor, the inverse square root of its degree,
  is a non-negative real number, and multiplication by such a number distributes over every sum of extended reals.
-/
import proofs.«152663_j1228360647041_2_alg».proof.Defs
import proofs.«152663_j1228360647041_2_alg».proof.Proof.Gen.Kernel
import proofs.«152663_j1228360647041_2_alg».proof.Proof.Gen.Kernel.Frame
import proofs.«152663_j1228360647041_2_alg».proof.Proof.Gen.KernelIdeal
import proofs.«152663_j1228360647041_2_alg».proof.Proof.Gen.KernelIdeal.Frame
import proofs.«152663_j1228360647041_2_alg».proof.Proof.Gen.ReferenceIdeal
import proofs.«152663_j1228360647041_2_alg».proof.Proof.Gen.Pre_finite_inputs
import proofs.«152663_j1228360647041_2_alg».proof.Proof.RefRunP
import proofs.«152663_j1228360647041_2_alg».proof.Proof.RefReadP
import proofs.«152663_j1228360647041_2_alg».proof.Proof.RefNet
import proofs.«152663_j1228360647041_2_alg».proof.Proof.KerRun
import proofs.«152663_j1228360647041_2_alg».proof.Proof.KerChain
import proofs.«152663_j1228360647041_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The printed kernel runs and keeps its arguments. -/
theorem frame_kernel : Cert.frame_Kernel := fun m ρ _ => Cert.Kernel.Gen.frame m ρ

/-- Its idealization runs and keeps its arguments. -/
theorem frame_kernelIdeal : Cert.frame_KernelIdeal := fun m ρ _ => Cert.KernelIdeal.Gen.frame m ρ

/-- The reference runs and keeps its arguments: its run, the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- At the extended reals both programs end with the same two results: the two halves of `Cert.Spec.net` of the argument
    arrays. -/
theorem algebraic : Cert.algebraic_KernelIdeal_ReferenceIdeal := by
  intro m ρ m' ρ' _ hagree
  refine ⟨fun c => Cert.KernelIdeal.HostValue.kRes0 (Cert.KernelIdeal.HostValue.kNet
      (Cert.KernelIdeal.ChainValue.a0 m c) (Cert.KernelIdeal.ChainValue.a1 m c) (Cert.KernelIdeal.ChainValue.a2 m c)
      (Cert.KernelIdeal.ChainValue.a3 m c) (Cert.KernelIdeal.ChainValue.a4 m c) (Cert.KernelIdeal.ChainValue.a5 m c)),
    fun c => Cert.KernelIdeal.HostValue.kRes1 (Cert.KernelIdeal.HostValue.kNet
      (Cert.KernelIdeal.ChainValue.a0 m c) (Cert.KernelIdeal.ChainValue.a1 m c) (Cert.KernelIdeal.ChainValue.a2 m c)
      (Cert.KernelIdeal.ChainValue.a3 m c) (Cert.KernelIdeal.ChainValue.a4 m c) (Cert.KernelIdeal.ChainValue.a5 m c)),
    ?_, ?_⟩
  · refine (θ_run Cert.KernelIdeal.defs _ _).mono (fun r h c => ?_) (Cert.KernelIdeal.RunValue.run_values (F := Ideal) m ρ)
    obtain ⟨h88, h89, hargs⟩ := h c
    exact ⟨h88.trans (Cert.KernelIdeal.ChainValue.w11_v88 m ρ c), h89.trans (Cert.KernelIdeal.ChainValue.w11_v89 m ρ c), hargs⟩
  · refine (θ_run Cert.ReferenceIdeal.defs _ _).mono (fun r h c => ?_) (Cert.ReferenceIdeal.Value.run (F := Ideal) m' ρ')
    obtain ⟨h169, h170, hargs⟩ := h c
    obtain ⟨e0, e1, e2, e3, e4, e5⟩ := hagree c
    have hres := Cert.Bridge.results_eq (Cert.KernelIdeal.ChainValue.a0 m c) (Cert.KernelIdeal.ChainValue.a1 m c)
      (Cert.KernelIdeal.ChainValue.a2 m c) (Cert.KernelIdeal.ChainValue.a3 m c) (Cert.KernelIdeal.ChainValue.a4 m c)
      (Cert.KernelIdeal.ChainValue.a5 m c)
      (fun i d => Cert.ReferenceIdeal.RefValue.ref_net_apply _ _ _ _ _ _ i d)
    refine ⟨h169.trans ?_, h170.trans ?_, hargs⟩
    · rw [Cert.ReferenceIdeal.Read.val_main_v169_eq, e0, e1, e2, e3, e4, e5]
      exact hres.1.symm
    · rw [Cert.ReferenceIdeal.Read.val_main_v170_eq, e0, e1, e2, e3, e4, e5]
      exact hres.2.symm

/-- The certificate's claim. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
